-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S500000 : Shape := ⟨1, ![500000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg7 : FVec F S128 .f32) (main_arg8 : FVec F S256x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x1 .f32 := Host.absf main_arg8
  let main_cst_8 : FVec F S_ .f32 := constant S_ .f32 0x7F800000#32
  let main_v25 : FVec F S256x1 .f32 := broadcastInDim S256x1 ![] bcast_S_S256x1 main_cst_8
  let main_v26 : IVec S256x1 1 := cmpf .olt main_v24 main_v25
  let main_c_9 : IVec S_ 1 := constantI S_ 1 1#1
  let main_v27 : IVec S_ 1 := (fun x v => Host.reduce IntOp.andi x v reducesTo_S256x1_S_d0_1 h_S_) main_v26 main_c_9
  let main_v28 : IVec S_ 1 := andi main_v23 main_v27
  let main_v29 : FVec F S1 .f32 := Host.absf main_arg9
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S500000 32) (main_arg3 : IVec S500000 32) (main_arg4 : FVec F S128x128 .f32) (main_arg5 : FVec F S128 .f32) (main_arg6 : FVec F S128x128 .f32) (main_arg7 : FVec F S128 .f32) (main_arg8 : FVec F S256x1 .f32) (main_arg9 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_v13 main_v16
-- ==== Kernel.lean ====
abbrev S100000x128 : Shape := ⟨2, ![100000, 128]⟩
abbrev S2x1600000 : Shape := ⟨2, ![2, 1600000]⟩
abbrev S500000 : Shape := ⟨1, ![500000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩
abbrev S500000x1 : Shape := ⟨2, ![500000, 1]⟩
abbrev S500000x128 : Shape := ⟨2, ![500000, 128]⟩
abbrev S128x1 : Shape := ⟨2, ![128, 1]⟩
abbrev S1x1 : Shape := ⟨2, ![1, 1]⟩

abbrev nBuf : Space → Nat
  | .hbm => 79
  | .vmem => 41
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S500000, .i32⟩
  | .hbm, ⟨3, _⟩ => ⟨S500000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S256x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S100000x128, .bf16⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x128, .f32⟩
  | .hbm, ⟨56, _⟩ => ⟨S100000x128, .bf16⟩
  | .hbm, ⟨57, _⟩ => ⟨S_, .i32⟩
  | .hbm, ⟨58, _⟩ => ⟨S500000, .i32⟩
  | .hbm, ⟨59, _⟩ => ⟨S500000, .i1⟩
  | .hbm, ⟨60, _⟩ => ⟨S_, .i32⟩
  | .hbm, ⟨61, _⟩ => ⟨S500000, .i32⟩
  | .hbm, ⟨62, _⟩ => ⟨S500000, .i32⟩
  | .hbm, ⟨63, _⟩ => ⟨S500000, .i32⟩
  | .hbm, ⟨64, _⟩ => ⟨S500000x1, .i32⟩
  | .hbm, ⟨65, _⟩ => ⟨S500000x128, .bf16⟩
  | .hbm, ⟨66, _⟩ => ⟨S_, .i32⟩
  | .hbm, ⟨67, _⟩ => ⟨S500000, .i32⟩
  | .hbm, ⟨68, _⟩ => ⟨S500000, .i1⟩
  | .hbm, ⟨69, _⟩ => ⟨S_, .i32⟩
  | .hbm, ⟨70, _⟩ => ⟨S500000, .i32⟩
  | .hbm, ⟨71, _⟩ => ⟨S500000, .i32⟩
  | .hbm, ⟨72, _⟩ => ⟨S500000, .i32⟩
  | .hbm, ⟨73, _⟩ => ⟨S500000x1, .i32⟩
  | .hbm, ⟨74, _⟩ => ⟨S500000x128, .bf16⟩
  | .hbm, ⟨75, _⟩ => ⟨S128x1, .f32⟩
  | .hbm, ⟨76, _⟩ => ⟨S128x1, .f32⟩
  | .hbm, ⟨77, _⟩ => ⟨S1x1, .f32⟩
  | .hbm, ⟨78, _⟩ => ⟨S500000x1, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x1, .f32⟩
  | .local _ .vmem, ⟨4, _⟩ => ⟨S4000x1, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x1, .f32⟩
  | .local _ .vmem, ⟨12, _⟩ => ⟨S4000x1, .f32⟩
  | .local _ .vmem, ⟨13, _⟩ => ⟨S1x128, .f32⟩
  | .local _ .vmem, ⟨14, _⟩ => ⟨S4000x128, .bf16⟩
  | .local _ .vmem, ⟨15, _⟩ => ⟨S4000x128, .bf16⟩
  | .local _ .vmem, ⟨16, _⟩ => ⟨S4000x128, .bf16⟩
  | .local _ .vmem, ⟨17, _⟩ => ⟨S4000x128, .bf16⟩
  | .local _ .vmem, ⟨18, _⟩ => ⟨S128x128, .f32⟩
  | .local _ .vmem, ⟨19, _⟩ => ⟨S4000x1, .f32⟩
  | .local _ .vmem, ⟨20, _⟩ => ⟨S4000x1, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x1, .f32⟩
  | .local _ .vmem, ⟨28, _⟩ => ⟨S4000x1, .f32⟩
  | .local _ .vmem, ⟨29, _⟩ => ⟨S1x128, .f32⟩
  | .local _ .vmem, ⟨30, _⟩ => ⟨S4000x128, .bf16⟩
  | .local _ .vmem, ⟨31, _⟩ => ⟨S4000x128, .bf16⟩
  | .local _ .vmem, ⟨32, _⟩ => ⟨S4000x128, .bf16⟩
  | .local _ .vmem, ⟨33, _⟩ => ⟨S4000x128, .bf16⟩
  | .local _ .vmem, ⟨34, _⟩ => ⟨S4000x128, .bf16⟩
  | .local _ .vmem, ⟨35, _⟩ => ⟨S4000x128, .bf16⟩
  | .local _ .vmem, ⟨36, _⟩ => ⟨S128x1, .f32⟩
  | .local _ .vmem, ⟨37, _⟩ => ⟨S128x1, .f32⟩
  | .local _ .vmem, ⟨38, _⟩ => ⟨S1x1, .f32⟩
  | .local _ .vmem, ⟨39, _⟩ => ⟨S4000x1, .f32⟩
  | .local _ .vmem, ⟨40, _⟩ => ⟨S4000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_4 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_c_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_c_9 : Ref sig .tc := ⟨.hbm, 66, rfl⟩
abbrev main_v45 : Ref sig .tc := ⟨.hbm, 67, rfl⟩
abbrev main_v46 : Ref sig .tc := ⟨.hbm, 68, rfl⟩
abbrev main_c_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg5_1 : Ref sig .tc := ⟨.vmem, 40, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem5_1 : DmaSem sig := 40

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x128 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S4000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S128_S1x128 : S128.ShapeCasts S1x128
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  bcast_S_S500000 : S_.BroadcastsInDim S500000 (![] : Fin 0 → Fin S500000.rank)
  bcast_S500000_S500000x1_0 : S500000.BroadcastsInDim S500000x1 (![0] : Fin 1 → Fin S500000x1.rank)
  slices_S256x1_S128x1_0_0 : S256x1.Slices ![0, 0] S128x1
  slices_S256x1_S128x1_128_0 : S256x1.Slices ![128, 0] S128x1
  shapeCasts_S1_S1x1 : S1.ShapeCasts S1x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S500000x1_S500000x128_1_0_n_n_0_1_1128_wf : GatherDims.WF S100000x128 S500000x1 S500000x128 [1] [0] [] [0] [] 1 ![1, 128]
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .bf16 = 32 ∨ (Rect.block (s := S100000x128) S4000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x128.size a ≤ S100000x128.size a
  hwx2_3 : ∀ i : grid2.Coords, EltTy.bits .f32 = 32 ∨ (Rect.block (s := S100000x128) S4000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x1.size a ≤ S100000x1.size a
  hwx3_2 : ∀ i : grid3.Coords, EltTy.bits .f32 = 32 ∨ (Rect.block (s := S100000x1) S4000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x128.size a ≤ S100000x128.size a
  hwx3_4 : ∀ i : grid3.Coords, EltTy.bits .bf16 = 32 ∨ (Rect.block (s := S100000x128) S4000x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x128.size a ≤ S500000x128.size a
  hwx4_0 : ∀ i : grid4.Coords, EltTy.bits .bf16 = 32 ∨ (Rect.block (s := S500000x128) S4000x128.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S500000x128.size a
  hwx4_1 : ∀ i : grid4.Coords, EltTy.bits .bf16 = 32 ∨ (Rect.block (s := S500000x128) S4000x128.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x1.size a ≤ S128x1.size a
  hwx4_3 : ∀ i : grid4.Coords, EltTy.bits .f32 = 32 ∨ (Rect.block (s := S128x1) S128x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S4000x1.size a ≤ S500000x1.size a
  hwx4_5 : ∀ i : grid4.Coords, EltTy.bits .f32 = 32 ∨ (Rect.block (s := S500000x1) S4000x1.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v24) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v24) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v25) S4000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S4000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v37) S4000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v44) S4000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v52) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S128x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v54) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v55) S4000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S500000 : Shape := ⟨1, ![500000]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S500000x1 : Shape := ⟨2, ![500000, 1]⟩
abbrev S500000x128 : Shape := ⟨2, ![500000, 128]⟩
abbrev S500000x256 : Shape := ⟨2, ![500000, 256]⟩
abbrev S1x1 : Shape := ⟨2, ![1, 1]⟩

abbrev nBuf : Space → Nat
  | .hbm => 146
  | .vmem => 0
  | .smem => 0
  | _ => 0

abbrev hbmTy0_0 (i : Nat) : BufTy := match i % 128 with
  | 0 => ⟨S100000x128, .f32⟩
  | 1 => ⟨S2x1600000, .i32⟩
  | 2 => ⟨S500000, .i32⟩
  | 3 => ⟨S500000, .i32⟩
  | 4 => ⟨S128x128, .f32⟩
  | 5 => ⟨S128, .f32⟩
  | 6 => ⟨S128x128, .f32⟩
  | 7 => ⟨S128, .f32⟩
  | 8 => ⟨S256x1, .f32⟩
  | 9 => ⟨S1, .f32⟩
  | 10 => ⟨S1x1600000, .i32⟩
  | 11 => ⟨S1600000, .i32⟩
  | 12 => ⟨S1x1600000, .i32⟩
  | 13 => ⟨S1600000, .i32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .f32⟩
  | 23 => ⟨S100000, .f32⟩
  | 24 => ⟨S100000x128, .f32⟩
  | 25 => ⟨S_, .i32⟩
  | 26 => ⟨S1600000, .i32⟩
  | 27 => ⟨S1600000, .i1⟩
  | 28 => ⟨S_, .i32⟩
  | 29 => ⟨S1600000, .i32⟩
  | 30 => ⟨S1600000, .i32⟩
  | 31 => ⟨S1600000, .i32⟩
  | 32 => ⟨S1600000x1, .i32⟩
  | 33 => ⟨S1600000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S1600000, .f32⟩
  | 44 => ⟨S_, .i32⟩
  | 45 => ⟨S1600000, .i32⟩
  | 46 => ⟨S1600000, .i1⟩
  | 47 => ⟨S_, .i32⟩
  | 48 => ⟨S1600000, .i32⟩
  | 49 => ⟨S1600000, .i32⟩
  | 50 => ⟨S1600000, .i32⟩
  | 51 => ⟨S1600000x1, .i32⟩
  | 52 => ⟨S1600000x128, .f32⟩
  | 53 => ⟨S1600000x1, .f32⟩
  | 54 => ⟨S1600000x128, .f32⟩
  | 55 => ⟨S1600000x128, .f32⟩
  | 56 => ⟨S_, .f32⟩
  | 57 => ⟨S100000x128, .f32⟩
  | 58 => ⟨S1600000x1, .i32⟩
  | 59 => ⟨S100000x128, .f32⟩
  | 60 => ⟨S100000, .f32⟩
  | 61 => ⟨S100000x1, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1600000, .i32⟩
  | 74 => ⟨S1600000, .i1⟩
  | 75 => ⟨S_, .i32⟩
  | 76 => ⟨S1600000, .i32⟩
  | 77 => ⟨S1600000, .i32⟩
  | 78 => ⟨S1600000, .i32⟩
  | 79 => ⟨S1600000x1, .i32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000, .f32⟩
  | 90 => ⟨S1600000, .f32⟩
  | 91 => ⟨S_, .i32⟩
  | 92 => ⟨S1600000, .i32⟩
  | 93 => ⟨S1600000, .i1⟩
  | 94 => ⟨S_, .i32⟩
  | 95 => ⟨S1600000, .i32⟩
  | 96 => ⟨S1600000, .i32⟩
  | 97 => ⟨S1600000, .i32⟩
  | 98 => ⟨S1600000x1, .i32⟩
  | 99 => ⟨S1600000x128, .f32⟩
  | 100 => ⟨S1600000x1, .f32⟩
  | 101 => ⟨S1600000x128, .f32⟩
  | 102 => ⟨S1600000x128, .f32⟩
  | 103 => ⟨S_, .f32⟩
  | 104 => ⟨S100000x128, .f32⟩
  | 105 => ⟨S1600000x1, .i32⟩
  | 106 => ⟨S100000x128, .f32⟩
  | 107 => ⟨S100000, .f32⟩
  | 108 => ⟨S100000x1, .f32⟩
  | 109 => ⟨S100000x128, .f32⟩
  | 110 => ⟨S100000x128, .f32⟩
  | 111 => ⟨S100000x128, .f32⟩
  | 112 => ⟨S1x128, .f32⟩
  | 113 => ⟨S100000x128, .f32⟩
  | 114 => ⟨S100000x128, .f32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S500000x128, .f32⟩
  | 124 => ⟨S_, .i32⟩
  | 125 => ⟨S500000, .i32⟩
  | 126 => ⟨S500000, .i1⟩
  | 127 => ⟨S_, .i32⟩
  | _ => ⟨S100000x128, .f32⟩

abbrev hbmTy0_1 (i : Nat) : BufTy := match i % 128 with
  | 0 => ⟨S500000, .i32⟩
  | 1 => ⟨S500000, .i32⟩
  | 2 => ⟨S500000, .i32⟩
  | 3 => ⟨S500000x1, .i32⟩
  | 4 => ⟨S500000x128, .f32⟩
  | 5 => ⟨S500000x256, .f32⟩
  | 6 => ⟨S500000x1, .f32⟩
  | 7 => ⟨S1x1, .f32⟩
  | 8 => ⟨S500000x1, .f32⟩
  | 9 => ⟨S500000x1, .f32⟩
  | 10 => ⟨S500000x1, .f32⟩
  | 11 => ⟨S500000x1, .f32⟩
  | 12 => ⟨S_, .f32⟩
  | 13 => ⟨S500000x1, .f32⟩
  | 14 => ⟨S500000x1, .f32⟩
  | 15 => ⟨S_, .f32⟩
  | 16 => ⟨S500000x1, .f32⟩
  | 17 => ⟨S500000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_c_8 : Ref sig .tc := ⟨.hbm, 72, rfl⟩
abbrev main_v50 : Ref sig .tc := ⟨.hbm, 73, rfl⟩
abbrev main_v51 : Ref sig .tc := ⟨.hbm, 74, rfl⟩
abbrev main_c_9 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_c_10 : Ref sig .tc := ⟨.hbm, 81, rfl⟩
abbrev main_v57 : Ref sig .tc := ⟨.hbm, 82, rfl⟩
abbrev main_v58 : Ref sig .tc := ⟨.hbm, 83, rfl⟩
abbrev main_c_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_12 : Ref sig .tc := ⟨.hbm, 91, rfl⟩
abbrev main_v65 : Ref sig .tc := ⟨.hbm, 92, rfl⟩
abbrev main_v66 : Ref sig .tc := ⟨.hbm, 93, rfl⟩
abbrev main_c_13 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_15 : Ref sig .tc := ⟨.hbm, 115, rfl⟩
abbrev main_v86 : Ref sig .tc := ⟨.hbm, 116, rfl⟩
abbrev main_v87 : Ref sig .tc := ⟨.hbm, 117, rfl⟩
abbrev main_c_16 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_17 : Ref sig .tc := ⟨.hbm, 124, rfl⟩
abbrev main_v93 : Ref sig .tc := ⟨.hbm, 125, rfl⟩
abbrev main_v94 : Ref sig .tc := ⟨.hbm, 126, rfl⟩
abbrev main_c_18 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_19 : Ref sig .tc := ⟨.hbm, 140, rfl⟩
abbrev main_v107 : Ref sig .tc := ⟨.hbm, 141, rfl⟩
abbrev main_v108 : Ref sig .tc := ⟨.hbm, 142, rfl⟩
abbrev main_cst_20 : Ref sig .tc := ⟨.hbm, 143, rfl⟩
abbrev main_v109 : Ref sig .tc := ⟨.hbm, 144, rfl⟩
abbrev main_v110 : Ref sig .tc := ⟨.hbm, 145, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  bcast_S_S500000x1 : S_.BroadcastsInDim S500000x1 (![] : Fin 0 → Fin S500000x1.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S500000x1_S500000x128_1_0_n_n_0_1_1128_wf : GatherDims.WF S100000x128 S500000x1 S500000x128 [1] [0] [] [0] [] 1 ![1, 128]
  dot_S500000x256_S256x1_S500000x1_1_0_0_1_n_n_wf : DotDims.WF S500000x256 S256x1 S500000x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x256_S256x1_S500000x1_1_0_0_1_n_n : DotDims S500000x256 S256x1 S500000x1 where
  lhsContracting := [1]
  rhsContracting := [0]
  lhsNonContracting := [0]
  rhsNonContracting := [1]
  lhsBatch := []
  rhsBatch := []
  wf := dot_S500000x256_S256x1_S500000x1_1_0_0_1_n_n_wf

class Facts : Prop extends Facts₀ where

variable [Facts]
-- ==== Proof.KernelRun.lean ====
/-
  The idealized kernel's run with its result named.

  The program is five kernel regions among four stretches of host operations. The contents of the TensorCore's buffers
  at each boundary form a fold from the launch memory: a stretch of host operations applies them in order, a region
  replaces each of its windows' arrays by what its write-backs leave and keeps every other buffer. The last valuation
  of that fold is W9. Here: every weakly fair execution terminates, nothing faults, the result buffer ends at W9's
  contents of it, and the ten argument arrays end as launched.

  The run is the library's theorem for a program that is a list of host segments and regions, instantiated at the
  segments and the per-region proof data of the imported frame module (the copy of the frame that builds). What that theorem asks beyond the segments:
  the launch's ghost element splits into the pipelines' initial element (launch_element); from what the launch deals
  to each core one gets the first thread state, its unscoped buffers held at the launch contents (first_state); the
  last thread state holds every unscoped buffer at W9, and holding a buffer at given contents against a final
  machine state says the memory has those contents (last_state_read).
-/
import proofs.«118010_j66305705116452_2_alg».proof.Proof.KernelIdealFrameP

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element IS the pipelines' initial element, and no core is given a ghost resource of its own. -/
theorem launch_element :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ (fun _ : Dev nD => (iprop(emp) : sProp 𝕄))) := by
  iintro Hu
  imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  · iapply (show (BI.emp : sProp 𝕄) ⊢ bigSep Finset.univ (fun _ : Dev nD => (BI.emp : sProp 𝕄)) from by
      rw [BI.bigSep_emp_const])
    iempintro

/-- The first thread state of a core: its unscoped buffers held at the launch contents, its generator register at
    some state, and nothing owed. -/
abbrev T₀ (c : Dev nD) : sProp 𝕄 :=
  iprop(StableHlo.held (c : Thread nD τ) (Pipeline.ucRefs τ sig) (W0 m ρ c) ∗ R c)

/-- What the launch deals to the cores yields every core's first thread state: the unscoped buffers at the launch
    memory are that set held at the launch contents; the generator register and the empty debt are passed on; the
    zeroed semaphores and the launch credit are not needed. -/
theorem first_state :
    iprop((bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (iprop(emp) : sProp 𝕄))) ∗ levAts L lv)
      ⊢ |={Set.univ}=> bigSep Finset.univ (T₀ (F := F) m ρ) := by
  refine Pipeline.initEach L lv fun c => ?_
  rw [show unscopedBufs c (fun b => m ((c : Thread nD τ).loc b)) = StableHlo.held (c : Thread nD τ) (Pipeline.ucRefs τ sig) (W0 m ρ c)
    from Pipeline.unscopedBufs_held c (W0 m ρ c)]
  iintro ⟨⟨Hh, -, HO, -, Hp, -⟩, -⟩
  imodintro
  isplitl [Hh]
  · iexact Hh
  isplitl [Hp]
  · iexists _
    iexact Hp
  iexists ∅
  iexact HO

/-- The last thread state read against a final machine state: every unscoped buffer of the memory has the contents the
    fold's last valuation gives it. -/
theorem last_state_read (c : Dev nD) (s' : Phys nD τ sig (Elt F)) :
    iprop(Tₙ m ρ c ∗ SI s') ⊢ |={Set.univ}=>
      iprop(⌜∀ b ∈ Pipeline.ucRefs τ sig, s'.mem.mem (((c : Thread nD τ)).1, b) = W9 m ρ c b⌝ ∗ SI s') := by
  iintro ⟨⟨Hh, -⟩, HSI⟩
  unfold StableHlo.held
  imodintro
  iapply (pointsTo_read_all (Pipeline.ucRefs τ sig) (fun b => (((c : Thread nD τ)).1, b)) (W9 m ρ c) s')
  isplitl [Hh] <;> iassumption

set_option backward.isDefEq.respectTransparency.types false in
/-- THE NAMED RUN: from any memory with zero counters every weakly fair execution of the program terminates, nothing
    faulting; the result buffer ends at the last valuation's contents of it and the argument arrays end as launched
    (no host operation and no region writes an argument, so the fold at an argument walks back to the launch). -/
theorem run : θ_run defs (onTc (τ := τ) (main (F := F))) ⟨m, fun _ => 0, ρ⟩ (fun r => ∀ c : Dev nD,
      r.2.mem ((c.tc : Thread nD τ).loc main_v55) = W9 m ρ c (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := launch_element)
    (T₀ := T₀ m ρ) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl⟩)
    (hinit := first_state m ρ)
    (QY := fun c s => ∀ b ∈ Pipeline.ucRefs τ sig, s.mem (((c : Thread nD τ)).1, b) = W9 m ρ c b)
    (hfin := last_state_read m ρ)
    (hQ := fun s h c =>
      ⟨h c _ (mem_uc main_v55 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c)⟩)

end Cert.KernelIdeal.Named

end
-- ==== Proof.Spec.lean ====
/-
  The two-layer graph convolution network and pair scorer of this certificate, entry by entry on the extended reals.

  Nodes n < 100000 carry feature rows of width 128; edges e < 1600000 carry a source word and a target word (32-bit,
  read signed). An edge LANDS at node n when its target word reads n; a word outside [0, 100000) lands nowhere.
  A gather reads, for a word z, the row of the wrapped word: z + 100000 when z is negative (jax's negative-index
  wrap), then the signed reading, negative as 0, at most the last row.

  deg n is one plus the number of edges landing at n, and dinv n = deg n ^ (-1/2). One layer on an input x with
  weights w and bias b, with h = x · w, is written in two arrangements:
    layerK:  dinv n · ( Σ over e landing at n of h[src e] · dinv[src e]  +  h[n] · dinv n ) + b
    layerR:  Σ over e landing at n of h[src e] · (dinv[src e] · dinv[tgt e])  +  (dinv n · dinv n) · h[n]  + b
  where tgt e is the row a gather reads for the edge's target word. They are equal because dinv n is a nonnegative
  REAL (deg n ≥ 1), so it distributes over the sum on the extended reals, and because an edge that lands at n has
  tgt e = n. The network is a layer floored at zero, a second layer, and for each pair (i, j) of node words the
  logistic of h2[i] · wl[0:128] + h2[j] · wl[128:256] + bl.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- jax's negative-index wrap of a node word: z + 100000 when z reads negative, else z. -/
def wrap (z : BitVec 32) : BitVec 32 := Scalar.select (IntOp.cmpi .slt z 0#32) (IntOp.addi z 100000#32) z

/-- The row a gather reads for a start word: its signed reading, negative as 0, at most the last row. -/
def row (z : BitVec 32) : Fin 100000 := ⟨min z.toInt.toNat (100000 - 1), by omega⟩

/-- One plus the number of edges whose target word reads n. -/
def deg (dst : Fin 1600000 → BitVec 32) (n : Fin 100000) : EReal :=
  (∑ e : Fin 1600000, if (dst e).toInt = (n.val : ℤ) then (1 : EReal) else 0) + 1

/-- deg n ^ (-1/2). -/
def dinv (dst : Fin 1600000 → BitVec 32) (n : Fin 100000) : EReal := Ideal.rsqrt (deg dst n)

/-- Row n of x against column f of w. -/
def mm {a : ℕ} (x : Fin a → Fin 128 → EReal) (w : Fin 128 → Fin 128 → EReal) (n : Fin a) (f : Fin 128) : EReal :=
  ∑ k : Fin 128, x n k * w k f

/-- The projected features scaled at their own node: (x · w)[n, f] · dinv n. -/
def scaled (dst : Fin 1600000 → BitVec 32) (x : Fin 100000 → Fin 128 → EReal) (w : Fin 128 → Fin 128 → EReal)
    (n : Fin 100000) (f : Fin 128) : EReal := mm x w n f * dinv dst n

/-- A layer with the target's factor outside the sum over the landing edges. -/
def layerK (src dst : Fin 1600000 → BitVec 32) (x : Fin 100000 → Fin 128 → EReal) (w : Fin 128 → Fin 128 → EReal)
    (b : Fin 128 → EReal) (n : Fin 100000) (f : Fin 128) : EReal :=
  dinv dst n * ((∑ e : Fin 1600000, if (dst e).toInt = (n.val : ℤ) then scaled dst x w (row (wrap (src e))) f else 0)
      + scaled dst x w n f) + b f

/-- A layer with both factors on each edge's message. -/
def layerR (src dst : Fin 1600000 → BitVec 32) (x : Fin 100000 → Fin 128 → EReal) (w : Fin 128 → Fin 128 → EReal)
    (b : Fin 128 → EReal) (n : Fin 100000) (f : Fin 128) : EReal :=
  ((∑ e : Fin 1600000, if (dst e).toInt = (n.val : ℤ) then
        mm x w (row (wrap (src e))) f * (dinv dst (row (wrap (src e))) * dinv dst (row (wrap (dst e)))) else 0)
      + dinv dst n * dinv dst n * mm x w n f) + b f

/-- The score of a pair of node words from the second layer's rows. -/
def score (h : Fin 100000 → Fin 128 → EReal) (wl : Fin (128 + 128) → EReal) (bl : EReal) (i j : BitVec 32) : EReal :=
  Ideal.logistic ((∑ k : Fin 128, h (row (wrap i)) k * wl (Fin.castAdd 128 k))
    + (∑ k : Fin 128, h (row (wrap j)) k * wl (Fin.natAdd 128 k)) + bl)

/-- A layer in either arrangement. -/
abbrev Layer : Type := (Fin 1600000 → BitVec 32) → (Fin 1600000 → BitVec 32) → (Fin 100000 → Fin 128 → EReal) →
  (Fin 128 → Fin 128 → EReal) → (Fin 128 → EReal) → Fin 100000 → Fin 128 → EReal

/-- A matrix as a function of its two coordinates. -/
def cur {a b : ℕ} (X : (⟨2, ![a, b]⟩ : Shape).Idx → EReal) (n : Fin a) (k : Fin b) : EReal := X (ix2 n k)

/-- The network over a layer arrangement L: for pair p, the score of the pair's two node words from the rows of
    the second layer applied to the first layer floored at zero. -/
def net (L : Layer) (x : (⟨2, ![100000, 128]⟩ : Shape).Idx → EReal) (ei : (⟨2, ![2, 1600000]⟩ : Shape).Idx → BitVec 32)
    (iw jw : (⟨1, ![500000]⟩ : Shape).Idx → BitVec 32) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) (wl : (⟨2, ![256, 1]⟩ : Shape).Idx → EReal)
    (bl : (⟨1, ![1]⟩ : Shape).Idx → EReal) : (⟨2, ![500000, 1]⟩ : Shape).Idx → EReal := fun i =>
  let src : Fin 1600000 → BitVec 32 := fun e => ei (ix2 (0 : Fin 2) e)
  let dst : Fin 1600000 → BitVec 32 := fun e => ei (ix2 (1 : Fin 2) e)
  let h1 : Fin 100000 → Fin 128 → EReal := fun n f => max (L src dst (cur x) (cur w1) (fun k => b1 (ix1 k)) n f) 0
  let h2 : Fin 100000 → Fin 128 → EReal := L src dst h1 (cur w2) (fun k => b2 (ix1 k))
  score h2 (fun k => wl (ix2 (k : Fin 256) (0 : Fin 1))) (bl (ix1 (0 : Fin 1))) (iw (ix1 (i 0))) (jw (ix1 (i 0)))

/-- The single-precision word 0x3F800000 is the number one. -/
theorem one_word : Ideal.ofBits .f32 0x3F800000#32 = 1 := by
  simp [Ideal.ofBits, Ideal.ieee, -EReal.coe_mul]; norm_num

end Cert.Gcn

end
-- ==== Proof.LibBroadcastInDim.lean ====
/-
  THREE BROADCASTS READ AT AN INDEX. A vector `[E]` laid as a column `[E, 1]` reads the vector at the row; a column
  `[E, 1]` spread over `D` columns reads the column at the row, whatever the column; a scalar spread over any shape
  reads the scalar. Each is the library's `broadcastInDim_apply` with the operand index named and its coordinates
  discharged axis by axis (the scalar has no axis; the library's `broadcastInDim_scalar_apply` is the same fact at
  the empty vector literal for `dims`).
-/
import Idealize.ShloMosaic.Lib.ValueIdx
import Idealize.ShloMosaic.Lib.Pipeline.Value

namespace Cert.LibBroadcastInDim

open Idealize.ShloMosaic Idealize.ShloMosaic.ValueIdx

/-- A vector as a column: element `(e, u)` of the column is element `e` of the vector (also when `E = 1`, where the
    operand's one axis is a unit axis read at `0 = e`). -/
theorem vec_col_apply {α : Type} {E : ℕ} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) :=
  broadcastInDim_apply ![0] h v (ix2 e u) (ix1 e) (fun a => by
    match a with
    | ⟨0, _⟩ =>
      show e.val = if E = 1 then 0 else e.val
      split
      · have := e.isLt; omega
      · rfl)

/-- A column spread over `D` columns: element `(e, f)` is the column's element `(e, 0)` (the operand's second axis is a
    unit axis; its first is read at the row, also when `E = 1`). -/
theorem col_mat_apply {α : Type} {E D : ℕ} (h : (⟨2, ![E, 1]⟩ : Shape).BroadcastsInDim ⟨2, ![E, D]⟩ ![0, 1])
    (v : (⟨2, ![E, 1]⟩ : Shape).Idx → α) (e : Fin E) (f : Fin D) :
    broadcastInDim ⟨2, ![E, D]⟩ ![0, 1] h v (ix2 e f) = v (ix2 e (0 : Fin 1)) :=
  broadcastInDim_apply ![0, 1] h v (ix2 e f) (ix2 e (0 : Fin 1)) (fun a => by
    match a with
    | ⟨0, _⟩ =>
      show e.val = if E = 1 then 0 else e.val
      split
      · have := e.isLt; omega
      · rfl
    | ⟨1, _⟩ => rfl)

/-- A scalar spread over any shape reads the scalar: there is one map from no axes, so `dims` is the empty one. -/
theorem scalar_apply {α : Type} {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 (fun a => a.elim0)

end Cert.LibBroadcastInDim
-- ==== Proof.LibRowBroadcast.lean ====
/-
  Two more `broadcastInDim` forms read at an index: a vector [D] placed as the one row of a [1, D] matrix (the operand's
  axis sent to the result's axis 1), and a [1, D] row spread over N rows. General in the extents and the element type.
-/
import Idealize.ShloMosaic.Lib.ValueIdx
import Idealize.ShloMosaic.Lib.Pipeline.Value

noncomputable section

namespace Cert.LibRowBroadcast

open Idealize.ShloMosaic Idealize.ShloMosaic.ValueIdx

/-- A vector as a row: element (u, o) of the row is element o of the vector (also when D = 1, where the operand's one
    axis is a unit axis read at 0 = o). -/
theorem vec_row_apply {α : Type} {D : ℕ} (h : (⟨1, ![D]⟩ : Shape).BroadcastsInDim ⟨2, ![1, D]⟩ ![1])
    (v : (⟨1, ![D]⟩ : Shape).Idx → α) (u : Fin 1) (o : Fin D) :
    broadcastInDim ⟨2, ![1, D]⟩ ![1] h v (ix2 u o) = v (ix1 o) :=
  broadcastInDim_apply ![1] h v (ix2 u o) (ix1 o) (fun a => by
    match a with
    | ⟨0, _⟩ =>
      show o.val = if D = 1 then 0 else o.val
      split
      · have := o.isLt; omega
      · rfl)

/-- A row spread over N rows: element (p, o) is the row's element (0, o) (the operand's first axis is a unit axis; its
    second is read at the column, also when D = 1). -/
theorem row_mat_apply {α : Type} {N D : ℕ} (h : (⟨2, ![1, D]⟩ : Shape).BroadcastsInDim ⟨2, ![N, D]⟩ ![0, 1])
    (v : (⟨2, ![1, D]⟩ : Shape).Idx → α) (p : Fin N) (o : Fin D) :
    broadcastInDim ⟨2, ![N, D]⟩ ![0, 1] h v (ix2 p o) = v (ix2 (0 : Fin 1) o) :=
  broadcastInDim_apply ![0, 1] h v (ix2 p o) (ix2 (0 : Fin 1) o) (fun a => by
    match a with
    | ⟨0, _⟩ => rfl
    | ⟨1, _⟩ =>
      show o.val = if D = 1 then 0 else o.val
      split
      · have := o.isLt; omega
      · rfl)

end Cert.LibRowBroadcast

end
-- ==== Proof.LibVecGather.lean ====
/-
  A gather of single elements of a vector [N] at an [E, 1] column of start indices, read at an index.

  What `x[idx]` of a flat array at a flat integer array lowers to once the indices are given a trailing unit axis: no
  offset axes, the operand's one axis collapsed, the start index map [0], the index vector axis 1, slices of one element.
  Element e of the result is the operand at the start index idx[e, 0] read signed and clamped into [0, N - 1], as every
  gather clamps its start indices.  General in the extents, the element type and the index width.
-/
import Idealize.ShloMosaic.Lib.ValueIdx

namespace Cert.LibVecGather

open Idealize.ShloMosaic Idealize.ShloMosaic.ValueIdx

/-- The element gather at `e`: the operand at `min (idx[e, 0] read signed, negative as 0) (N - 1)`. -/
theorem vecGather_apply {α : Type} {N E w : ℕ} (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1])
    (x : (⟨1, ![N]⟩ : Shape).Idx → α) (idx : IVec ⟨2, ![E, 1]⟩ w) (e : Fin E) :
    Host.gather d x idx (ix1 e)
      = x (ix1 ⟨min (idx (ix2 e (0 : Fin 1))).toInt.toNat (N - 1), by omega⟩) := by
  obtain ⟨od, cs, ob, sb, sim, ivd, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix1 e) idx 0 + GatherDims.batchCoord _ (ix1 e) 0 + GatherDims.offCoord _ (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[], [0], [], [], [0], 1, ![1], wf⟩ :
          GatherDims ⟨1, ![N]⟩ ⟨2, ![E, 1]⟩ ⟨1, ![E]⟩) (ix1 e)
        ⟨List.idxOf (0 : Fin 1) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.LibVecGather
-- ==== Proof.LibRowGather.lean ====
/-
  ROW GATHER READ AT AN INDEX. A gather of whole rows of a matrix `x : [N, D]` at a column of start indices
  `idx : [E, 1]` (offset axis 1, collapsed slice axis 0, start index map [0], index vector axis 1, slice sizes
  [1, D]): result element `(e, f)` is `x` at row `idx[e, 0]`, read as a signed integer and clamped into
  `[0, N - 1]`, and column `f`.
-/
import Idealize.ShloMosaic.Lib.ValueIdx
import Idealize.ShloMosaic.PureOps.ShapeOps

namespace Cert.LibRowGather

open Idealize.ShloMosaic Idealize.ShloMosaic.ValueIdx

/-- The row gather at `(e, f)`: the operand at row `min (idx[e, 0] read signed, negative as 0) (N - 1)` and column `f`.
    On axis 0 the operand index is the clamped start (the slice has one row, the axis is collapsed, so no offset); on
    axis 1 the start is 0 (the axis is not in the start index map) and the offset coordinate is `f`. -/
theorem rowGather_apply {α : Type} {N D E w : ℕ} (hN : 0 < N) (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : IVec ⟨2, ![E, 1]⟩ w) (e : Fin E) (f : Fin D) :
    Host.gather d x idx (ix2 e f)
      = x (ix2 ⟨min (idx (ix2 e (0 : Fin 1))).toInt.toNat (N - 1), by omega⟩ f) := by
  obtain ⟨od, cs, ob, sb, sim, ivd, ss, wf⟩ := d
  simp only at h1 h2 h3 h4 h5 h6 h7
  subst h1 h2 h3 h4 h5 h6 h7
  unfold Host.gather
  congr 1
  funext a
  refine Fin.ext ?_
  match a with
  | ⟨0, _⟩ =>
    show GatherDims.start _ (ix2 e f) idx 0 + GatherDims.batchCoord _ (ix2 e f) 0 + GatherDims.offCoord _ (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, D], wf⟩ :
          GatherDims ⟨2, ![N, D]⟩ ⟨2, ![E, 1]⟩ ⟨2, ![E, D]⟩) (ix2 e f)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e f) idx 1 + GatherDims.batchCoord _ (ix2 e f) 1 + GatherDims.offCoord _ (ix2 e f) 1 = _
    rw [GatherDims.batchCoord_eq_zero _ _ _ List.not_mem_nil]
    unfold GatherDims.start GatherDims.offCoord
    rw [dif_neg (show (1 : Fin 2) ∉ [0] by decide),
      dif_pos ((GatherDims.mem_sKept _ _).mpr ⟨(show (1 : Fin 2) ∉ [0] by decide), List.not_mem_nil⟩)]
    simp only [Nat.zero_add]
    rfl

end Cert.LibRowGather
-- ==== Proof.LibSegmentSum.lean ====
/-
  A scatter whose operand is a vector, whose scatter indices are a column of start positions and
  whose updates are a vector with one entry per start position (no window axes: every update is a
  single element) is a segment sum: update e lands on operand position n exactly when the e-th
  start position, read as a signed integer, equals n; a start position outside the operand drops
  its update.
-/
import Idealize.ShloMosaic.PureOps.Ideal
import Idealize.ShloMosaic.Lib.ValueIdx

noncomputable section

open scoped BigOperators

namespace Cert.Lib.SegmentSum

open Idealize.ShloMosaic Idealize.ShloMosaic.ValueIdx

/-- A rank-1 index built from a coordinate has that coordinate on its one axis, however the axis
    is written. -/
theorem ix1_apply_any {n : Nat} (a : Fin n) (x : Fin 1) : (ix1 a x).val = a.val := by
  match x with
  | ⟨0, _⟩ => rfl

variable {s si u : Shape}

/-- With no update window axes, every window coordinate is zero. -/
theorem window_eq_zero_of_nil (d : ScatterDims s si u) (h : d.updateWindowDims = []) (j : u.Idx)
    (a : Fin s.rank) : d.window j a = 0 := by
  unfold ScatterDims.window
  split
  · rename_i ha
    have hlt : d.sKept.idxOf a < d.updateWindowDims.length := by
      rw [d.window_length]; exact List.idxOf_lt_length_iff.2 ha
    rw [h] at hlt
    exact absurd hlt (Nat.not_lt_zero _)
  · rfl

/-- **A column scatter is a segment sum.** For an operand vector of extent `N`, a column of `E`
    start positions (scatter indices of shape `[E, 1]`, the index vector on axis 1) and `E`
    single-element updates (no update window axes, operand axis 0 inserted, start positions
    addressing operand axis 0): update `e` lands on operand position `n` exactly when the signed
    value of start position `e` is `n`. -/
theorem resultIdx?_column {N E w : Nat}
    (d : ScatterDims (⟨1, ![N]⟩ : Shape) (⟨2, ![E, 1]⟩ : Shape) (⟨1, ![E]⟩ : Shape))
    (huw : d.updateWindowDims = []) (hsd : d.scatterDimsToOperandDims = [0])
    (hiv : d.indexVectorDim = 1)
    (idx : IVec (⟨2, ![E, 1]⟩ : Shape) w) (e : Fin E) (n : Fin N) :
    d.resultIdx? (ix1 e) idx = some (ix1 n) ↔ (idx (ix2 e 0)).toInt = (n.val : Int) := by
  have hwin : ∀ a, d.window (ix1 e) a = 0 := fun a => window_eq_zero_of_nil d huw _ a
  have hstart : ∀ a, d.start (ix1 e) idx a = (idx (ix2 e 0)).toInt := by
    intro a
    obtain ⟨uw, iw, sd, iv, wf⟩ := d
    simp only at huw hsd hiv
    subst huw hsd hiv
    have ha : a = 0 := Subsingleton.elim _ _
    subst ha
    unfold ScatterDims.start
    rw [dif_pos (List.mem_singleton.2 rfl)]
    congr 2
    funext b
    match b with
    | ⟨0, _⟩ =>
      apply Fin.ext
      unfold ScatterDims.siIdx
      rw [dif_neg (by simp)]
      unfold ScatterDims.siCoord
      simp only [Fin.coe_cast]
      exact ix1_apply_any e _
    | ⟨1, _⟩ =>
      apply Fin.ext
      unfold ScatterDims.siIdx
      rw [dif_pos rfl]
      simp
  unfold ScatterDims.resultIdx?
  constructor
  · intro h
    split at h
    · rename_i hc
      have h0 := congrFun (Option.some.inj h) 0
      have hv : (d.start (ix1 e) idx 0 + d.window (ix1 e) 0).toNat = n.val := congrArg Fin.val h0
      have hc0 : 0 ≤ d.start (ix1 e) idx 0 + d.window (ix1 e) 0 := (hc 0).1
      rw [hwin, hstart] at hv hc0
      omega
    · exact absurd h (by simp)
  · intro h
    have hc : ∀ a, 0 ≤ d.start (ix1 e) idx a + d.window (ix1 e) a ∧
        d.start (ix1 e) idx a + d.window (ix1 e) a < (⟨1, ![N]⟩ : Shape).size a := by
      intro a
      have ha : a = 0 := Subsingleton.elim _ _
      subst ha
      rw [hwin, hstart, h]
      have := n.isLt
      constructor
      · omega
      · show (n.val : Int) + ((0 : Nat) : Int) < (N : Int)
        omega
    rw [dif_pos hc]
    congr 1
    funext a
    have ha : a = 0 := Subsingleton.elim _ _
    subst ha
    apply Fin.ext
    show (d.start (ix1 e) idx 0 + d.window (ix1 e) 0).toNat = n.val
    rw [hwin, hstart, h]
    omega

end Cert.Lib.SegmentSum

end
-- ==== Proof.LibSumIdx1.lean ====
/-
  A sum over a rank-one index set is the sum over its one coordinate.

  An index of a one-axis shape of extent n is a function from the one axis to its coordinate; it is determined by that
  coordinate, so summing over all indices is summing over the coordinate's range.
-/
import Idealize.ShloMosaic.Lib.ValueIdx

namespace Cert.PairLoss

open Idealize.ShloMosaic Idealize.ShloMosaic.ValueIdx

/-- A rank-one index set is its one coordinate's range, so a sum over it is the sum over the coordinate. -/
theorem sum_idx1 {M : Type*} [AddCommMonoid M] {n : Nat} (f : (⟨1, ![n]⟩ : Shape).Idx → M) :
    ∑ j, f j = ∑ a : Fin n, f (ix1 a) := by
  let e : (⟨1, ![n]⟩ : Shape).Idx ≃ Fin n :=
    { toFun := fun j => j 0, invFun := ix1, left_inv := fun j => (eq_ix1 j).symm, right_inv := fun _ => rfl }
  rw [← Equiv.sum_comp e.symm f]
  rfl

end Cert.PairLoss
-- ==== Proof.LibVecScatterAdd.lean ====
/-
  AN ACCUMULATING SCATTER INTO A VECTOR READ AT AN INDEX. Single-element updates `upd : [E]` added into a vector
  `x : [N]` at a column of positions `idx : [E, 1]` (no update window axes, operand axis 0 inserted, positions
  addressing operand axis 0, the index vector on axis 1 — a segment sum), over the extended reals: element `n` of
  the result is `x[n]` plus the sum of `upd[e]` over the updates `e` whose position `idx[e, 0]`, read as a signed
  integer, is `n`. An update whose position is outside `[0, N)` contributes nowhere.
-/
import Idealize.ShloMosaic.PureOps.Ideal
import Idealize.ShloMosaic.Lib.ValueIdx
import proofs.«118010_j66305705116452_2_alg».proof.Proof.LibSegmentSum
import proofs.«118010_j66305705116452_2_alg».proof.Proof.LibSumIdx1

open scoped BigOperators

namespace Cert.LibVecScatterAdd

open Idealize.ShloMosaic Idealize.ShloMosaic.ValueIdx

/-- The scatter-add into a vector at `n`: the operand's element plus the updates whose position, read signed, is `n`.
    The sum over the update elements landing at `n` is a filtered sum over the updates' indices; update `e` lands
    there exactly when `idx[e, 0] = n`. -/
theorem vecScatterAdd_apply {N E w : ℕ} (d : ScatterDims (⟨1, ![N]⟩ : Shape) (⟨2, ![E, 1]⟩ : Shape) (⟨1, ![E]⟩ : Shape))
    (huw : d.updateWindowDims = []) (hsd : d.scatterDimsToOperandDims = [0]) (hiv : d.indexVectorDim = 1)
    (x : (⟨1, ![N]⟩ : Shape).Idx → EReal) (idx : IVec (⟨2, ![E, 1]⟩ : Shape) w) (upd : (⟨1, ![E]⟩ : Shape).Idx → EReal)
    (n : Fin N) :
    Host.scatterAdd (F := Ideal) (φ := .f32) d x idx upd (ix1 n)
      = x (ix1 n) + ∑ e : Fin E, if (idx (ix2 e 0)).toInt = (n.val : ℤ) then upd (ix1 e) else 0 := by
  show x (ix1 n) + ∑ j ∈ Finset.univ.filter (fun j => d.resultIdx? j idx = some (ix1 n)), upd j = _
  congr 1
  rw [Finset.sum_filter, Cert.PairLoss.sum_idx1]
  refine Finset.sum_congr rfl fun e _ => ?_
  simp only [Cert.Lib.SegmentSum.resultIdx?_column d huw hsd hiv]

end Cert.LibVecScatterAdd
-- ==== Proof.LibRowScatter.lean ====
/-
  ROW SCATTER-ADD READ AT AN INDEX. An accumulating scatter of whole rows into a matrix `x : [N, D]` at a column of
  scatter indices `idx : [E, 1]` with updates `upd : [E, D]` (update window axis 1, inserted window axis 0, scatter
  dims to operand dims [0], index vector axis 1), over the extended reals: element `(n, g)` of the result is
  `x[n, g]` plus the sum of `upd[e, g]` over the update rows `e` whose index `idx[e, 0]`, read as a signed integer,
  is `n`. An update row whose index is outside `[0, N)` contributes nowhere.
-/
import Idealize.ShloMosaic.Lib.ValueIdx
import Idealize.ShloMosaic.PureOps.Ideal

open scoped BigOperators

namespace Cert.LibRowScatter

open Idealize.ShloMosaic Idealize.ShloMosaic.ValueIdx

/-- For any scatter dimension numbers: update index `j` lands at operand index `i` exactly when, on every operand
    axis, the start (read signed, not clamped) plus the window coordinate is `i`'s coordinate. (The update is dropped
    exactly when some axis leaves the operand, and no index `i` of the operand has such a coordinate.) -/
theorem resultIdx?_eq_some_iff_forall {s si u : Shape} {w : ℕ} (d : ScatterDims s si u) (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some_inj]
    constructor
    · rintro rfl a
      have := (h a).1
      simp only [Int.toNat_of_nonneg this]
    · intro hh
      funext a
      refine Fin.ext ?_
      have := hh a
      show (d.start j idx a + (d.window j a : ℤ)).toNat = (i a).val
      omega
  · rename_i h
    constructor
    · intro hh; cases hh
    · intro hh
      exfalso
      apply h
      intro a
      have := hh a
      have := (i a).isLt
      omega

/-- The row scatter's dimension numbers, as a record over its well-formedness fact. -/
private abbrev rowDims {N D E : ℕ} (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ := ⟨[1], [0], [0], 1, wf⟩

section
variable {N D E w : ℕ} (wf : ScatterDims.WF ⟨2, ![N, D]⟩ ⟨2, ![E, 1]⟩ ⟨2, ![E, D]⟩ [1] [0] [0] 1)
  (idx : IVec ⟨2, ![E, 1]⟩ w) (e : Fin E) (f : Fin D)

/-- On the scattered axis the start is the row index `idx[e, 0]` read signed. -/
private theorem start0 : (rowDims wf).start (ix2 e f) idx 0 = (idx (ix2 e (0 : Fin 1))).toInt := by
  unfold ScatterDims.start
  rw [dif_pos (List.mem_singleton.mpr rfl)]
  have hsi : (rowDims wf).siIdx (ix2 e f)
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The scattered axis is inserted: its window coordinate is 0. -/
private theorem window0 : (rowDims wf).window (ix2 e f) 0 = 0 := by
  unfold ScatterDims.window
  rw [dif_neg]
  show (0 : Fin 2) ∉ (List.finRange 2).filter (· ∉ [(0 : Fin 2)])
  decide

/-- The column axis is not scattered: its start is 0. -/
private theorem start1 : (rowDims wf).start (ix2 e f) idx 1 = 0 := by
  unfold ScatterDims.start
  rw [dif_neg]
  show (1 : Fin 2) ∉ [(0 : Fin 2)]
  decide

/-- The column axis is the window axis: its window coordinate is the update's column. -/
private theorem window1 : (rowDims wf).window (ix2 e f) 1 = f.val := by
  unfold ScatterDims.window
  rw [dif_pos]
  · rfl
  · show (1 : Fin 2) ∈ (List.finRange 2).filter (· ∉ [(0 : Fin 2)])
    decide

end

/-- Where update element `(e, f)` lands: at `(n, g)` exactly when the row index `idx[e, 0]`, read signed, is `n` and
    the columns agree. On axis 0 the result index is the start (not clamped) plus window coordinate 0 (the axis is
    inserted); on axis 1 it is start 0 (the axis is not scattered) plus the window coordinate `f`. -/
theorem resultIdx?_eq_some_iff {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1) (idx : IVec ⟨2, ![E, 1]⟩ w) (e : Fin E) (f g : Fin D) (n : Fin N) :
    d.resultIdx? (ix2 e f) idx = some (ix2 n g) ↔ (idx (ix2 e (0 : Fin 1))).toInt = (n.val : ℤ) ∧ f = g := by
  obtain ⟨uw, iw, sd, ivd, wf⟩ := d
  simp only at h1 h2 h3 h4
  subst h1 h2 h3 h4
  show (rowDims wf).resultIdx? (ix2 e f) idx = some (ix2 n g) ↔ _
  rw [resultIdx?_eq_some_iff_forall]
  constructor
  · intro hh
    have e0 : (rowDims wf).start (ix2 e f) idx 0 + ((rowDims wf).window (ix2 e f) 0 : ℤ) = (n.val : ℤ) := hh 0
    have e1 : (rowDims wf).start (ix2 e f) idx 1 + ((rowDims wf).window (ix2 e f) 1 : ℤ) = (g.val : ℤ) := hh 1
    rw [start0, window0] at e0
    rw [start1, window1] at e1
    refine ⟨by simpa using e0, Fin.ext ?_⟩
    have : (f.val : ℤ) = (g.val : ℤ) := by simpa using e1
    exact_mod_cast this
  · rintro ⟨hn, rfl⟩ a
    match a with
    | ⟨0, _⟩ =>
      show (rowDims wf).start (ix2 e f) idx 0 + ((rowDims wf).window (ix2 e f) 0 : ℤ) = (n.val : ℤ)
      rw [start0, window0, hn]; simp
    | ⟨1, _⟩ =>
      show (rowDims wf).start (ix2 e f) idx 1 + ((rowDims wf).window (ix2 e f) 1 : ℤ) = (f.val : ℤ)
      rw [start1, window1]; simp

/-- THE ROW SCATTER-ADD AT `(n, g)`: the operand's element plus the updates `upd[e, g]` of the rows `e` whose index,
    read signed, is `n`. The sum over the update elements landing at `(n, g)` is a double sum over rows and columns; in
    row `e` only column `g` can land there, and it does exactly when `idx[e, 0] = n`. -/
theorem rowScatterAdd_apply {N D E w : ℕ} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : IVec ⟨2, ![E, 1]⟩ w) (upd : (⟨2, ![E, D]⟩ : Shape).Idx → EReal)
    (n : Fin N) (g : Fin D) :
    Host.scatterAdd (F := Ideal) (φ := .f32) d x idx upd (ix2 n g)
      = x (ix2 n g) + ∑ e : Fin E, if (idx (ix2 e (0 : Fin 1))).toInt = (n.val : ℤ) then upd (ix2 e g) else 0 := by
  show x (ix2 n g) + ∑ j ∈ Finset.univ.filter (fun j => d.resultIdx? j idx = some (ix2 n g)), upd j = _
  congr 1
  rw [Finset.sum_filter, sum_idx2]
  refine Finset.sum_congr rfl fun e _ => ?_
  simp only [resultIdx?_eq_some_iff d h1 h2 h3 h4]
  by_cases hc : (idx (ix2 e (0 : Fin 1))).toInt = (n.val : ℤ)
  · simp only [hc, true_and, if_true]
    rw [Finset.sum_ite_eq' Finset.univ g (fun f => upd (ix2 e f))]
    simp
  · simp only [hc, false_and, if_false]
    exact Finset.sum_const_zero

end Cert.LibRowScatter
-- ==== Proof.RefStages.lean ====
/-
  The stages of the reference network that a per-element reading cannot follow by itself (a gather or a scatter
  chooses its element by the VALUE of an index word), read at an index, in the generality the network uses them.

  (1) The negative-index wrap of a column of node words: the word plus 100000 where it reads negative, laid as a
      column [E, 1].
  (2) The inverse square root of the degree: ones scattered into zeros at the target words, plus one, under the
      reciprocal square root. An edge adds its one at node n exactly when its target word reads n.
  (3) One layer as the network composes it from the vector dv of inverse square roots and the projected features H:
      the rows of H gathered at the wrapped source words, each scaled by the product of dv gathered at the wrapped
      source word and at the wrapped target word, scattered with addition into zeros at the raw target words; plus
      (dv n)^2 times row n of H; plus the bias. Entry (n, f) is
          sum over the edges e landing at n of H[row(src e), f] * (dv[row(src e)] * dv[row(tgt e)])
            + dv n * dv n * H[n, f] + bias f,
      the layer with both factors on each edge's message.
-/
import proofs.«118010_j66305705116452_2_alg».proof.Proof.Gen.ReferenceIdeal.Read
import proofs.«118010_j66305705116452_2_alg».proof.Proof.Spec
import proofs.«118010_j66305705116452_2_alg».proof.Proof.LibBroadcastInDim
import proofs.«118010_j66305705116452_2_alg».proof.Proof.LibRowBroadcast
import proofs.«118010_j66305705116452_2_alg».proof.Proof.LibVecGather
import proofs.«118010_j66305705116452_2_alg».proof.Proof.LibRowGather
import proofs.«118010_j66305705116452_2_alg».proof.Proof.LibVecScatterAdd
import proofs.«118010_j66305705116452_2_alg».proof.Proof.LibRowScatter

noncomputable section

open scoped BigOperators

namespace Cert.ReferenceIdeal.RefValue

open Cert.ReferenceIdeal Cert.ReferenceIdeal.Gen Idealize.ShloMosaic Idealize.ShloMosaic.ValueIdx

/-- The wrapped column of a vector of node words. -/
def wrapCol {E : ℕ} (hb : (⟨1, ![E]⟩ : Shape).BroadcastsInDim ⟨2, ![E, 1]⟩ ![0])
    (hs : S_.BroadcastsInDim (⟨1, ![E]⟩ : Shape) ![]) (z : IVec ⟨1, ![E]⟩ 32) : IVec ⟨2, ![E, 1]⟩ 32 :=
  broadcastInDim ⟨2, ![E, 1]⟩ ![0] hb
    (select (cmpi .slt z (broadcastInDim ⟨1, ![E]⟩ ![] hs (constantI S_ 32 0#32)))
      (addi z (broadcastInDim ⟨1, ![E]⟩ ![] hs (constantI S_ 32 100000#32))) z)

/-- Entry e of the wrapped column is the wrap of word e. -/
theorem wrapCol_apply {E : ℕ} (hb : (⟨1, ![E]⟩ : Shape).BroadcastsInDim ⟨2, ![E, 1]⟩ ![0])
    (hs : S_.BroadcastsInDim (⟨1, ![E]⟩ : Shape) ![]) (z : IVec ⟨1, ![E]⟩ 32) (e : Fin E) :
    wrapCol hb hs z (ix2 e (0 : Fin 1)) = Cert.Gcn.wrap (z (ix1 e)) := by
  unfold wrapCol
  rw [Cert.LibBroadcastInDim.vec_col_apply]
  show Scalar.select (IntOp.cmpi .slt (z (ix1 e)) (broadcastInDim (⟨1, ![E]⟩ : Shape) ![] hs (constantI S_ 32 0#32) (ix1 e)))
      (IntOp.addi (z (ix1 e)) (broadcastInDim (⟨1, ![E]⟩ : Shape) ![] hs (constantI S_ 32 100000#32) (ix1 e))) (z (ix1 e)) = _
  rw [Cert.LibBroadcastInDim.scalar_apply, Cert.LibBroadcastInDim.scalar_apply]
  rfl

/-- A vector of words laid as a column, unchanged. -/
theorem rawCol_apply {E : ℕ} (hb : (⟨1, ![E]⟩ : Shape).BroadcastsInDim ⟨2, ![E, 1]⟩ ![0]) (z : IVec ⟨1, ![E]⟩ 32)
    (e : Fin E) : broadcastInDim ⟨2, ![E, 1]⟩ ![0] hb z (ix2 e (0 : Fin 1)) = z (ix1 e) :=
  Cert.LibBroadcastInDim.vec_col_apply hb z e 0

/-- The inverse square root of the degree, as the network computes it from the column of raw target words. -/
def dinvStage (draw : IVec S1600000x1 32) : FVec Ideal S100000 .f32 :=
  Host.rsqrt (addf
    (Host.scatterAdd scatter_S100000_S1600000x1_S1600000_n_0_0_1
      (broadcastInDim S100000 ![] bcast_S_S100000 (constant S_ .f32 0x00000000#32)) draw
      (broadcastInDim S1600000 ![] bcast_S_S1600000 (constant S_ .f32 0x3F800000#32)))
    (broadcastInDim S100000 ![] bcast_S_S100000 (constant S_ .f32 0x3F800000#32)))

/-- Entry n is the reciprocal square root of one plus the number of target words reading n. -/
theorem dinvStage_apply (draw : IVec S1600000x1 32) (dst : Fin 1600000 → BitVec 32)
    (hdraw : ∀ e, draw (ix2 e (0 : Fin 1)) = dst e) (n : Fin 100000) :
    dinvStage draw (ix1 n) = Cert.Gcn.dinv dst n := by
  unfold dinvStage Cert.Gcn.dinv Cert.Gcn.deg
  have e1 : ∀ (x : FVec Ideal S100000 .f32) (i : S100000.Idx), Host.rsqrt x i = Ideal.rsqrt (x i) := fun _ _ => rfl
  rw [e1, addf_apply, Cert.LibVecScatterAdd.vecScatterAdd_apply _ rfl rfl rfl, Cert.LibBroadcastInDim.scalar_apply,
    Cert.LibBroadcastInDim.scalar_apply]
  have h0 : constant (F := Ideal) S_ .f32 0x00000000#32 ix0 = 0 := Ideal.ofBits_zero_f32
  have h1 : constant (F := Ideal) S_ .f32 0x3F800000#32 ix0 = 1 := Cert.Gcn.one_word
  rw [h0, h1, zero_add]
  refine congrArg (fun t : EReal => Ideal.rsqrt (t + 1)) (Finset.sum_congr rfl fun e _ => ?_)
  rw [hdraw, Cert.LibBroadcastInDim.scalar_apply, h1]

/-- One layer as the network composes it. -/
def layerStage (dv : FVec Ideal S100000 .f32) (H : FVec Ideal S100000x128 .f32)
    (sw dw sw' draw : IVec S1600000x1 32) (bias : FVec Ideal S128 .f32) : FVec Ideal S100000x128 .f32 :=
  addf
    (addf
      (Host.scatterAdd scatter_S100000x128_S1600000x1_S1600000x128_1_0_0_1
        (broadcastInDim S100000x128 ![] bcast_S_S100000x128 (constant S_ .f32 0x00000000#32))
        draw
        (mulf (Host.gather gather_S100000x128_S1600000x1_S1600000x128_1_0_n_n_0_1_1128 H sw')
          (broadcastInDim S1600000x128 ![0, 1] bcast_S1600000x1_S1600000x128_0_1
            (broadcastInDim S1600000x1 ![0] bcast_S1600000_S1600000x1_0
              (mulf (Host.gather gather_S100000_S1600000x1_S1600000_n_0_n_n_0_1_1 dv sw)
                (Host.gather gather_S100000_S1600000x1_S1600000_n_0_n_n_0_1_1 dv dw))))))
      (mulf
        (broadcastInDim S100000x128 ![0, 1] bcast_S100000x1_S100000x128_0_1
          (broadcastInDim S100000x1 ![0] bcast_S100000_S100000x1_0 (mulf dv dv)))
        H))
    (broadcastInDim S100000x128 ![0, 1] bcast_S1x128_S100000x128_0_1
      (broadcastInDim S1x128 ![1] bcast_S128_S1x128_1 bias))

/-- The message of edge e at column f: row(src e) of H times the two gathered factors. -/
theorem message_apply (dv : FVec Ideal S100000 .f32) (H : FVec Ideal S100000x128 .f32)
    (sw dw sw' : IVec S1600000x1 32) (e : Fin 1600000) (f : Fin 128) :
    mulf (Host.gather gather_S100000x128_S1600000x1_S1600000x128_1_0_n_n_0_1_1128 H sw')
        (broadcastInDim S1600000x128 ![0, 1] bcast_S1600000x1_S1600000x128_0_1
          (broadcastInDim S1600000x1 ![0] bcast_S1600000_S1600000x1_0
            (mulf (Host.gather gather_S100000_S1600000x1_S1600000_n_0_n_n_0_1_1 dv sw)
              (Host.gather gather_S100000_S1600000x1_S1600000_n_0_n_n_0_1_1 dv dw)))) (ix2 e f)
      = H (ix2 (Cert.Gcn.row (sw' (ix2 e (0 : Fin 1)))) f)
          * (dv (ix1 (Cert.Gcn.row (sw (ix2 e (0 : Fin 1))))) * dv (ix1 (Cert.Gcn.row (dw (ix2 e (0 : Fin 1)))))) := by
  rw [mulf_apply, Cert.LibBroadcastInDim.col_mat_apply, Cert.LibBroadcastInDim.vec_col_apply, mulf_apply,
    Cert.LibRowGather.rowGather_apply (N := 100000) (D := 128) (E := 1600000) (by decide) _ rfl rfl rfl rfl rfl rfl rfl,
    Cert.LibVecGather.vecGather_apply (N := 100000) (E := 1600000) (by decide) _ rfl rfl rfl rfl rfl rfl rfl,
    Cert.LibVecGather.vecGather_apply (N := 100000) (E := 1600000) (by decide) _ rfl rfl rfl rfl rfl rfl rfl]
  rfl

/-- Entry (n, f) of the composed layer is the layer with both factors on each edge's message. -/
theorem layerStage_apply (dv : FVec Ideal S100000 .f32) (H : FVec Ideal S100000x128 .f32)
    (sw dw sw' draw : IVec S1600000x1 32) (bias : FVec Ideal S128 .f32)
    (src dst : Fin 1600000 → BitVec 32) (X : Fin 100000 → Fin 128 → EReal) (W : Fin 128 → Fin 128 → EReal)
    (hsw : ∀ e, sw (ix2 e (0 : Fin 1)) = Cert.Gcn.wrap (src e))
    (hdw : ∀ e, dw (ix2 e (0 : Fin 1)) = Cert.Gcn.wrap (dst e))
    (hsw' : ∀ e, sw' (ix2 e (0 : Fin 1)) = Cert.Gcn.wrap (src e))
    (hdraw : ∀ e, draw (ix2 e (0 : Fin 1)) = dst e)
    (hdv : ∀ m, dv (ix1 m) = Cert.Gcn.dinv dst m)
    (hH : ∀ m g, H (ix2 m g) = Cert.Gcn.mm X W m g)
    (n : Fin 100000) (f : Fin 128) :
    layerStage dv H sw dw sw' draw bias (ix2 n f) = Cert.Gcn.layerR src dst X W (fun k => bias (ix1 k)) n f := by
  unfold layerStage Cert.Gcn.layerR
  rw [addf_apply, addf_apply, mulf_apply, Cert.LibRowScatter.rowScatterAdd_apply _ rfl rfl rfl rfl,
    Cert.LibBroadcastInDim.scalar_apply, Cert.LibBroadcastInDim.col_mat_apply, Cert.LibBroadcastInDim.vec_col_apply,
    mulf_apply, Cert.LibRowBroadcast.row_mat_apply, Cert.LibRowBroadcast.vec_row_apply]
  have h0 : constant (F := Ideal) S_ .f32 0x00000000#32 ix0 = 0 := Ideal.ofBits_zero_f32
  rw [h0, zero_add, hdv, hH]
  refine congrArg (fun t : EReal => t + Cert.Gcn.dinv dst n * Cert.Gcn.dinv dst n * Cert.Gcn.mm X W n f + bias (ix1 f))
    (Finset.sum_congr rfl fun e _ => ?_)
  rw [hdraw, message_apply, hsw, hdw, hsw', hH, hdv, hdv]

end Cert.ReferenceIdeal.RefValue

end
-- ==== Proof.LibKeepdims.lean ====
/-
  Two layout operations of a "keep the reduced axis" column, read at an index: a vector [a] cast to a column [a, 1],
  and a column [a, 1] broadcast along a second axis to [a, b]. General in the extents and in the element type.
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to the column `[a, 1]` reads, at `(i, 0)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : Fin 1).val = if (1 : ℕ) = 1 then 0 else c.val
    rw [if_pos rfl]; rfl

end Cert.LibKeepdims

end
-- ==== Proof.LibBiasRow.lean ====
/-
  A bias vector laid along the rows of a matrix, read at an entry.

  A vector [D] reshaped to the one-row matrix [1, D] has the vector's element k at (0, k); that row spread over N rows has,
  at (p, k), the row's element (0, k).  Together: adding a bias vector to every row of an [N, D] matrix adds element k of the
  vector at column k.  General in the extents and the element type.
-/
import Idealize.ShloMosaic.Lib.ValueIdx
import Idealize.ShloMosaic.Lib.Pipeline.Value

noncomputable section

namespace Cert.LibBiasRow

open Idealize.ShloMosaic Idealize.ShloMosaic.ValueIdx

/-- A vector reshaped to a one-row matrix: element (u, k) of the row is element k of the vector. -/
theorem vec_as_row_apply {α : Type} {D : ℕ} (h : (⟨1, ![D]⟩ : Shape).ShapeCasts ⟨2, ![1, D]⟩)
    (v : (⟨1, ![D]⟩ : Shape).Idx → α) (u : Fin 1) (k : Fin D) :
    shapeCast ⟨2, ![1, D]⟩ v h (ix2 u k) = v (ix1 k) := by
  refine (shapeCast_addUnit_apply (n := 1) ![D] v h (ix2 u k)).trans (congrArg v ?_)
  funext a
  match a with
  | ⟨0, _⟩ => rfl

/-- A one-row matrix spread over N rows: element (p, k) is the row's element (0, k) (the first axis is a unit axis; the
    second is read at the column, also when D = 1). -/
theorem row_spread_apply {α : Type} {N D : ℕ} (h : (⟨2, ![1, D]⟩ : Shape).Broadcasts ⟨2, ![N, D]⟩)
    (v : (⟨2, ![1, D]⟩ : Shape).Idx → α) (p : Fin N) (k : Fin D) :
    broadcastTo ⟨2, ![N, D]⟩ v h (ix2 p k) = v (ix2 (0 : Fin 1) k) :=
  broadcastTo_apply v h (ix2 p k) (ix2 (0 : Fin 1) k) (fun a => by
    match a with
    | ⟨0, _⟩ => rfl
    | ⟨1, _⟩ =>
      show k.val = if D = 1 then 0 else k.val
      split
      · have := k.isLt; omega
      · rfl)

/-- The two together: a vector reshaped to a row and spread over N rows reads, at (p, k), the vector's element k. -/
theorem vec_spread_apply {α : Type} {N D : ℕ} (h₁ : (⟨1, ![D]⟩ : Shape).ShapeCasts ⟨2, ![1, D]⟩)
    (h₂ : (⟨2, ![1, D]⟩ : Shape).Broadcasts ⟨2, ![N, D]⟩) (v : (⟨1, ![D]⟩ : Shape).Idx → α) (p : Fin N) (k : Fin D) :
    broadcastTo ⟨2, ![N, D]⟩ (shapeCast ⟨2, ![1, D]⟩ v h₁) h₂ (ix2 p k) = v (ix1 k) :=
  (row_spread_apply h₂ _ p k).trans (vec_as_row_apply h₁ v 0 k)

end Cert.LibBiasRow

end
-- ==== Proof.KernelStages.lean ====
/-
  The host operations between the kernel's regions, read at an index.

  (1) A row of the edge-index array [2, E] as a vector of E words.
  (2) The per-node factor column: the reciprocal square root of the degree (ones scattered into zeros at the raw target
      words, plus one), reshaped to a column [N, 1]. The kernel computes it with the operations the reference uses.
  (3) The summed neighbour rows: the rows of the pre-scaled projection HS gathered at the wrapped source words and
      scattered with addition into zeros at the raw target words. Entry (n, f) is the sum over the edges landing at n
      of HS[row (src e), f] - with no factor per edge, the target's factor being applied afterwards by the combine body.
  (4) The pair stage's inputs: rows of the second layer gathered at the wrapped pair words; the two halves of the
      scorer's weight column; a bias vector as a one-row matrix.
-/
import proofs.«118010_j66305705116452_2_alg».proof.Proof.Gen.KernelIdeal.Skeleton
import proofs.«118010_j66305705116452_2_alg».proof.Proof.Spec
import proofs.«118010_j66305705116452_2_alg».proof.Proof.RefStages
import proofs.«118010_j66305705116452_2_alg».proof.Proof.LibKeepdims
import proofs.«118010_j66305705116452_2_alg».proof.Proof.LibBiasRow
import Idealize.ShloMosaic.Lib.Pipeline.Value
import Idealize.ShloMosaic.Lib.ValueIdx

noncomputable section

open scoped BigOperators

namespace Cert.KernelIdeal.Stages

open Cert.KernelIdeal Cert.KernelIdeal.Gen Idealize.ShloMosaic Idealize.ShloMosaic.ValueIdx

/-! ## (1) The edge words -/

/-- Row r of the edge-index array, reshaped to a vector: word e is entry (r, e). -/
theorem edge_row_apply (r : Fin 2) (ei : IVec S2x1600000 32) (hs : S2x1600000.Slices ![r.val, 0] S1x1600000)
    (hc : S1x1600000.ShapeCasts S1600000) (e : Fin 1600000) :
    shapeCast S1600000 (extractStridedSlice S1x1600000 ![r.val, 0] ei hs) hc (ix1 e) = ei (ix2 r e) := by
  rw [shapeCast_apply (s := S1x1600000) (t := S1600000) _ hc (ix1 e) (ix2 (0 : Fin 1) e) (by
    simp only [Shape.rowMajor_val_two, Shape.rowMajor_val_one]
    simp [ix1, ix2])]
  refine extractStridedSlice_apply _ ei hs _ (ix2 r e) fun a => ?_
  match a with
  | ⟨0, _⟩ => simp [ix2]
  | ⟨1, _⟩ => simp [ix2]

/-! ## (3) The summed neighbour rows -/

/-- Rows of HS gathered at a column of start words and scattered with addition into zeros at a column of target words. -/
def segStage (HS : FVec Ideal S100000x128 .f32) (sw draw : IVec S1600000x1 32) : FVec Ideal S100000x128 .f32 :=
  Host.scatterAdd scatter_S100000x128_S1600000x1_S1600000x128_1_0_0_1
    (broadcastInDim S100000x128 ![] bcast_S_S100000x128 (constant S_ .f32 0x00000000#32)) draw
    (Host.gather gather_S100000x128_S1600000x1_S1600000x128_1_0_n_n_0_1_1128 HS sw)

/-- Entry (n, f): the sum over the edges landing at n of the gathered row's entry f. -/
theorem segStage_apply (HS : FVec Ideal S100000x128 .f32) (sw draw : IVec S1600000x1 32)
    (src dst : Fin 1600000 → BitVec 32)
    (hsw : ∀ e, sw (ix2 e (0 : Fin 1)) = Cert.Gcn.wrap (src e)) (hdraw : ∀ e, draw (ix2 e (0 : Fin 1)) = dst e)
    (n : Fin 100000) (f : Fin 128) :
    segStage HS sw draw (ix2 n f)
      = ∑ e : Fin 1600000, if (dst e).toInt = (n.val : ℤ) then HS (ix2 (Cert.Gcn.row (Cert.Gcn.wrap (src e))) f) else 0 := by
  unfold segStage
  rw [Cert.LibRowScatter.rowScatterAdd_apply _ rfl rfl rfl rfl, Cert.LibBroadcastInDim.scalar_apply]
  have h0 : constant (F := Ideal) S_ .f32 0x00000000#32 ix0 = 0 := Ideal.ofBits_zero_f32
  rw [h0, zero_add]
  refine Finset.sum_congr rfl fun e _ => ?_
  rw [hdraw, Cert.LibRowGather.rowGather_apply (N := 100000) (D := 128) (E := 1600000) (by decide) _ rfl rfl rfl rfl rfl rfl rfl]
  show (if (dst e).toInt = (n.val : ℤ) then HS (ix2 (Cert.Gcn.row (sw (ix2 e (0 : Fin 1)))) f) else 0) = _
  rw [hsw]

/-! ## (4) The pair stage's inputs -/

/-- Rows of a node array gathered at a column of pair words: row p is the node row the wrapped word names. -/
theorem pairRows_apply {α : Type} (H : S100000x128.Idx → α) (pw : IVec S500000x1 32) (z : Fin 500000 → BitVec 32)
    (hpw : ∀ p, pw (ix2 p (0 : Fin 1)) = Cert.Gcn.wrap (z p)) (p : Fin 500000) (k : Fin 128) :
    Host.gather gather_S100000x128_S500000x1_S500000x128_1_0_n_n_0_1_1128 H pw (ix2 p k)
      = H (ix2 (Cert.Gcn.row (Cert.Gcn.wrap (z p))) k) := by
  rw [Cert.LibRowGather.rowGather_apply (N := 100000) (D := 128) (E := 500000) (by decide) _ rfl rfl rfl rfl rfl rfl rfl]
  show H (ix2 (Cert.Gcn.row (pw (ix2 p (0 : Fin 1)))) k) = _
  rw [hpw]

/-- The first half of the scorer's weight column. -/
theorem lowHalf_apply (wl : FVec Ideal S256x1 .f32) (hs : S256x1.Slices ![0, 0] S128x1) (k : Fin 128) (u : Fin 1) :
    extractStridedSlice S128x1 ![0, 0] wl hs (ix2 k u) = wl (ix2 (Fin.castAdd 128 k : Fin 256) (0 : Fin 1)) := by
  refine extractStridedSlice_apply _ wl hs _ (ix2 (Fin.castAdd 128 k : Fin 256) (0 : Fin 1)) fun a => ?_
  match a with
  | ⟨0, _⟩ => simp [ix2]
  | ⟨1, _⟩ => simp [ix2]

/-- The second half of the scorer's weight column. -/
theorem highHalf_apply (wl : FVec Ideal S256x1 .f32) (hs : S256x1.Slices ![128, 0] S128x1) (k : Fin 128) (u : Fin 1) :
    extractStridedSlice S128x1 ![128, 0] wl hs (ix2 k u) = wl (ix2 (Fin.natAdd 128 k : Fin 256) (0 : Fin 1)) := by
  refine extractStridedSlice_apply _ wl hs _ (ix2 (Fin.natAdd 128 k : Fin 256) (0 : Fin 1)) fun a => ?_
  match a with
  | ⟨0, _⟩ => simp [ix2]; omega
  | ⟨1, _⟩ => simp [ix2]

end Cert.KernelIdeal.Stages

end
-- ==== Proof.LibMatmulRows.lean ====
/-
  A matrix product into a zero accumulator, read at an index at the ideal values, for operands of any float formats.

  At the ideal values a float is an extended real whatever its format, so a product whose operands were first rounded to a
  narrower format is still the plain sum over the contraction coordinate: for any dimension numbers that contract the
  left operand's columns with the right operand's rows, [n, K] × [K, F] at (p, f) is the sum over k of left (p, k) times
  right (k, f).
-/
import Idealize.ShloMosaic.PureOps.Ideal
import Idealize.ShloMosaic.PureOps.Ideal.Laws
import Idealize.ShloMosaic.Lib.ValueIdx

noncomputable section

open scoped BigOperators

namespace Cert.LibMatmulRows

open Idealize.ShloMosaic Idealize.ShloMosaic.ValueIdx

/-- At the ideal values a matrix product [n, K] × [K, F] into the zero accumulator reads, at (p, f), the sum over the
    contraction coordinate k of left (p, k) times right (k, f), whatever the operands' float formats — for any dimension
    numbers with one contracted axis of extent K whose operand indices are the rows of the left operand and the columns
    of the right one (the four coordinate facts, which compute on a literal record). -/
theorem matmul_rows_apply {n K F : ℕ} {φ₁ φ₂ : FTy} (D : DotDims ⟨2, ![n, K]⟩ ⟨2, ![K, F]⟩ ⟨2, ![n, F]⟩)
    (hr : D.contr.rank = 1) (hs : D.contr.size ⟨0, by omega⟩ = K)
    (hl0 : ∀ j q, (D.lhsIdx j q 0).val = (j 0).val) (hl1 : ∀ j q, (D.lhsIdx j q 1).val = (q ⟨0, by omega⟩).val)
    (hr0 : ∀ j q, (D.rhsIdx j q 0).val = (q ⟨0, by omega⟩).val) (hr1 : ∀ j q, (D.rhsIdx j q 1).val = (j 1).val)
    (prec : Option ContractPrecision) (l : FVec Ideal ⟨2, ![n, K]⟩ φ₁) (r : FVec Ideal ⟨2, ![K, F]⟩ φ₂)
    (p : Fin n) (f : Fin F) :
    matmul D prec l r (constant ⟨2, ![n, F]⟩ .f32 0x00000000#32) (ix2 p f) = ∑ k : Fin K, l (ix2 p k) * r (ix2 k f) := by
  refine (Ideal.matmul_constant_zero_apply D prec l r (ix2 p f)).trans ?_
  rw [← Equiv.sum_comp (contrEquiv1 D K hr hs).symm]
  refine Finset.sum_congr rfl fun k _ => ?_
  have hk := contrEquiv1_symm_val D K hr hs k
  have el : D.lhsIdx (ix2 p f) ((contrEquiv1 D K hr hs).symm k) = ix2 p k := funext fun ax => Fin.ext (by
    match ax with
    | ⟨0, _⟩ => exact hl0 _ _
    | ⟨1, _⟩ => exact (hl1 _ _).trans hk)
  have er : D.rhsIdx (ix2 p f) ((contrEquiv1 D K hr hs).symm k) = ix2 k f := funext fun ax => Fin.ext (by
    match ax with
    | ⟨0, _⟩ => exact (hr0 _ _).trans hk
    | ⟨1, _⟩ => exact hr1 _ _)
  rw [el, er]

end Cert.LibMatmulRows

end
-- ==== Proof.LibUnitSplat.lean ====
/-
  A one-entry matrix [1, 1] broadcast to [a, b], read at an index: every entry is the one entry. General in the
  extents and in the element type.
-/
import Idealize.ShloMosaic.Lib.Pipeline.Value
import Idealize.ShloMosaic.Lib.ValueIdx

noncomputable section

namespace Cert.LibUnitSplat

open Idealize.ShloMosaic Idealize.ShloMosaic.ValueIdx

variable {α : Type}

/-- A `[1, 1]` array broadcast to `[a, b]` reads, at `(p, c)`, the operand's one entry. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibUnitSplat

end
-- ==== Proof.Payloads.lean ====
/-
  What each kernel body stores, entry by entry, on the extended reals.

  A body loads whole blocks, computes and stores one whole block. With x a block of 4000 node rows, w a weight matrix,
  d the block's column of per-node factors, s the block of summed neighbour rows, b a bias row:
    projection bodies (layers 1 and 2):   (x · w)[p, q] · d[p]            -- the matrix product into a zero accumulator,
                                                                            the change to the narrow float format being
                                                                            the identity on the extended reals
    combine body, layer 1:                max (d[p] · (s[p,q] + hs[p,q]) + b[q]) 0
    combine body, layer 2:                d[p] · (s[p,q] + hs[p,q]) + b[q]
    scoring body:                         logistic (hi[p,·] · wa + hj[p,·] · wb + bl)
-/
import proofs.«118010_j66305705116452_2_alg».proof.Proof.Gen.KernelIdeal.Skeleton
import proofs.«118010_j66305705116452_2_alg».proof.Proof.LibMatmulRows
import proofs.«118010_j66305705116452_2_alg».proof.Proof.LibKeepdims
import proofs.«118010_j66305705116452_2_alg».proof.Proof.LibBiasRow
import proofs.«118010_j66305705116452_2_alg».proof.Proof.LibUnitSplat
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The two contraction records: which entry of each operand a result entry and a contracted position name -/

theorem mmL0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem mmL1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem mmR0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem mmR1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

theorem mvL0 (i : S4000x1.Idx) (q : dot_S4000x128_S128x1_S4000x1_1_0_0_1_n_n.contr.Idx) :
    (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide),
    dif_pos (show (0 : Fin S4000x128.rank) ∈ dot_S4000x128_S128x1_S4000x1_1_0_0_1_n_n.lhsNonContracting by decide)]
  rfl
theorem mvL1 (i : S4000x1.Idx) (q : dot_S4000x128_S128x1_S4000x1_1_0_0_1_n_n.contr.Idx) :
    (dot_S4000x128_S128x1_S4000x1_1_0_0_1_n_n.lhsIdx i q 1).val = (q ⟨0, by decide⟩).val :=
  dot_S4000x128_S128x1_S4000x1_1_0_0_1_n_n.lhsIdx_val_of_single rfl i q
theorem mvR0 (i : S4000x1.Idx) (q : dot_S4000x128_S128x1_S4000x1_1_0_0_1_n_n.contr.Idx) :
    (dot_S4000x128_S128x1_S4000x1_1_0_0_1_n_n.rhsIdx i q 0).val = (q ⟨0, by decide⟩).val :=
  dot_S4000x128_S128x1_S4000x1_1_0_0_1_n_n.rhsIdx_val_of_single rfl i q
theorem mvR1 (i : S4000x1.Idx) (q : dot_S4000x128_S128x1_S4000x1_1_0_0_1_n_n.contr.Idx) :
    (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide),
    dif_pos (show (1 : Fin S128x1.rank) ∈ dot_S4000x128_S128x1_S4000x1_1_0_0_1_n_n.rhsNonContracting by decide)]
  rfl

/-- A block times the weight matrix into the zero accumulator: entry (p, q) is the sum over the 128 features. -/
theorem mm_apply {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) :=
  Cert.LibMatmulRows.matmul_rows_apply dot_S4000x128_S128x128_S4000x128_1_0_0_1_n_n rfl rfl mmL0 mmL1 mmR0 mmR1 none l r p q

/-- A block times a weight column into the zero accumulator. -/
theorem mv_apply {φ₁ φ₂ : FTy} (l : FVec Ideal S4000x128 φ₁) (r : FVec Ideal S128x1 φ₂) (p : Fin 4000) (u : Fin 1) :
    matmul dot_S4000x128_S128x1_S4000x1_1_0_0_1_n_n none l r (constant S4000x1 .f32 0x00000000#32) (ix2 p u)
      = ∑ k : Fin 128, l (ix2 p k) * r (ix2 k u) :=
  Cert.LibMatmulRows.matmul_rows_apply dot_S4000x128_S128x1_S4000x1_1_0_0_1_n_n rfl rfl mvL0 mvL1 mvR0 mvR1 none l r p u

/-! ## The five payloads -/

/-- Layer 1's projection body. -/
theorem pay0_apply (x0 : Vec Ideal S4000x128 .f32) (x1 : Vec Ideal S128x128 .f32) (x2 : Vec Ideal S4000x1 .f32)
    (p : Fin 4000) (q : Fin 128) :
    k0_pay1 (F := Ideal) x0 x1 x2 (ix2 p q) = (∑ k : Fin 128, x0 (ix2 p k) * x1 (ix2 k q)) * x2 (ix2 p (0 : Fin 1)) := by
  unfold k0_pay1
  refine (mulf_apply _ _ _).trans ?_
  refine congrArg₂ (· * ·) ((mm_apply _ _ p q).trans rfl) ?_
  rw [shapeCast_self]
  exact Cert.LibKeepdims.broadcastTo_a1_ab_apply _ _ p q

/-- Layer 2's projection body (its input block already in the narrow float format). -/
theorem pay2_apply (x0 : Vec Ideal S4000x128 .bf16) (x1 : Vec Ideal S128x128 .f32) (x2 : Vec Ideal S4000x1 .f32)
    (p : Fin 4000) (q : Fin 128) :
    k2_pay1 (F := Ideal) x0 x1 x2 (ix2 p q) = (∑ k : Fin 128, x0 (ix2 p k) * x1 (ix2 k q)) * x2 (ix2 p (0 : Fin 1)) := by
  unfold k2_pay1
  refine (mulf_apply _ _ _).trans ?_
  refine congrArg₂ (· * ·) ?_ ?_
  · rw [shapeCast_self]
    exact (mm_apply _ _ p q).trans rfl
  · rw [shapeCast_self]
    exact Cert.LibKeepdims.broadcastTo_a1_ab_apply _ _ p q

/-- The combine bodies before the floor: d[p] · (s[p,q] + hs[p,q]) + b[q]. -/
theorem combine_apply (d : Vec Ideal S4000x1 .f32) (s hs : Vec Ideal S4000x128 .f32) (b : Vec Ideal S1x128 .f32)
    (p : Fin 4000) (q : Fin 128) :
    addf (F := Ideal) (φ := .f32) (mulf (F := Ideal) (φ := .f32) (broadcastTo S4000x128 (shapeCast S4000x1 d shapeCasts_S4000x1_S4000x1) broadcasts_S4000x1_S4000x128)
        (addf (F := Ideal) (φ := .f32) (shapeCast S4000x128 s shapeCasts_S4000x128_S4000x128) (shapeCast S4000x128 hs shapeCasts_S4000x128_S4000x128)))
      (broadcastTo S4000x128 (shapeCast S1x128 b shapeCasts_S1x128_S1x128) broadcasts_S1x128_S4000x128) (ix2 p q)
    = d (ix2 p (0 : Fin 1)) * (s (ix2 p q) + hs (ix2 p q)) + b (ix2 (0 : Fin 1) q) := by
  rw [shapeCast_self, shapeCast_self, shapeCast_self, shapeCast_self]
  refine (addf_apply _ _ _).trans ?_
  refine congrArg₂ (· + ·) ?_ (Cert.LibBiasRow.row_spread_apply _ _ p q)
  refine (mulf_apply _ _ _).trans ?_
  exact congrArg₂ (· * ·) (Cert.LibKeepdims.broadcastTo_a1_ab_apply _ _ p q) (addf_apply _ _ _)

/-- Layer 1's combine body: floored at zero. -/
theorem pay1_apply (d : Vec Ideal S4000x1 .f32) (s hs : Vec Ideal S4000x128 .f32) (b : Vec Ideal S1x128 .f32)
    (p : Fin 4000) (q : Fin 128) :
    k1_pay1 (F := Ideal) d s hs b (ix2 p q)
      = max (d (ix2 p (0 : Fin 1)) * (s (ix2 p q) + hs (ix2 p q)) + b (ix2 (0 : Fin 1) q)) 0 := by
  unfold k1_pay1
  refine (truncf_apply (φ := .f32) (ψ := .bf16) _ bitsLt_bf16_f32 _).trans ?_
  refine (maximumf_apply _ _ _).trans ?_
  refine congrArg₂ max (combine_apply d s hs b p q) ?_
  exact (broadcast_apply _ _).trans Ideal.ofBits_zero_f32

/-- Layer 2's combine body. -/
theorem pay3_apply (d : Vec Ideal S4000x1 .f32) (s hs : Vec Ideal S4000x128 .f32) (b : Vec Ideal S1x128 .f32)
    (p : Fin 4000) (q : Fin 128) :
    k3_pay1 (F := Ideal) d s hs b (ix2 p q)
      = d (ix2 p (0 : Fin 1)) * (s (ix2 p q) + hs (ix2 p q)) + b (ix2 (0 : Fin 1) q) := by
  unfold k3_pay1
  exact (truncf_apply (φ := .f32) (ψ := .bf16) _ bitsLt_bf16_f32 _).trans (combine_apply d s hs b p q)

/-- The scoring body. -/
theorem pay4_apply (hi hj : Vec Ideal S4000x128 .bf16) (wa wb : Vec Ideal S128x1 .f32) (bl : Vec Ideal S1x1 .f32)
    (p : Fin 4000) (u : Fin 1) :
    k4_pay1 (F := Ideal) hi hj wa wb bl (ix2 p u)
      = Ideal.logistic ((∑ k : Fin 128, hi (ix2 p k) * wa (ix2 k u)) + (∑ k : Fin 128, hj (ix2 p k) * wb (ix2 k u))
          + bl (ix2 (0 : Fin 1) (0 : Fin 1))) := by
  unfold k4_pay1
  rw [shapeCast_self, shapeCast_self, shapeCast_self, shapeCast_self, shapeCast_self]
  show Ideal.logistic (addf (F := Ideal) (φ := .f32) (addf (F := Ideal) (φ := .f32) _ _) _ (ix2 p u)) = _
  refine congrArg Ideal.logistic ?_
  refine (addf_apply _ _ _).trans ?_
  refine congrArg₂ (· + ·) ?_ (Cert.LibUnitSplat.broadcastTo_11_ab_apply _ _ p u)
  refine (addf_apply _ _ _).trans ?_
  exact congrArg₂ (· + ·) ((mv_apply _ _ p u).trans rfl) ((mv_apply _ _ p u).trans rfl)

end Cert.KernelIdeal.Payload

end
-- ==== Proof.Arrays0.lean ====
/-
  Region 0 (layer 1's projection) as one whole-array function.

  The region walks the 100000 node rows in 25 blocks of 4000. At point t the input windows hold rows 4000 t ... 4000 t + 3999
  of the node features and of the per-node factor column, and the whole weight matrix; the body stores, into rows
  4000 t ... of the output, (x · w)[p, q] · d[p]. Row n of the array is written by point n / 4000 and by no other, and
  what is written there depends only on row n of the inputs: so the array the region leaves is
      proj x w d (n, f) = (Σ over k of x[n, k] · w[k, f]) · d[n, 0]
  of the arrays the region found, whatever those are.
-/
import proofs.«118010_j66305705116452_2_alg».proof.Proof.KernelIdealFrameP
import proofs.«118010_j66305705116452_2_alg».proof.Proof.Payloads
import Idealize.ShloMosaic.Lib.Pipeline.Value

set_option maxRecDepth 16384

noncomputable section

open scoped BigOperators

namespace Cert.KernelIdeal.Arrays

open Cert.KernelIdeal Cert.KernelIdeal.Gen Cert.KernelIdeal.GenP
open Idealize.ShloMosaic Idealize.ShloMosaic.TcCoe Idealize.SL.Sem Idealize.ShloMosaic.ValueIdx

/-- A whole-block rectangle starts at the origin. -/
theorem hz : (![0, 0] : Fin 2 → Nat) = fun _ => 0 := funext fun a => by fin_cases a <;> rfl

/-- Node rows projected and scaled at their own node. -/
def proj (x : S100000x128.Idx → EReal) (w : S128x128.Idx → EReal) (d : S100000x1.Idx → EReal) : S100000x128.Idx → EReal :=
  fun i => (∑ k : Fin 128, x (ix2 (i 0) k) * w (ix2 k (i 1))) * d (ix2 (i 0) (0 : Fin 1))

variable (V : (c : Dev nD) → (b : Ref sig .tc) → Buf (Elt Ideal) ((c : Thread nD τ).loc b))

/-- The printed index maps over the grid: the row windows sit at block row t, the weight window at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- What point t writes back is block t of proj of the arrays the region found. -/
theorem flushed0 (c : Dev nD) (t : Fin cfg0.N) :
    (dat0 V c).flushed 3 t
      = ((cfg0.win 3).blk t).view.read (Elt Ideal) (proj (V c main_arg0) (V c main_arg4) (V c main_v11)) := by
  show (cfg0.win 3).cut (grid0.coords t) ((dat0 V c).after 3 t) = _
  rw [after0_3]
  unfold out0_3
  rw [View.canon_unit_zero hz]
  simp only [View.ld_unit_zero (S := S4000x128) hz, View.ld_unit_zero (S := S128x128) hz, View.ld_unit_zero (S := S4000x1) hz]
  obtain ⟨e00, e01, e10, e11, e20, e21, e30, e31⟩ := idx_facts0 t
  funext j
  obtain ⟨p, q, rfl⟩ : ∃ (p : Fin 4000) (q : Fin 128), j = ix2 p q := ⟨j 0, j 1, eq_ix2 j⟩
  refine (Payload.pay0_apply (iblk0 V c 0 t) (iblk0 V c 1 t) (iblk0 V c 2 t) p q).trans ?_
  have ht : t.val < 25 := by have h := t.isLt; have hN : grid0.N = 25 := N_0; exact hN ▸ h
  have hr : t.val * 4000 + p.val < 100000 := by have := p.isLt; omega
  have h3 : ((cfg0.win 3).blk t).view.emb (ix2 p q) = ix2 (⟨t.val * 4000 + p.val, hr⟩ : Fin 100000) q := by
    funext a; apply Fin.ext
    match a with
    | ⟨0, _⟩ => show win0_3.index t (0 : Fin 2) * 4000 + 1 * p.val = t.val * 4000 + p.val; omega
    | ⟨1, _⟩ => show win0_3.index t (1 : Fin 2) * 128 + 1 * q.val = q.val; omega
  have h0 : ∀ k : Fin 128, ((cfg0.win 0).blk t).view.emb (ix2 p k) = ix2 (⟨t.val * 4000 + p.val, hr⟩ : Fin 100000) k := fun k => by
    funext a; apply Fin.ext
    match a with
    | ⟨0, _⟩ => show win0_0.index t (0 : Fin 2) * 4000 + 1 * p.val = t.val * 4000 + p.val; omega
    | ⟨1, _⟩ => show win0_0.index t (1 : Fin 2) * 128 + 1 * k.val = k.val; omega
  have h1 : ∀ k : Fin 128, ((cfg0.win 1).blk t).view.emb (ix2 k q) = ix2 k q := fun k => by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h2 : ((cfg0.win 2).blk t).view.emb (ix2 p (0 : Fin 1)) = ix2 (⟨t.val * 4000 + p.val, hr⟩ : Fin 100000) (0 : Fin 1) := by
    funext a; apply Fin.ext
    match a with
    | ⟨0, _⟩ => show win0_2.index t (0 : Fin 2) * 4000 + 1 * p.val = t.val * 4000 + p.val; omega
    | ⟨1, _⟩ => show win0_2.index t (1 : Fin 2) * 1 + 1 * 0 = 0; omega
  have hX : ∀ k : Fin 128, iblk0 V c 0 t (ix2 p k) = V c main_arg0 (ix2 (⟨t.val * 4000 + p.val, hr⟩ : Fin 100000) k) := fun k => by
    show V c main_arg0 (((cfg0.win 0).blk t).view.emb (ix2 p k)) = _
    exact congrArg (V c main_arg0) (h0 k)
  have hW : ∀ k : Fin 128, iblk0 V c 1 t (ix2 k q) = V c main_arg4 (ix2 k q) := fun k => by
    show V c main_arg4 (((cfg0.win 1).blk t).view.emb (ix2 k q)) = _
    exact congrArg (V c main_arg4) (h1 k)
  have hD : iblk0 V c 2 t (ix2 p (0 : Fin 1)) = V c main_v11 (ix2 (⟨t.val * 4000 + p.val, hr⟩ : Fin 100000) (0 : Fin 1)) := by
    show V c main_v11 (((cfg0.win 2).blk t).view.emb (ix2 p (0 : Fin 1))) = _
    exact congrArg (V c main_v11) h2
  have hO : View.read (Elt Ideal) ((View.whole main_v12).slice ((win0 3).rect t))
        (proj (V c main_arg0) (V c main_arg4) (V c main_v11)) (ix2 p q)
      = proj (V c main_arg0) (V c main_arg4) (V c main_v11) (ix2 (⟨t.val * 4000 + p.val, hr⟩ : Fin 100000) q) := by
    show proj (V c main_arg0) (V c main_arg4) (V c main_v11) (((cfg0.win 3).blk t).view.emb (ix2 p q)) = _
    rw [h3]
  rw [hO]
  unfold proj
  exact congrArg₂ (· * ·) (Finset.sum_congr rfl fun k _ => congrArg₂ (· * ·) (hX k) (hW k)) hD

/-- Row n is in the block of point n / 4000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 25 := N_0
  obtain ⟨t0, ht0⟩ : ∃ t0 : Fin cfg0.N, t0.val = (i 0).val / 4000 :=
    ⟨⟨(i 0).val / 4000, by show _ < grid0.N; omega⟩, rfl⟩
  obtain ⟨e00, e01, e10, e11, e20, e21, e30, e31⟩ := idx_facts0 t0
  refine ⟨t0, flush0_3 t0, ?_⟩
  show i ∈ ((View.whole main_v12).slice (win0_3.rect t0)).set
  rw [View.set_slice_whole, Rect.mem_set_unit]
  intro a
  match a with
  | ⟨0, _⟩ =>
    show win0_3.index t0 (0 : Fin 2) * 4000 ≤ (i 0).val ∧ (i 0).val < win0_3.index t0 (0 : Fin 2) * 4000 + 4000
    omega
  | ⟨1, _⟩ =>
    show win0_3.index t0 (1 : Fin 2) * 128 ≤ (i 1).val ∧ (i 1).val < win0_3.index t0 (1 : Fin 2) * 128 + 128
    omega

/-- THE ARRAY region 0 leaves: proj of the arrays it found. -/
theorem final0 (c : Dev nD) :
    (dat0 V c).arrAt 3 cfg0.N = proj (V c main_arg0) (V c main_arg4) (V c main_v11) :=
  (dat0 V c).arrAt_eq_of_cover 3 (proj (V c main_arg0) (V c main_arg4) (V c main_v11)) (fun t _ => flushed0 V c t) cover0

end Cert.KernelIdeal.Arrays

end
-- ==== Proof.Arrays1.lean ====
/-
  The first combine region as one function of whole arrays.

  The 100000 node rows are cut into 25 blocks of 4000 consecutive rows, one per grid point. At point t the region
  holds block t of the summed neighbour rows s, of the scaled projection hs and of the factor column d, and the one
  bias row b, and it writes block t of the output: at local row p and column q,
      max (d[p] * (s[p, q] + hs[p, q]) + b[q]) 0.
  Local row p of block t is global row 4000 t + p, so the entry written at (n, q) is read from row n of s, hs, d
  and from entry q of b, and from nothing else. Every row n lies in exactly the block of point n / 4000. Hence the
  array left behind is, entry by entry, the floored combination of the arrays found, whatever they hold.
-/
import proofs.«118010_j66305705116452_2_alg».proof.Proof.KernelIdealFrameP
import proofs.«118010_j66305705116452_2_alg».proof.Proof.Payloads
import Idealize.ShloMosaic.Lib.Pipeline.Value

set_option maxRecDepth 16384

noncomputable section

open scoped BigOperators

namespace Cert.KernelIdeal.Arrays

open Cert.KernelIdeal Cert.KernelIdeal.Gen Cert.KernelIdeal.GenP
open Idealize.ShloMosaic Idealize.ShloMosaic.TcCoe Idealize.SL.Sem Idealize.ShloMosaic.ValueIdx

/-- A rectangle that is a whole block starts at the origin. -/
theorem hz1 : (![0, 0] : Fin 2 → Nat) = fun _ => 0 := funext fun a => by fin_cases a <;> rfl

/-- Rows scaled at their own node after adding the node's own scaled projection, plus the bias, floored at zero. -/
def combFloor (s hs : S100000x128.Idx → EReal) (d : S100000x1.Idx → EReal) (b : S1x128.Idx → EReal) : S100000x128.Idx → EReal :=
  fun i => max (d (ix2 (i 0) (0 : Fin 1)) * (s (ix2 (i 0) (i 1)) + hs (ix2 (i 0) (i 1))) + b (ix2 (0 : Fin 1) (i 1))) 0

variable (V : (c : Dev nD) → (b : Ref sig .tc) → Buf (Elt Ideal) ((c : Thread nD τ).loc b))

/-- Where each window sits at grid point t: the three row windows and the output at block row t, the bias row
    at the origin. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is block t of combFloor of the arrays the region found: entry (p, q) of the block is
    computed from entry (p, q) of the two row blocks, entry p of the factor column's block and entry q of the bias
    row, and these are the arrays' entries at row 4000 t + p. -/
theorem flushed1 (c : Dev nD) (t : Fin cfg1.N) :
    (dat1 V c).flushed 4 t
      = ((cfg1.win 4).blk t).view.read (Elt Ideal) (combFloor (V c main_v22) (V c main_v12) (V c main_v11) (V c main_v23)) := by
  show (cfg1.win 4).cut (grid1.coords t) ((dat1 V c).after 4 t) = _
  rw [after1_4]
  unfold out1_4
  rw [View.canon_unit_zero hz1]
  simp only [View.ld_unit_zero (S := S4000x128) hz1, View.ld_unit_zero (S := S4000x1) hz1, View.ld_unit_zero (S := S1x128) hz1]
  obtain ⟨e00, e01, e10, e11, e20, e21, e30, e31, e40, e41⟩ := idx_facts1 t
  funext j
  obtain ⟨p, q, rfl⟩ : ∃ (p : Fin 4000) (q : Fin 128), j = ix2 p q := ⟨j 0, j 1, eq_ix2 j⟩
  refine (Payload.pay1_apply (iblk1 V c 2 t) (iblk1 V c 0 t) (iblk1 V c 1 t) (iblk1 V c 3 t) p q).trans ?_
  have ht : t.val < 25 := by have h := t.isLt; have hN : grid1.N = 25 := N_1; exact hN ▸ h
  have hr : t.val * 4000 + p.val < 100000 := by have := p.isLt; omega
  have h4 : ((cfg1.win 4).blk t).view.emb (ix2 p q) = ix2 (⟨t.val * 4000 + p.val, hr⟩ : Fin 100000) q := by
    funext a; apply Fin.ext
    match a with
    | ⟨0, _⟩ => show win1_4.index t (0 : Fin 2) * 4000 + 1 * p.val = t.val * 4000 + p.val; omega
    | ⟨1, _⟩ => show win1_4.index t (1 : Fin 2) * 128 + 1 * q.val = q.val; omega
  have h0 : ((cfg1.win 0).blk t).view.emb (ix2 p q) = ix2 (⟨t.val * 4000 + p.val, hr⟩ : Fin 100000) q := by
    funext a; apply Fin.ext
    match a with
    | ⟨0, _⟩ => show win1_0.index t (0 : Fin 2) * 4000 + 1 * p.val = t.val * 4000 + p.val; omega
    | ⟨1, _⟩ => show win1_0.index t (1 : Fin 2) * 128 + 1 * q.val = q.val; omega
  have h1 : ((cfg1.win 1).blk t).view.emb (ix2 p q) = ix2 (⟨t.val * 4000 + p.val, hr⟩ : Fin 100000) q := by
    funext a; apply Fin.ext
    match a with
    | ⟨0, _⟩ => show win1_1.index t (0 : Fin 2) * 4000 + 1 * p.val = t.val * 4000 + p.val; omega
    | ⟨1, _⟩ => show win1_1.index t (1 : Fin 2) * 128 + 1 * q.val = q.val; omega
  have h2 : ((cfg1.win 2).blk t).view.emb (ix2 p (0 : Fin 1)) = ix2 (⟨t.val * 4000 + p.val, hr⟩ : Fin 100000) (0 : Fin 1) := by
    funext a; apply Fin.ext
    match a with
    | ⟨0, _⟩ => show win1_2.index t (0 : Fin 2) * 4000 + 1 * p.val = t.val * 4000 + p.val; omega
    | ⟨1, _⟩ => show win1_2.index t (1 : Fin 2) * 1 + 1 * 0 = 0; omega
  have h3 : ((cfg1.win 3).blk t).view.emb (ix2 (0 : Fin 1) q) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have hS : iblk1 V c 0 t (ix2 p q) = V c main_v22 (ix2 (⟨t.val * 4000 + p.val, hr⟩ : Fin 100000) q) := by
    show V c main_v22 (((cfg1.win 0).blk t).view.emb (ix2 p q)) = _
    exact congrArg (V c main_v22) h0
  have hHS : iblk1 V c 1 t (ix2 p q) = V c main_v12 (ix2 (⟨t.val * 4000 + p.val, hr⟩ : Fin 100000) q) := by
    show V c main_v12 (((cfg1.win 1).blk t).view.emb (ix2 p q)) = _
    exact congrArg (V c main_v12) h1
  have hD : iblk1 V c 2 t (ix2 p (0 : Fin 1)) = V c main_v11 (ix2 (⟨t.val * 4000 + p.val, hr⟩ : Fin 100000) (0 : Fin 1)) := by
    show V c main_v11 (((cfg1.win 2).blk t).view.emb (ix2 p (0 : Fin 1))) = _
    exact congrArg (V c main_v11) h2
  have hB : iblk1 V c 3 t (ix2 (0 : Fin 1) q) = V c main_v23 (ix2 (0 : Fin 1) q) := by
    show V c main_v23 (((cfg1.win 3).blk t).view.emb (ix2 (0 : Fin 1) q)) = _
    exact congrArg (V c main_v23) h3
  have hO : ((cfg1.win 4).blk t).view.read (Elt Ideal) (combFloor (V c main_v22) (V c main_v12) (V c main_v11) (V c main_v23)) (ix2 p q)
      = combFloor (V c main_v22) (V c main_v12) (V c main_v11) (V c main_v23) (ix2 (⟨t.val * 4000 + p.val, hr⟩ : Fin 100000) q) := by
    show combFloor (V c main_v22) (V c main_v12) (V c main_v11) (V c main_v23) (((cfg1.win 4).blk t).view.emb (ix2 p q)) = _
    rw [h4]
  refine Eq.trans ?_ hO.symm
  unfold combFloor
  exact congrArg (fun u : EReal => max u 0) (congrArg₂ (fun u v : EReal => u + v) (congrArg₂ (fun u v : EReal => u * v) hD (congrArg₂ (fun u v : EReal => u + v) hS hHS)) hB)

/-- Row n lies in the block of point n / 4000, which is written back. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : grid1.N = 25 := N_1
  obtain ⟨t0, ht0⟩ : ∃ t0 : Fin cfg1.N, t0.val = (i 0).val / 4000 :=
    ⟨⟨(i 0).val / 4000, by show _ < grid1.N; omega⟩, rfl⟩
  obtain ⟨e00, e01, e10, e11, e20, e21, e30, e31, e40, e41⟩ := idx_facts1 t0
  refine ⟨t0, flush1_4 t0, ?_⟩
  show i ∈ ((View.whole main_v24).slice (win1_4.rect t0)).set
  rw [View.set_slice_whole, Rect.mem_set_unit]
  intro a
  match a with
  | ⟨0, _⟩ =>
    show win1_4.index t0 (0 : Fin 2) * 4000 ≤ (i 0).val ∧ (i 0).val < win1_4.index t0 (0 : Fin 2) * 4000 + 4000
    omega
  | ⟨1, _⟩ =>
    show win1_4.index t0 (1 : Fin 2) * 128 ≤ (i 1).val ∧ (i 1).val < win1_4.index t0 (1 : Fin 2) * 128 + 128
    omega

/-- THE ARRAY region 1 leaves: combFloor of the arrays it found. -/
theorem final1 (c : Dev nD) :
    (dat1 V c).arrAt 4 cfg1.N = combFloor (V c main_v22) (V c main_v12) (V c main_v11) (V c main_v23) :=
  (dat1 V c).arrAt_eq_of_cover 4 (combFloor (V c main_v22) (V c main_v12) (V c main_v11) (V c main_v23)) (fun t _ => flushed1 V c t) cover1

end Cert.KernelIdeal.Arrays

end
-- ==== Proof.Arrays2.lean ====
/-
  Region 2 (layer 2's projection) as one whole-array function.

  The region walks the 100000 node rows in 25 blocks of 4000. At point t the input windows hold rows 4000 t ... 4000 t + 3999
  of the first layer's output and of the per-node factor column, and the whole weight matrix; the body stores, into rows
  4000 t ... of the output, (x · w)[p, q] · d[p]. Row n of the array is written by point n / 4000 and by no other, and
  what is written there depends only on row n of the inputs: so the array the region leaves is
      proj x w d (n, f) = (Σ over k of x[n, k] · w[k, f]) · d[n, 0]
  of the arrays the region found, whatever those are.
-/
import proofs.«118010_j66305705116452_2_alg».proof.Proof.KernelIdealFrameP
import proofs.«118010_j66305705116452_2_alg».proof.Proof.Payloads
import proofs.«118010_j66305705116452_2_alg».proof.Proof.Arrays0
import Idealize.ShloMosaic.Lib.Pipeline.Value

set_option maxRecDepth 16384

noncomputable section

open scoped BigOperators

namespace Cert.KernelIdeal.Arrays

open Cert.KernelIdeal Cert.KernelIdeal.Gen Cert.KernelIdeal.GenP
open Idealize.ShloMosaic Idealize.ShloMosaic.TcCoe Idealize.SL.Sem Idealize.ShloMosaic.ValueIdx

variable (V : (c : Dev nD) → (b : Ref sig .tc) → Buf (Elt Ideal) ((c : Thread nD τ).loc b))

/-- The printed index maps over the grid: the row windows sit at block row t, the weight window at the origin. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- What point t writes back is block t of proj of the arrays the region found. -/
theorem flushed2 (c : Dev nD) (t : Fin cfg2.N) :
    (dat2 V c).flushed 3 t
      = ((cfg2.win 3).blk t).view.read (Elt Ideal) (proj (V c main_v24) (V c main_arg6) (V c main_v11)) := by
  show (cfg2.win 3).cut (grid2.coords t) ((dat2 V c).after 3 t) = _
  rw [after2_3]
  unfold out2_3
  rw [View.canon_unit_zero hz]
  simp only [View.ld_unit_zero (S := S4000x128) hz, View.ld_unit_zero (S := S128x128) hz, View.ld_unit_zero (S := S4000x1) hz]
  obtain ⟨e00, e01, e10, e11, e20, e21, e30, e31⟩ := idx_facts2 t
  funext j
  obtain ⟨p, q, rfl⟩ : ∃ (p : Fin 4000) (q : Fin 128), j = ix2 p q := ⟨j 0, j 1, eq_ix2 j⟩
  refine (Payload.pay2_apply (iblk2 V c 0 t) (iblk2 V c 1 t) (iblk2 V c 2 t) p q).trans ?_
  have ht : t.val < 25 := by have h := t.isLt; have hN : grid2.N = 25 := N_2; exact hN ▸ h
  have hr : t.val * 4000 + p.val < 100000 := by have := p.isLt; omega
  have h3 : ((cfg2.win 3).blk t).view.emb (ix2 p q) = ix2 (⟨t.val * 4000 + p.val, hr⟩ : Fin 100000) q := by
    funext a; apply Fin.ext
    match a with
    | ⟨0, _⟩ => show win2_3.index t (0 : Fin 2) * 4000 + 1 * p.val = t.val * 4000 + p.val; omega
    | ⟨1, _⟩ => show win2_3.index t (1 : Fin 2) * 128 + 1 * q.val = q.val; omega
  have h0 : ∀ k : Fin 128, ((cfg2.win 0).blk t).view.emb (ix2 p k) = ix2 (⟨t.val * 4000 + p.val, hr⟩ : Fin 100000) k := fun k => by
    funext a; apply Fin.ext
    match a with
    | ⟨0, _⟩ => show win2_0.index t (0 : Fin 2) * 4000 + 1 * p.val = t.val * 4000 + p.val; omega
    | ⟨1, _⟩ => show win2_0.index t (1 : Fin 2) * 128 + 1 * k.val = k.val; omega
  have h1 : ∀ k : Fin 128, ((cfg2.win 1).blk t).view.emb (ix2 k q) = ix2 k q := fun k => by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have h2 : ((cfg2.win 2).blk t).view.emb (ix2 p (0 : Fin 1)) = ix2 (⟨t.val * 4000 + p.val, hr⟩ : Fin 100000) (0 : Fin 1) := by
    funext a; apply Fin.ext
    match a with
    | ⟨0, _⟩ => show win2_2.index t (0 : Fin 2) * 4000 + 1 * p.val = t.val * 4000 + p.val; omega
    | ⟨1, _⟩ => show win2_2.index t (1 : Fin 2) * 1 + 1 * 0 = 0; omega
  have hX : ∀ k : Fin 128, iblk2 V c 0 t (ix2 p k) = V c main_v24 (ix2 (⟨t.val * 4000 + p.val, hr⟩ : Fin 100000) k) := fun k => by
    show V c main_v24 (((cfg2.win 0).blk t).view.emb (ix2 p k)) = _
    exact congrArg (V c main_v24) (h0 k)
  have hW : ∀ k : Fin 128, iblk2 V c 1 t (ix2 k q) = V c main_arg6 (ix2 k q) := fun k => by
    show V c main_arg6 (((cfg2.win 1).blk t).view.emb (ix2 k q)) = _
    exact congrArg (V c main_arg6) (h1 k)
  have hD : iblk2 V c 2 t (ix2 p (0 : Fin 1)) = V c main_v11 (ix2 (⟨t.val * 4000 + p.val, hr⟩ : Fin 100000) (0 : Fin 1)) := by
    show V c main_v11 (((cfg2.win 2).blk t).view.emb (ix2 p (0 : Fin 1))) = _
    exact congrArg (V c main_v11) h2
  have hO : View.read (Elt Ideal) ((View.whole main_v25).slice ((win2 3).rect t))
        (proj (V c main_v24) (V c main_arg6) (V c main_v11)) (ix2 p q)
      = proj (V c main_v24) (V c main_arg6) (V c main_v11) (ix2 (⟨t.val * 4000 + p.val, hr⟩ : Fin 100000) q) := by
    show proj (V c main_v24) (V c main_arg6) (V c main_v11) (((cfg2.win 3).blk t).view.emb (ix2 p q)) = _
    rw [h3]
  rw [hO]
  unfold proj
  exact congrArg₂ (· * ·) (Finset.sum_congr rfl fun k _ => congrArg₂ (· * ·) (hX k) (hW k)) hD

/-- Row n is in the block of point n / 4000. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  have hN : grid2.N = 25 := N_2
  obtain ⟨t0, ht0⟩ : ∃ t0 : Fin cfg2.N, t0.val = (i 0).val / 4000 :=
    ⟨⟨(i 0).val / 4000, by show _ < grid2.N; omega⟩, rfl⟩
  obtain ⟨e00, e01, e10, e11, e20, e21, e30, e31⟩ := idx_facts2 t0
  refine ⟨t0, flush2_3 t0, ?_⟩
  show i ∈ ((View.whole main_v25).slice (win2_3.rect t0)).set
  rw [View.set_slice_whole, Rect.mem_set_unit]
  intro a
  match a with
  | ⟨0, _⟩ =>
    show win2_3.index t0 (0 : Fin 2) * 4000 ≤ (i 0).val ∧ (i 0).val < win2_3.index t0 (0 : Fin 2) * 4000 + 4000
    omega
  | ⟨1, _⟩ =>
    show win2_3.index t0 (1 : Fin 2) * 128 ≤ (i 1).val ∧ (i 1).val < win2_3.index t0 (1 : Fin 2) * 128 + 128
    omega

/-- THE ARRAY region 2 leaves: proj of the arrays it found. -/
theorem final2 (c : Dev nD) :
    (dat2 V c).arrAt 3 cfg2.N = proj (V c main_v24) (V c main_arg6) (V c main_v11) :=
  (dat2 V c).arrAt_eq_of_cover 3 (proj (V c main_v24) (V c main_arg6) (V c main_v11)) (fun t _ => flushed2 V c t) cover2

end Cert.KernelIdeal.Arrays

end
-- ==== Proof.Arrays3.lean ====
/-
  The second combine region as one function of whole arrays.

  The 100000 node rows are cut into 25 blocks of 4000 consecutive rows, one per grid point. At point t the region
  holds block t of the summed neighbour rows s, of the scaled projection hs and of the factor column d, and the one
  bias row b, and it writes block t of the output: at local row p and column q,
      d[p] * (s[p, q] + hs[p, q]) + b[q]        (no floor in the second layer).
  Local row p of block t is global row 4000 t + p, so the entry written at (n, q) is read from row n of s, hs, d
  and from entry q of b, and from nothing else. Every row n lies in exactly the block of point n / 4000. Hence the
  array left behind is, entry by entry, that combination of the arrays found, whatever they hold.
-/
import proofs.«118010_j66305705116452_2_alg».proof.Proof.KernelIdealFrameP
import proofs.«118010_j66305705116452_2_alg».proof.Proof.Payloads
import Idealize.ShloMosaic.Lib.Pipeline.Value

set_option maxRecDepth 16384

noncomputable section

open scoped BigOperators

namespace Cert.KernelIdeal.Arrays

open Cert.KernelIdeal Cert.KernelIdeal.Gen Cert.KernelIdeal.GenP
open Idealize.ShloMosaic Idealize.ShloMosaic.TcCoe Idealize.SL.Sem Idealize.ShloMosaic.ValueIdx

/-- A rectangle that is a whole block starts at the origin. -/
theorem hz3 : (![0, 0] : Fin 2 → Nat) = fun _ => 0 := funext fun a => by fin_cases a <;> rfl

/-- Rows scaled at their own node after adding the node's own scaled projection, plus the bias. -/
def comb (s hs : S100000x128.Idx → EReal) (d : S100000x1.Idx → EReal) (b : S1x128.Idx → EReal) : S100000x128.Idx → EReal :=
  fun i => d (ix2 (i 0) (0 : Fin 1)) * (s (ix2 (i 0) (i 1)) + hs (ix2 (i 0) (i 1))) + b (ix2 (0 : Fin 1) (i 1))

variable (V : (c : Dev nD) → (b : Ref sig .tc) → Buf (Elt Ideal) ((c : Thread nD τ).loc b))

/-- Where each window sits at grid point t: the three row windows and the output at block row t, the bias row
    at the origin. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point t writes back is block t of comb of the arrays the region found: entry (p, q) of the block is
    computed from entry (p, q) of the two row blocks, entry p of the factor column's block and entry q of the bias
    row, and these are the arrays' entries at row 4000 t + p. -/
theorem flushed3 (c : Dev nD) (t : Fin cfg3.N) :
    (dat3 V c).flushed 4 t
      = ((cfg3.win 4).blk t).view.read (Elt Ideal) (comb (V c main_v35) (V c main_v25) (V c main_v11) (V c main_v36)) := by
  show (cfg3.win 4).cut (grid3.coords t) ((dat3 V c).after 4 t) = _
  rw [after3_4]
  unfold out3_4
  rw [View.canon_unit_zero hz3]
  simp only [View.ld_unit_zero (S := S4000x128) hz3, View.ld_unit_zero (S := S4000x1) hz3, View.ld_unit_zero (S := S1x128) hz3]
  obtain ⟨e00, e01, e10, e11, e20, e21, e30, e31, e40, e41⟩ := idx_facts3 t
  funext j
  obtain ⟨p, q, rfl⟩ : ∃ (p : Fin 4000) (q : Fin 128), j = ix2 p q := ⟨j 0, j 1, eq_ix2 j⟩
  refine (Payload.pay3_apply (iblk3 V c 2 t) (iblk3 V c 0 t) (iblk3 V c 1 t) (iblk3 V c 3 t) p q).trans ?_
  have ht : t.val < 25 := by have h := t.isLt; have hN : grid3.N = 25 := N_3; exact hN ▸ h
  have hr : t.val * 4000 + p.val < 100000 := by have := p.isLt; omega
  have h4 : ((cfg3.win 4).blk t).view.emb (ix2 p q) = ix2 (⟨t.val * 4000 + p.val, hr⟩ : Fin 100000) q := by
    funext a; apply Fin.ext
    match a with
    | ⟨0, _⟩ => show win3_4.index t (0 : Fin 2) * 4000 + 1 * p.val = t.val * 4000 + p.val; omega
    | ⟨1, _⟩ => show win3_4.index t (1 : Fin 2) * 128 + 1 * q.val = q.val; omega
  have h0 : ((cfg3.win 0).blk t).view.emb (ix2 p q) = ix2 (⟨t.val * 4000 + p.val, hr⟩ : Fin 100000) q := by
    funext a; apply Fin.ext
    match a with
    | ⟨0, _⟩ => show win3_0.index t (0 : Fin 2) * 4000 + 1 * p.val = t.val * 4000 + p.val; omega
    | ⟨1, _⟩ => show win3_0.index t (1 : Fin 2) * 128 + 1 * q.val = q.val; omega
  have h1 : ((cfg3.win 1).blk t).view.emb (ix2 p q) = ix2 (⟨t.val * 4000 + p.val, hr⟩ : Fin 100000) q := by
    funext a; apply Fin.ext
    match a with
    | ⟨0, _⟩ => show win3_1.index t (0 : Fin 2) * 4000 + 1 * p.val = t.val * 4000 + p.val; omega
    | ⟨1, _⟩ => show win3_1.index t (1 : Fin 2) * 128 + 1 * q.val = q.val; omega
  have h2 : ((cfg3.win 2).blk t).view.emb (ix2 p (0 : Fin 1)) = ix2 (⟨t.val * 4000 + p.val, hr⟩ : Fin 100000) (0 : Fin 1) := by
    funext a; apply Fin.ext
    match a with
    | ⟨0, _⟩ => show win3_2.index t (0 : Fin 2) * 4000 + 1 * p.val = t.val * 4000 + p.val; omega
    | ⟨1, _⟩ => show win3_2.index t (1 : Fin 2) * 1 + 1 * 0 = 0; omega
  have h3 : ((cfg3.win 3).blk t).view.emb (ix2 (0 : Fin 1) q) = ix2 (0 : Fin 1) q := by
    funext a; apply Fin.ext
    match a with
    | ⟨0, _⟩ => show win3_3.index t (0 : Fin 2) * 1 + 1 * 0 = 0; omega
    | ⟨1, _⟩ => show win3_3.index t (1 : Fin 2) * 128 + 1 * q.val = q.val; omega
  have hS : iblk3 V c 0 t (ix2 p q) = V c main_v35 (ix2 (⟨t.val * 4000 + p.val, hr⟩ : Fin 100000) q) := by
    show V c main_v35 (((cfg3.win 0).blk t).view.emb (ix2 p q)) = _
    exact congrArg (V c main_v35) h0
  have hHS : iblk3 V c 1 t (ix2 p q) = V c main_v25 (ix2 (⟨t.val * 4000 + p.val, hr⟩ : Fin 100000) q) := by
    show V c main_v25 (((cfg3.win 1).blk t).view.emb (ix2 p q)) = _
    exact congrArg (V c main_v25) h1
  have hD : iblk3 V c 2 t (ix2 p (0 : Fin 1)) = V c main_v11 (ix2 (⟨t.val * 4000 + p.val, hr⟩ : Fin 100000) (0 : Fin 1)) := by
    show V c main_v11 (((cfg3.win 2).blk t).view.emb (ix2 p (0 : Fin 1))) = _
    exact congrArg (V c main_v11) h2
  have hB : iblk3 V c 3 t (ix2 (0 : Fin 1) q) = V c main_v36 (ix2 (0 : Fin 1) q) := by
    show V c main_v36 (((cfg3.win 3).blk t).view.emb (ix2 (0 : Fin 1) q)) = _
    exact congrArg (V c main_v36) h3
  have hO : ((cfg3.win 4).blk t).view.read (Elt Ideal) (comb (V c main_v35) (V c main_v25) (V c main_v11) (V c main_v36)) (ix2 p q)
      = comb (V c main_v35) (V c main_v25) (V c main_v11) (V c main_v36) (ix2 (⟨t.val * 4000 + p.val, hr⟩ : Fin 100000) q) := by
    show comb (V c main_v35) (V c main_v25) (V c main_v11) (V c main_v36) (((cfg3.win 4).blk t).view.emb (ix2 p q)) = _
    rw [h4]
  refine Eq.trans ?_ hO.symm
  unfold comb
  exact (congrArg₂ (fun u v : EReal => u + v) (congrArg₂ (fun u v : EReal => u * v) hD (congrArg₂ (fun u v : EReal => u + v) hS hHS)) hB)

/-- Row n lies in the block of point n / 4000, which is written back. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  have hN : grid3.N = 25 := N_3
  obtain ⟨t0, ht0⟩ : ∃ t0 : Fin cfg3.N, t0.val = (i 0).val / 4000 :=
    ⟨⟨(i 0).val / 4000, by show _ < grid3.N; omega⟩, rfl⟩
  obtain ⟨e00, e01, e10, e11, e20, e21, e30, e31, e40, e41⟩ := idx_facts3 t0
  refine ⟨t0, flush3_4 t0, ?_⟩
  show i ∈ ((View.whole main_v37).slice (win3_4.rect t0)).set
  rw [View.set_slice_whole, Rect.mem_set_unit]
  intro a
  match a with
  | ⟨0, _⟩ =>
    show win3_4.index t0 (0 : Fin 2) * 4000 ≤ (i 0).val ∧ (i 0).val < win3_4.index t0 (0 : Fin 2) * 4000 + 4000
    omega
  | ⟨1, _⟩ =>
    show win3_4.index t0 (1 : Fin 2) * 128 ≤ (i 1).val ∧ (i 1).val < win3_4.index t0 (1 : Fin 2) * 128 + 128
    omega

/-- THE ARRAY region 3 leaves: comb of the arrays it found. -/
theorem final3 (c : Dev nD) :
    (dat3 V c).arrAt 4 cfg3.N = comb (V c main_v35) (V c main_v25) (V c main_v11) (V c main_v36) :=
  (dat3 V c).arrAt_eq_of_cover 4 (comb (V c main_v35) (V c main_v25) (V c main_v11) (V c main_v36)) (fun t _ => flushed3 V c t) cover3

end Cert.KernelIdeal.Arrays

end
-- ==== Proof.Arrays4.lean ====
/-
  The scoring region as one function of whole arrays.

  The 500000 pairs are cut into 125 blocks of 4000 consecutive pairs, one per grid point. At point t the region
  holds block t of the two arrays of gathered rows hi and hj (one row of width 128 per pair) and, whole, the two
  weight columns wa, wb and the one bias entry bl, and it writes block t of the output column: at local pair p,
      logistic (sum over k of hi[p, k] * wa[k]  +  sum over k of hj[p, k] * wb[k]  +  bl).
  Local pair p of block t is global pair 4000 t + p, so the entry written for pair n is read from row n of hi and
  of hj and from the weights and the bias, and from nothing else. Every pair n lies in exactly the block of point
  n / 4000. Hence the column left behind is, entry by entry, that score of the arrays found, whatever they hold.
-/
import proofs.«118010_j66305705116452_2_alg».proof.Proof.KernelIdealFrameP
import proofs.«118010_j66305705116452_2_alg».proof.Proof.Payloads
import Idealize.ShloMosaic.Lib.Pipeline.Value

set_option maxRecDepth 16384

noncomputable section

open scoped BigOperators

namespace Cert.KernelIdeal.Arrays

open Cert.KernelIdeal Cert.KernelIdeal.Gen Cert.KernelIdeal.GenP
open Idealize.ShloMosaic Idealize.ShloMosaic.TcCoe Idealize.SL.Sem Idealize.ShloMosaic.ValueIdx

/-- A rectangle that is a whole block starts at the origin. -/
theorem hz4 : (![0, 0] : Fin 2 → Nat) = fun _ => 0 := funext fun a => by fin_cases a <;> rfl

/-- The score of every pair from its two gathered rows. -/
def scoreArr (hi hj : S500000x128.Idx → EReal) (wa wb : S128x1.Idx → EReal) (bl : S1x1.Idx → EReal) : S500000x1.Idx → EReal :=
  fun i => Ideal.logistic ((∑ k : Fin 128, hi (ix2 (i 0) k) * wa (ix2 k (0 : Fin 1))) + (∑ k : Fin 128, hj (ix2 (i 0) k) * wb (ix2 k (0 : Fin 1))) + bl (ix2 (0 : Fin 1) (0 : Fin 1)))

variable (V : (c : Dev nD) → (b : Ref sig .tc) → Buf (Elt Ideal) ((c : Thread nD τ).loc b))

/-- Where each window sits at grid point t: the two row windows and the output at block row t, the weights and
    the bias at the origin. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of scoreArr of the arrays the region found: the entry of local pair p is
    computed from row p of the two row blocks, which are the arrays' rows 4000 t + p, and from the whole weights
    and bias. -/
theorem flushed4 (c : Dev nD) (t : Fin cfg4.N) :
    (dat4 V c).flushed 5 t
      = ((cfg4.win 5).blk t).view.read (Elt Ideal) (scoreArr (V c main_v44) (V c main_v51) (V c main_v52) (V c main_v53) (V c main_v54)) := by
  show (cfg4.win 5).cut (grid4.coords t) ((dat4 V c).after 5 t) = _
  rw [after4_5]
  unfold out4_5
  rw [View.canon_unit_zero hz4]
  simp only [View.ld_unit_zero (S := S4000x128) hz4, View.ld_unit_zero (S := S128x1) hz4, View.ld_unit_zero (S := S1x1) hz4]
  obtain ⟨e00, e01, e10, e11, e20, e21, e30, e31, e40, e41, e50, e51⟩ := idx_facts4 t
  funext j
  obtain ⟨p, u, rfl⟩ : ∃ (p : Fin 4000) (u : Fin 1), j = ix2 p u := ⟨j 0, j 1, eq_ix2 j⟩
  obtain rfl : u = 0 := Subsingleton.elim _ _
  refine (Payload.pay4_apply (iblk4 V c 0 t) (iblk4 V c 1 t) (iblk4 V c 2 t) (iblk4 V c 3 t) (iblk4 V c 4 t) p (0 : Fin 1)).trans ?_
  have ht : t.val < 125 := by have h := t.isLt; have hN : grid4.N = 125 := N_4; exact hN ▸ h
  have hr : t.val * 4000 + p.val < 500000 := by have := p.isLt; omega
  have h5 : ((cfg4.win 5).blk t).view.emb (ix2 p (0 : Fin 1)) = ix2 (⟨t.val * 4000 + p.val, hr⟩ : Fin 500000) (0 : Fin 1) := by
    funext a; apply Fin.ext
    match a with
    | ⟨0, _⟩ => show win4_5.index t (0 : Fin 2) * 4000 + 1 * p.val = t.val * 4000 + p.val; omega
    | ⟨1, _⟩ => show win4_5.index t (1 : Fin 2) * 1 + 1 * 0 = 0; omega
  have h0 : ∀ k : Fin 128, ((cfg4.win 0).blk t).view.emb (ix2 p k) = ix2 (⟨t.val * 4000 + p.val, hr⟩ : Fin 500000) k := fun k => by
    funext a; apply Fin.ext
    match a with
    | ⟨0, _⟩ => show win4_0.index t (0 : Fin 2) * 4000 + 1 * p.val = t.val * 4000 + p.val; omega
    | ⟨1, _⟩ => show win4_0.index t (1 : Fin 2) * 128 + 1 * k.val = k.val; omega
  have h1 : ∀ k : Fin 128, ((cfg4.win 1).blk t).view.emb (ix2 p k) = ix2 (⟨t.val * 4000 + p.val, hr⟩ : Fin 500000) k := fun k => by
    funext a; apply Fin.ext
    match a with
    | ⟨0, _⟩ => show win4_1.index t (0 : Fin 2) * 4000 + 1 * p.val = t.val * 4000 + p.val; omega
    | ⟨1, _⟩ => show win4_1.index t (1 : Fin 2) * 128 + 1 * k.val = k.val; omega
  have h2 : ∀ k : Fin 128, ((cfg4.win 2).blk t).view.emb (ix2 k (0 : Fin 1)) = ix2 k (0 : Fin 1) := fun k => by
    funext a; apply Fin.ext
    match a with
    | ⟨0, _⟩ => show win4_2.index t (0 : Fin 2) * 128 + 1 * k.val = k.val; omega
    | ⟨1, _⟩ => show win4_2.index t (1 : Fin 2) * 1 + 1 * 0 = 0; omega
  have h3 : ∀ k : Fin 128, ((cfg4.win 3).blk t).view.emb (ix2 k (0 : Fin 1)) = ix2 k (0 : Fin 1) := fun k => by
    funext a; apply Fin.ext
    match a with
    | ⟨0, _⟩ => show win4_3.index t (0 : Fin 2) * 128 + 1 * k.val = k.val; omega
    | ⟨1, _⟩ => show win4_3.index t (1 : Fin 2) * 1 + 1 * 0 = 0; omega
  have h4 : ((cfg4.win 4).blk t).view.emb (ix2 (0 : Fin 1) (0 : Fin 1)) = ix2 (0 : Fin 1) (0 : Fin 1) := by
    funext a; apply Fin.ext
    match a with
    | ⟨0, _⟩ => show win4_4.index t (0 : Fin 2) * 1 + 1 * 0 = 0; omega
    | ⟨1, _⟩ => show win4_4.index t (1 : Fin 2) * 1 + 1 * 0 = 0; omega
  have hHi : ∀ k : Fin 128, iblk4 V c 0 t (ix2 p k) = V c main_v44 (ix2 (⟨t.val * 4000 + p.val, hr⟩ : Fin 500000) k) := fun k => by
    show V c main_v44 (((cfg4.win 0).blk t).view.emb (ix2 p k)) = _
    exact congrArg (V c main_v44) (h0 k)
  have hHj : ∀ k : Fin 128, iblk4 V c 1 t (ix2 p k) = V c main_v51 (ix2 (⟨t.val * 4000 + p.val, hr⟩ : Fin 500000) k) := fun k => by
    show V c main_v51 (((cfg4.win 1).blk t).view.emb (ix2 p k)) = _
    exact congrArg (V c main_v51) (h1 k)
  have hWa : ∀ k : Fin 128, iblk4 V c 2 t (ix2 k (0 : Fin 1)) = V c main_v52 (ix2 k (0 : Fin 1)) := fun k => by
    show V c main_v52 (((cfg4.win 2).blk t).view.emb (ix2 k (0 : Fin 1))) = _
    exact congrArg (V c main_v52) (h2 k)
  have hWb : ∀ k : Fin 128, iblk4 V c 3 t (ix2 k (0 : Fin 1)) = V c main_v53 (ix2 k (0 : Fin 1)) := fun k => by
    show V c main_v53 (((cfg4.win 3).blk t).view.emb (ix2 k (0 : Fin 1))) = _
    exact congrArg (V c main_v53) (h3 k)
  have hBl : iblk4 V c 4 t (ix2 (0 : Fin 1) (0 : Fin 1)) = V c main_v54 (ix2 (0 : Fin 1) (0 : Fin 1)) := by
    show V c main_v54 (((cfg4.win 4).blk t).view.emb (ix2 (0 : Fin 1) (0 : Fin 1))) = _
    exact congrArg (V c main_v54) h4
  have hO : ((cfg4.win 5).blk t).view.read (Elt Ideal) (scoreArr (V c main_v44) (V c main_v51) (V c main_v52) (V c main_v53) (V c main_v54)) (ix2 p (0 : Fin 1))
      = scoreArr (V c main_v44) (V c main_v51) (V c main_v52) (V c main_v53) (V c main_v54) (ix2 (⟨t.val * 4000 + p.val, hr⟩ : Fin 500000) (0 : Fin 1)) := by
    show scoreArr (V c main_v44) (V c main_v51) (V c main_v52) (V c main_v53) (V c main_v54) (((cfg4.win 5).blk t).view.emb (ix2 p (0 : Fin 1))) = _
    rw [h5]
  refine Eq.trans ?_ hO.symm
  unfold scoreArr
  exact congrArg Ideal.logistic (congrArg₂ (fun u v : EReal => u + v)
    (congrArg₂ (fun u v : EReal => u + v)
      (Finset.sum_congr rfl fun k _ => congrArg₂ (fun u v : EReal => u * v) (hHi k) (hWa k))
      (Finset.sum_congr rfl fun k _ => congrArg₂ (fun u v : EReal => u * v) (hHj k) (hWb k))) hBl)

/-- Pair n lies in the block of point n / 4000, which is written back. -/
theorem cover4 (i : S500000x1.Idx) : ∃ t : Fin cfg4.N, (cfg4.win 5).flush t = true ∧ i ∈ ((cfg4.win 5).blk t).view.set := by
  have hi0 : (i 0).val < 500000 := (i 0).isLt
  have hi1 : (i 1).val < 1 := (i 1).isLt
  have hN : grid4.N = 125 := N_4
  obtain ⟨t0, ht0⟩ : ∃ t0 : Fin cfg4.N, t0.val = (i 0).val / 4000 :=
    ⟨⟨(i 0).val / 4000, by show _ < grid4.N; omega⟩, rfl⟩
  obtain ⟨e00, e01, e10, e11, e20, e21, e30, e31, e40, e41, e50, e51⟩ := idx_facts4 t0
  refine ⟨t0, flush4_5 t0, ?_⟩
  show i ∈ ((View.whole main_v55).slice (win4_5.rect t0)).set
  rw [View.set_slice_whole, Rect.mem_set_unit]
  intro a
  match a with
  | ⟨0, _⟩ =>
    show win4_5.index t0 (0 : Fin 2) * 4000 ≤ (i 0).val ∧ (i 0).val < win4_5.index t0 (0 : Fin 2) * 4000 + 4000
    omega
  | ⟨1, _⟩ =>
    show win4_5.index t0 (1 : Fin 2) * 1 ≤ (i 1).val ∧ (i 1).val < win4_5.index t0 (1 : Fin 2) * 1 + 1
    omega

/-- THE ARRAY region 4 leaves: scoreArr of the arrays it found. -/
theorem final4 (c : Dev nD) :
    (dat4 V c).arrAt 5 cfg4.N = scoreArr (V c main_v44) (V c main_v51) (V c main_v52) (V c main_v53) (V c main_v54) :=
  (dat4 V c).arrAt_eq_of_cover 5 (scoreArr (V c main_v44) (V c main_v51) (V c main_v52) (V c main_v53) (V c main_v54)) (fun t _ => flushed4 V c t) cover4

end Cert.KernelIdeal.Arrays

end
-- ==== Proof.KernelFold.lean ====
/-
  The contents of the kernel's buffers at the boundaries between its host stretches and its regions.

  W0 is the launch memory; W1, W3, W6, W8 are what a stretch of host operations leaves; W2, W4, W5, W7, W9 what a region
  leaves. Here, buffer by buffer, what the run needs of them:
    - a region's output array is the region's whole-array function of the arrays it found (the five region modules);
    - an array a region only reads through an input window, and a buffer it does not touch, end as they were;
    - a buffer a host stretch writes is its operation applied to the operands' contents, and a buffer it does not
      write is as it was.
  Nothing here is arithmetic: these are equalities of whole buffers, read off the fold.
-/
import proofs.«118010_j66305705116452_2_alg».proof.Proof.KernelIdealFrameP
import proofs.«118010_j66305705116452_2_alg».proof.Proof.KernelStages
import proofs.«118010_j66305705116452_2_alg».proof.Proof.Arrays0
import proofs.«118010_j66305705116452_2_alg».proof.Proof.Arrays1
import proofs.«118010_j66305705116452_2_alg».proof.Proof.Arrays2
import proofs.«118010_j66305705116452_2_alg».proof.Proof.Arrays3
import proofs.«118010_j66305705116452_2_alg».proof.Proof.Arrays4
import Idealize.ShloMosaic.Lib.StableHlo.Run

set_option maxRecDepth 16384

noncomputable section

namespace Cert.KernelIdeal.Fold

open Cert.KernelIdeal Cert.KernelIdeal.Gen Cert.KernelIdeal.GenP
open Idealize.ShloMosaic Idealize.ShloMosaic.TcCoe Idealize.SL.Sem Idealize.ShloMosaic.ValueIdx Idealize.ShloMosaic.StableHlo
open Cert.ReferenceIdeal.RefValue (wrapCol)

variable (m : (ℓ : Loc nD τ sig) → Buf (Elt Ideal) ℓ) (ρ : Dev nD → PrngReg) (c : Dev nD)

/-! ## Buffers that pass a boundary unchanged -/

theorem keep1_arg0 : W1 m ρ c (Proc.devRef .tc main_arg0) = m ((c.tc : Thread nD τ).loc main_arg0) := by
  show StableHlo.after hostOps0 (W0 m ρ c) (Proc.devRef .tc main_arg0) = _
  after_results <;> rfl

theorem keep1_arg1 : W1 m ρ c (Proc.devRef .tc main_arg1) = m ((c.tc : Thread nD τ).loc main_arg1) := by
  show StableHlo.after hostOps0 (W0 m ρ c) (Proc.devRef .tc main_arg1) = _
  after_results <;> rfl

theorem keep1_arg4 : W1 m ρ c (Proc.devRef .tc main_arg4) = m ((c.tc : Thread nD τ).loc main_arg4) := by
  show StableHlo.after hostOps0 (W0 m ρ c) (Proc.devRef .tc main_arg4) = _
  after_results <;> rfl

theorem keep1_arg5 : W1 m ρ c (Proc.devRef .tc main_arg5) = m ((c.tc : Thread nD τ).loc main_arg5) := by
  show StableHlo.after hostOps0 (W0 m ρ c) (Proc.devRef .tc main_arg5) = _
  after_results <;> rfl

theorem keep1_arg6 : W1 m ρ c (Proc.devRef .tc main_arg6) = m ((c.tc : Thread nD τ).loc main_arg6) := by
  show StableHlo.after hostOps0 (W0 m ρ c) (Proc.devRef .tc main_arg6) = _
  after_results <;> rfl

theorem keep1_arg7 : W1 m ρ c (Proc.devRef .tc main_arg7) = m ((c.tc : Thread nD τ).loc main_arg7) := by
  show StableHlo.after hostOps0 (W0 m ρ c) (Proc.devRef .tc main_arg7) = _
  after_results <;> rfl

theorem keep2_v11 : W2 m ρ c (Proc.devRef .tc main_v11) = W1 m ρ c (Proc.devRef .tc main_v11) :=
  (W2_arr m ρ c 2).trans (((dat0 (V1 m ρ) c).arrAt_in 2 rfl _).trans (A_eq0 (V1 m ρ) c 2))

theorem keep2_v1 : W2 m ρ c (Proc.devRef .tc main_v1) = W1 m ρ c (Proc.devRef .tc main_v1) :=
  W2_of_ne m ρ c main_v1 (by decide)

theorem keep2_v3 : W2 m ρ c (Proc.devRef .tc main_v3) = W1 m ρ c (Proc.devRef .tc main_v3) :=
  W2_of_ne m ρ c main_v3 (by decide)

theorem keep2_arg5 : W2 m ρ c (Proc.devRef .tc main_arg5) = W1 m ρ c (Proc.devRef .tc main_arg5) :=
  W2_of_ne m ρ c main_arg5 (by decide)

theorem keep2_arg6 : W2 m ρ c (Proc.devRef .tc main_arg6) = W1 m ρ c (Proc.devRef .tc main_arg6) :=
  W2_of_ne m ρ c main_arg6 (by decide)

theorem keep2_arg7 : W2 m ρ c (Proc.devRef .tc main_arg7) = W1 m ρ c (Proc.devRef .tc main_arg7) :=
  W2_of_ne m ρ c main_arg7 (by decide)

theorem keep3_v12 : W3 m ρ c (Proc.devRef .tc main_v12) = W2 m ρ c (Proc.devRef .tc main_v12) := by
  show StableHlo.after hostOps1 (W2 m ρ c) (Proc.devRef .tc main_v12) = _
  after_results <;> rfl

theorem keep3_v11 : W3 m ρ c (Proc.devRef .tc main_v11) = W2 m ρ c (Proc.devRef .tc main_v11) := by
  show StableHlo.after hostOps1 (W2 m ρ c) (Proc.devRef .tc main_v11) = _
  after_results <;> rfl

theorem keep3_v1 : W3 m ρ c (Proc.devRef .tc main_v1) = W2 m ρ c (Proc.devRef .tc main_v1) := by
  show StableHlo.after hostOps1 (W2 m ρ c) (Proc.devRef .tc main_v1) = _
  after_results <;> rfl

theorem keep3_v3 : W3 m ρ c (Proc.devRef .tc main_v3) = W2 m ρ c (Proc.devRef .tc main_v3) := by
  show StableHlo.after hostOps1 (W2 m ρ c) (Proc.devRef .tc main_v3) = _
  after_results <;> rfl

theorem keep3_arg6 : W3 m ρ c (Proc.devRef .tc main_arg6) = W2 m ρ c (Proc.devRef .tc main_arg6) := by
  show StableHlo.after hostOps1 (W2 m ρ c) (Proc.devRef .tc main_arg6) = _
  after_results <;> rfl

theorem keep3_arg7 : W3 m ρ c (Proc.devRef .tc main_arg7) = W2 m ρ c (Proc.devRef .tc main_arg7) := by
  show StableHlo.after hostOps1 (W2 m ρ c) (Proc.devRef .tc main_arg7) = _
  after_results <;> rfl

theorem keep4_v11 : W4 m ρ c (Proc.devRef .tc main_v11) = W3 m ρ c (Proc.devRef .tc main_v11) :=
  (W4_arr m ρ c 2).trans (((dat1 (V3 m ρ) c).arrAt_in 2 rfl _).trans (A_eq1 (V3 m ρ) c 2))

theorem keep4_v1 : W4 m ρ c (Proc.devRef .tc main_v1) = W3 m ρ c (Proc.devRef .tc main_v1) :=
  W4_of_ne m ρ c main_v1 (by decide)

theorem keep4_v3 : W4 m ρ c (Proc.devRef .tc main_v3) = W3 m ρ c (Proc.devRef .tc main_v3) :=
  W4_of_ne m ρ c main_v3 (by decide)

theorem keep4_arg6 : W4 m ρ c (Proc.devRef .tc main_arg6) = W3 m ρ c (Proc.devRef .tc main_arg6) :=
  W4_of_ne m ρ c main_arg6 (by decide)

theorem keep4_arg7 : W4 m ρ c (Proc.devRef .tc main_arg7) = W3 m ρ c (Proc.devRef .tc main_arg7) :=
  W4_of_ne m ρ c main_arg7 (by decide)

theorem keep5_v11 : W5 m ρ c (Proc.devRef .tc main_v11) = W4 m ρ c (Proc.devRef .tc main_v11) :=
  (W5_arr m ρ c 2).trans (((dat2 (V4 m ρ) c).arrAt_in 2 rfl _).trans (A_eq2 (V4 m ρ) c 2))

theorem keep5_v1 : W5 m ρ c (Proc.devRef .tc main_v1) = W4 m ρ c (Proc.devRef .tc main_v1) :=
  W5_of_ne m ρ c main_v1 (by decide)

theorem keep5_v3 : W5 m ρ c (Proc.devRef .tc main_v3) = W4 m ρ c (Proc.devRef .tc main_v3) :=
  W5_of_ne m ρ c main_v3 (by decide)

theorem keep5_arg7 : W5 m ρ c (Proc.devRef .tc main_arg7) = W4 m ρ c (Proc.devRef .tc main_arg7) :=
  W5_of_ne m ρ c main_arg7 (by decide)

theorem keep6_v25 : W6 m ρ c (Proc.devRef .tc main_v25) = W5 m ρ c (Proc.devRef .tc main_v25) := by
  show StableHlo.after hostOps3 (W5 m ρ c) (Proc.devRef .tc main_v25) = _
  after_results <;> rfl

theorem keep6_v11 : W6 m ρ c (Proc.devRef .tc main_v11) = W5 m ρ c (Proc.devRef .tc main_v11) := by
  show StableHlo.after hostOps3 (W5 m ρ c) (Proc.devRef .tc main_v11) = _
  after_results <;> rfl

theorem keep7_arg2 : W7 m ρ c (Proc.devRef .tc main_arg2) = m ((c.tc : Thread nD τ).loc main_arg2) := by
  have h8 : W8 m ρ c (Proc.devRef .tc main_arg2) = W7 m ρ c (Proc.devRef .tc main_arg2) := by
    show StableHlo.after hostOps4 (W7 m ρ c) (Proc.devRef .tc main_arg2) = _
    after_results <;> rfl
  exact h8.symm.trans ((W9_of_ne m ρ c main_arg2 (by decide)).symm.trans (W9_main_arg2 m ρ c))

theorem keep7_arg3 : W7 m ρ c (Proc.devRef .tc main_arg3) = m ((c.tc : Thread nD τ).loc main_arg3) := by
  have h8 : W8 m ρ c (Proc.devRef .tc main_arg3) = W7 m ρ c (Proc.devRef .tc main_arg3) := by
    show StableHlo.after hostOps4 (W7 m ρ c) (Proc.devRef .tc main_arg3) = _
    after_results <;> rfl
  exact h8.symm.trans ((W9_of_ne m ρ c main_arg3 (by decide)).symm.trans (W9_main_arg3 m ρ c))

theorem keep7_arg8 : W7 m ρ c (Proc.devRef .tc main_arg8) = m ((c.tc : Thread nD τ).loc main_arg8) := by
  have h8 : W8 m ρ c (Proc.devRef .tc main_arg8) = W7 m ρ c (Proc.devRef .tc main_arg8) := by
    show StableHlo.after hostOps4 (W7 m ρ c) (Proc.devRef .tc main_arg8) = _
    after_results <;> rfl
  exact h8.symm.trans ((W9_of_ne m ρ c main_arg8 (by decide)).symm.trans (W9_main_arg8 m ρ c))

theorem keep7_arg9 : W7 m ρ c (Proc.devRef .tc main_arg9) = m ((c.tc : Thread nD τ).loc main_arg9) := by
  have h8 : W8 m ρ c (Proc.devRef .tc main_arg9) = W7 m ρ c (Proc.devRef .tc main_arg9) := by
    show StableHlo.after hostOps4 (W7 m ρ c) (Proc.devRef .tc main_arg9) = _
    after_results <;> rfl
  exact h8.symm.trans ((W9_of_ne m ρ c main_arg9 (by decide)).symm.trans (W9_main_arg9 m ρ c))

/-! ## The composed carries -/

theorem v1_at2 : W2 m ρ c (Proc.devRef .tc main_v1) = W1 m ρ c (Proc.devRef .tc main_v1) := keep2_v1 m ρ c
theorem v3_at2 : W2 m ρ c (Proc.devRef .tc main_v3) = W1 m ρ c (Proc.devRef .tc main_v3) := keep2_v3 m ρ c
theorem v11_at2 : W2 m ρ c (Proc.devRef .tc main_v11) = W1 m ρ c (Proc.devRef .tc main_v11) := keep2_v11 m ρ c
theorem v11_at3 : W3 m ρ c (Proc.devRef .tc main_v11) = W1 m ρ c (Proc.devRef .tc main_v11) :=
  (keep3_v11 m ρ c).trans (v11_at2 m ρ c)
theorem v11_at4 : W4 m ρ c (Proc.devRef .tc main_v11) = W1 m ρ c (Proc.devRef .tc main_v11) :=
  (keep4_v11 m ρ c).trans (v11_at3 m ρ c)
theorem v11_at5 : W5 m ρ c (Proc.devRef .tc main_v11) = W1 m ρ c (Proc.devRef .tc main_v11) :=
  (keep5_v11 m ρ c).trans (v11_at4 m ρ c)
theorem v11_at6 : W6 m ρ c (Proc.devRef .tc main_v11) = W1 m ρ c (Proc.devRef .tc main_v11) :=
  (keep6_v11 m ρ c).trans (v11_at5 m ρ c)
theorem v1_at5 : W5 m ρ c (Proc.devRef .tc main_v1) = W1 m ρ c (Proc.devRef .tc main_v1) :=
  (keep5_v1 m ρ c).trans ((keep4_v1 m ρ c).trans ((keep3_v1 m ρ c).trans (v1_at2 m ρ c)))
theorem v3_at5 : W5 m ρ c (Proc.devRef .tc main_v3) = W1 m ρ c (Proc.devRef .tc main_v3) :=
  (keep5_v3 m ρ c).trans ((keep4_v3 m ρ c).trans ((keep3_v3 m ρ c).trans (v3_at2 m ρ c)))
theorem arg5_at2 : W2 m ρ c (Proc.devRef .tc main_arg5) = m ((c.tc : Thread nD τ).loc main_arg5) :=
  (keep2_arg5 m ρ c).trans (keep1_arg5 m ρ c)
theorem arg6_at4 : W4 m ρ c (Proc.devRef .tc main_arg6) = m ((c.tc : Thread nD τ).loc main_arg6) :=
  (keep4_arg6 m ρ c).trans ((keep3_arg6 m ρ c).trans ((keep2_arg6 m ρ c).trans (keep1_arg6 m ρ c)))
theorem arg7_at5 : W5 m ρ c (Proc.devRef .tc main_arg7) = m ((c.tc : Thread nD τ).loc main_arg7) :=
  (keep5_arg7 m ρ c).trans ((keep4_arg7 m ρ c).trans ((keep3_arg7 m ρ c).trans ((keep2_arg7 m ρ c).trans (keep1_arg7 m ρ c))))

/-! ## What the regions leave -/

theorem out2 : W2 m ρ c (Proc.devRef .tc main_v12)
    = Arrays.proj (W1 m ρ c (Proc.devRef .tc main_arg0)) (W1 m ρ c (Proc.devRef .tc main_arg4)) (W1 m ρ c (Proc.devRef .tc main_v11)) :=
  (W2_arr m ρ c 3).trans (Arrays.final0 (V1 m ρ) c)

theorem out4 : W4 m ρ c (Proc.devRef .tc main_v24)
    = Arrays.combFloor (W3 m ρ c (Proc.devRef .tc main_v22)) (W3 m ρ c (Proc.devRef .tc main_v12))
        (W3 m ρ c (Proc.devRef .tc main_v11)) (W3 m ρ c (Proc.devRef .tc main_v23)) :=
  (W4_arr m ρ c 4).trans (Arrays.final1 (V3 m ρ) c)

theorem out5 : W5 m ρ c (Proc.devRef .tc main_v25)
    = Arrays.proj (W4 m ρ c (Proc.devRef .tc main_v24)) (W4 m ρ c (Proc.devRef .tc main_arg6)) (W4 m ρ c (Proc.devRef .tc main_v11)) :=
  (W5_arr m ρ c 3).trans (Arrays.final2 (V4 m ρ) c)

theorem out7 : W7 m ρ c (Proc.devRef .tc main_v37)
    = Arrays.comb (W6 m ρ c (Proc.devRef .tc main_v35)) (W6 m ρ c (Proc.devRef .tc main_v25))
        (W6 m ρ c (Proc.devRef .tc main_v11)) (W6 m ρ c (Proc.devRef .tc main_v36)) :=
  (W7_arr m ρ c 4).trans (Arrays.final3 (V6 m ρ) c)

theorem out9 : W9 m ρ c (Proc.devRef .tc main_v55)
    = Arrays.scoreArr (W8 m ρ c (Proc.devRef .tc main_v44)) (W8 m ρ c (Proc.devRef .tc main_v51))
        (W8 m ρ c (Proc.devRef .tc main_v52)) (W8 m ρ c (Proc.devRef .tc main_v53)) (W8 m ρ c (Proc.devRef .tc main_v54)) :=
  (W9_arr m ρ c 5).trans (Arrays.final4 (V8 m ρ) c)

/-! ## What the host stretches write -/

theorem host1_v1 : W1 m ρ c (Proc.devRef .tc main_v1)
    = shapeCast S1600000 (extractStridedSlice S1x1600000 ![0, 0] (m ((c.tc : Thread nD τ).loc main_arg1)) slices_S2x1600000_S1x1600000_0_0)
        shapeCasts_S1x1600000_S1600000 := by
  show StableHlo.after hostOps0 (W0 m ρ c) (Proc.devRef .tc main_v1) = _
  after_results <;> rfl

theorem host1_v3 : W1 m ρ c (Proc.devRef .tc main_v3)
    = shapeCast S1600000 (extractStridedSlice S1x1600000 ![1, 0] (m ((c.tc : Thread nD τ).loc main_arg1)) slices_S2x1600000_S1x1600000_1_0)
        shapeCasts_S1x1600000_S1600000 := by
  show StableHlo.after hostOps0 (W0 m ρ c) (Proc.devRef .tc main_v3) = _
  after_results <;> rfl

theorem host1_v11 : W1 m ρ c (Proc.devRef .tc main_v11)
    = shapeCast S100000x1 (Cert.ReferenceIdeal.RefValue.dinvStage
        (broadcastInDim S1600000x1 ![0] bcast_S1600000_S1600000x1_0 (W1 m ρ c (Proc.devRef .tc main_v3)))) shapeCasts_S100000_S100000x1 := by
  rw [host1_v3]
  show StableHlo.after hostOps0 (W0 m ρ c) (Proc.devRef .tc main_v11) = _
  after_results <;> rfl

theorem host3_v22 : W3 m ρ c (Proc.devRef .tc main_v22)
    = Stages.segStage (W2 m ρ c (Proc.devRef .tc main_v12))
        (wrapCol bcast_S1600000_S1600000x1_0 bcast_S_S1600000 (W2 m ρ c (Proc.devRef .tc main_v1)))
        (broadcastInDim S1600000x1 ![0] bcast_S1600000_S1600000x1_0 (W2 m ρ c (Proc.devRef .tc main_v3))) := by
  show StableHlo.after hostOps1 (W2 m ρ c) (Proc.devRef .tc main_v22) = _
  after_results <;> rfl

theorem host3_v23 : W3 m ρ c (Proc.devRef .tc main_v23)
    = shapeCast S1x128 (W2 m ρ c (Proc.devRef .tc main_arg5)) shapeCasts_S128_S1x128 := by
  show StableHlo.after hostOps1 (W2 m ρ c) (Proc.devRef .tc main_v23) = _
  after_results <;> rfl

theorem host6_v35 : W6 m ρ c (Proc.devRef .tc main_v35)
    = Stages.segStage (W5 m ρ c (Proc.devRef .tc main_v25))
        (wrapCol bcast_S1600000_S1600000x1_0 bcast_S_S1600000 (W5 m ρ c (Proc.devRef .tc main_v1)))
        (broadcastInDim S1600000x1 ![0] bcast_S1600000_S1600000x1_0 (W5 m ρ c (Proc.devRef .tc main_v3))) := by
  show StableHlo.after hostOps3 (W5 m ρ c) (Proc.devRef .tc main_v35) = _
  after_results <;> rfl

theorem host6_v36 : W6 m ρ c (Proc.devRef .tc main_v36)
    = shapeCast S1x128 (W5 m ρ c (Proc.devRef .tc main_arg7)) shapeCasts_S128_S1x128 := by
  show StableHlo.after hostOps3 (W5 m ρ c) (Proc.devRef .tc main_v36) = _
  after_results <;> rfl

theorem host8_v44 : W8 m ρ c (Proc.devRef .tc main_v44)
    = Host.gather gather_S100000x128_S500000x1_S500000x128_1_0_n_n_0_1_1128 (W7 m ρ c (Proc.devRef .tc main_v37))
        (wrapCol bcast_S500000_S500000x1_0 bcast_S_S500000 (W7 m ρ c (Proc.devRef .tc main_arg2))) := by
  show StableHlo.after hostOps4 (W7 m ρ c) (Proc.devRef .tc main_v44) = _
  after_results <;> rfl

set_option maxHeartbeats 3200000 in
theorem host8_v51 : W8 m ρ c (Proc.devRef .tc main_v51)
    = Host.gather gather_S100000x128_S500000x1_S500000x128_1_0_n_n_0_1_1128 (W7 m ρ c (Proc.devRef .tc main_v37))
        (wrapCol bcast_S500000_S500000x1_0 bcast_S_S500000 (W7 m ρ c (Proc.devRef .tc main_arg3))) := by
  show StableHlo.after hostOps4 (W7 m ρ c) (Proc.devRef .tc main_v51) = _
  after_results <;> rfl

theorem host8_v52 : W8 m ρ c (Proc.devRef .tc main_v52)
    = extractStridedSlice S128x1 ![0, 0] (W7 m ρ c (Proc.devRef .tc main_arg8)) slices_S256x1_S128x1_0_0 := by
  show StableHlo.after hostOps4 (W7 m ρ c) (Proc.devRef .tc main_v52) = _
  after_results <;> rfl

theorem host8_v53 : W8 m ρ c (Proc.devRef .tc main_v53)
    = extractStridedSlice S128x1 ![128, 0] (W7 m ρ c (Proc.devRef .tc main_arg8)) slices_S256x1_S128x1_128_0 := by
  show StableHlo.after hostOps4 (W7 m ρ c) (Proc.devRef .tc main_v53) = _
  after_results <;> rfl

theorem host8_v54 : W8 m ρ c (Proc.devRef .tc main_v54)
    = shapeCast S1x1 (W7 m ρ c (Proc.devRef .tc main_arg9)) shapeCasts_S1_S1x1 := by
  show StableHlo.after hostOps4 (W7 m ρ c) (Proc.devRef .tc main_v54) = _
  after_results <;> rfl

end Cert.KernelIdeal.Fold

end
-- ==== Proof.KernelValue.lean ====
/-
  The idealized kernel's result as the network of the specification, in the arrangement with the target's factor
  outside the sum over the landing edges.

  Reading the fold of buffer contents entry by entry, from the launch to the result:
    - the two rows of the edge-index array give the source and target words; the factor column holds dinv n;
    - region 0 leaves hs1[n, f] = (x · w1)[n, f] · dinv n;
    - the gather at the wrapped source words and the scatter at the raw target words leave
          seg1[n, f] = sum over the edges landing at n of hs1[row (src e), f];
    - region 1 leaves h1[n, f] = max (dinv n · (seg1[n, f] + hs1[n, f]) + b1[f]) 0, which is the layer, floored;
    - regions 2 and 3 do the same from h1 with w2 and b2, without the floor: h2;
    - the pair stage gathers rows of h2 at the wrapped pair words, and region 4 scores each pair.
-/
import proofs.«118010_j66305705116452_2_alg».proof.Proof.KernelFold
import proofs.«118010_j66305705116452_2_alg».proof.Proof.Spec

set_option maxRecDepth 16384

noncomputable section

open scoped BigOperators

namespace Cert.KernelIdeal.Net

open Cert.KernelIdeal Cert.KernelIdeal.Gen Cert.KernelIdeal.GenP Cert.KernelIdeal.Fold
open Idealize.ShloMosaic Idealize.ShloMosaic.TcCoe Idealize.SL.Sem Idealize.ShloMosaic.ValueIdx
open Cert.ReferenceIdeal.RefValue (wrapCol wrapCol_apply rawCol_apply dinvStage_apply)
open Cert.Gcn (wrap row dinv mm scaled layerK score cur)

variable (m : (ℓ : Loc nD τ sig) → Buf (Elt Ideal) ℓ) (ρ : Dev nD → PrngReg) (c : Dev nD)

/-! ## The argument arrays, as plain functions -/

abbrev aX : S100000x128.Idx → EReal := m ((c.tc : Thread nD τ).loc main_arg0)
abbrev aE : S2x1600000.Idx → BitVec 32 := m ((c.tc : Thread nD τ).loc main_arg1)
abbrev aI : S500000.Idx → BitVec 32 := m ((c.tc : Thread nD τ).loc main_arg2)
abbrev aJ : S500000.Idx → BitVec 32 := m ((c.tc : Thread nD τ).loc main_arg3)
abbrev aW1 : S128x128.Idx → EReal := m ((c.tc : Thread nD τ).loc main_arg4)
abbrev aB1 : S128.Idx → EReal := m ((c.tc : Thread nD τ).loc main_arg5)
abbrev aW2 : S128x128.Idx → EReal := m ((c.tc : Thread nD τ).loc main_arg6)
abbrev aB2 : S128.Idx → EReal := m ((c.tc : Thread nD τ).loc main_arg7)
abbrev aWL : S256x1.Idx → EReal := m ((c.tc : Thread nD τ).loc main_arg8)
abbrev aBL : S1.Idx → EReal := m ((c.tc : Thread nD τ).loc main_arg9)

/-- The source word of edge e. -/
def src (e : Fin 1600000) : BitVec 32 := aE m c (ix2 (0 : Fin 2) e)
/-- The target word of edge e. -/
def dst (e : Fin 1600000) : BitVec 32 := aE m c (ix2 (1 : Fin 2) e)

/-- The first layer's output, floored at zero. -/
def h1 (n : Fin 100000) (f : Fin 128) : EReal :=
  max (layerK (src m c) (dst m c) (cur (aX m c)) (cur (aW1 m c)) (fun k => aB1 m c (ix1 k)) n f) 0
/-- The second layer's output. -/
def h2 : Fin 100000 → Fin 128 → EReal :=
  layerK (src m c) (dst m c) (h1 m c) (cur (aW2 m c)) (fun k => aB2 m c (ix1 k))

/-! ## The buffers read entry by entry, as plain functions -/

abbrev bV1 : S1600000.Idx → BitVec 32 := W1 m ρ c (Proc.devRef .tc main_v1)
abbrev bV3 : S1600000.Idx → BitVec 32 := W1 m ρ c (Proc.devRef .tc main_v3)
abbrev bD : S100000x1.Idx → EReal := W1 m ρ c (Proc.devRef .tc main_v11)
abbrev bHS1 : S100000x128.Idx → EReal := W2 m ρ c (Proc.devRef .tc main_v12)
abbrev bSEG1 : S100000x128.Idx → EReal := W3 m ρ c (Proc.devRef .tc main_v22)
abbrev bB1 : S1x128.Idx → EReal := W3 m ρ c (Proc.devRef .tc main_v23)
abbrev bH1 : S100000x128.Idx → EReal := W4 m ρ c (Proc.devRef .tc main_v24)
abbrev bHS2 : S100000x128.Idx → EReal := W5 m ρ c (Proc.devRef .tc main_v25)
abbrev bSEG2 : S100000x128.Idx → EReal := W6 m ρ c (Proc.devRef .tc main_v35)
abbrev bB2 : S1x128.Idx → EReal := W6 m ρ c (Proc.devRef .tc main_v36)
abbrev bH2 : S100000x128.Idx → EReal := W7 m ρ c (Proc.devRef .tc main_v37)
abbrev bHI : S500000x128.Idx → EReal := W8 m ρ c (Proc.devRef .tc main_v44)
abbrev bHJ : S500000x128.Idx → EReal := W8 m ρ c (Proc.devRef .tc main_v51)
abbrev bWA : S128x1.Idx → EReal := W8 m ρ c (Proc.devRef .tc main_v52)
abbrev bWB : S128x1.Idx → EReal := W8 m ρ c (Proc.devRef .tc main_v53)
abbrev bBL : S1x1.Idx → EReal := W8 m ρ c (Proc.devRef .tc main_v54)
abbrev bOUT : S500000x1.Idx → EReal := W9 m ρ c (Proc.devRef .tc main_v55)

/-! ## The fold's equalities over those names (whole buffers, no arithmetic) -/

theorem eV1 : bV1 m ρ c = shapeCast S1600000 (extractStridedSlice S1x1600000 ![0, 0] (aE m c) slices_S2x1600000_S1x1600000_0_0)
    shapeCasts_S1x1600000_S1600000 := host1_v1 m ρ c
theorem eV3 : bV3 m ρ c = shapeCast S1600000 (extractStridedSlice S1x1600000 ![1, 0] (aE m c) slices_S2x1600000_S1x1600000_1_0)
    shapeCasts_S1x1600000_S1600000 := host1_v3 m ρ c
theorem eD : bD m ρ c = shapeCast S100000x1 (Cert.ReferenceIdeal.RefValue.dinvStage
    (broadcastInDim S1600000x1 ![0] bcast_S1600000_S1600000x1_0 (bV3 m ρ c))) shapeCasts_S100000_S100000x1 := host1_v11 m ρ c
theorem eHS1 : bHS1 m ρ c = Arrays.proj (aX m c) (aW1 m c) (bD m ρ c) := by
  show W2 m ρ c (Proc.devRef .tc main_v12) = _
  rw [out2, keep1_arg0, keep1_arg4]
theorem eSEG1 : bSEG1 m ρ c = Stages.segStage (bHS1 m ρ c) (wrapCol bcast_S1600000_S1600000x1_0 bcast_S_S1600000 (bV1 m ρ c))
    (broadcastInDim S1600000x1 ![0] bcast_S1600000_S1600000x1_0 (bV3 m ρ c)) := by
  show W3 m ρ c (Proc.devRef .tc main_v22) = _
  rw [host3_v22, v1_at2, v3_at2]
theorem eB1 : bB1 m ρ c = shapeCast S1x128 (aB1 m c) shapeCasts_S128_S1x128 := by
  show W3 m ρ c (Proc.devRef .tc main_v23) = _
  rw [host3_v23, arg5_at2]
theorem eH1 : bH1 m ρ c = Arrays.combFloor (bSEG1 m ρ c) (bHS1 m ρ c) (bD m ρ c) (bB1 m ρ c) := by
  show W4 m ρ c (Proc.devRef .tc main_v24) = _
  rw [out4, keep3_v12, v11_at3]
theorem eHS2 : bHS2 m ρ c = Arrays.proj (bH1 m ρ c) (aW2 m c) (bD m ρ c) := by
  show W5 m ρ c (Proc.devRef .tc main_v25) = _
  rw [out5, arg6_at4, v11_at4]
theorem eSEG2 : bSEG2 m ρ c = Stages.segStage (bHS2 m ρ c) (wrapCol bcast_S1600000_S1600000x1_0 bcast_S_S1600000 (bV1 m ρ c))
    (broadcastInDim S1600000x1 ![0] bcast_S1600000_S1600000x1_0 (bV3 m ρ c)) := by
  show W6 m ρ c (Proc.devRef .tc main_v35) = _
  rw [host6_v35, v1_at5, v3_at5]
theorem eB2 : bB2 m ρ c = shapeCast S1x128 (aB2 m c) shapeCasts_S128_S1x128 := by
  show W6 m ρ c (Proc.devRef .tc main_v36) = _
  rw [host6_v36, arg7_at5]
theorem eH2 : bH2 m ρ c = Arrays.comb (bSEG2 m ρ c) (bHS2 m ρ c) (bD m ρ c) (bB2 m ρ c) := by
  show W7 m ρ c (Proc.devRef .tc main_v37) = _
  rw [out7, keep6_v25, v11_at6]
theorem eHI : bHI m ρ c = Host.gather gather_S100000x128_S500000x1_S500000x128_1_0_n_n_0_1_1128 (bH2 m ρ c)
    (wrapCol bcast_S500000_S500000x1_0 bcast_S_S500000 (aI m c)) := by
  show W8 m ρ c (Proc.devRef .tc main_v44) = _
  rw [host8_v44, keep7_arg2]
theorem eHJ : bHJ m ρ c = Host.gather gather_S100000x128_S500000x1_S500000x128_1_0_n_n_0_1_1128 (bH2 m ρ c)
    (wrapCol bcast_S500000_S500000x1_0 bcast_S_S500000 (aJ m c)) := by
  show W8 m ρ c (Proc.devRef .tc main_v51) = _
  rw [host8_v51, keep7_arg3]
theorem eWA : bWA m ρ c = extractStridedSlice S128x1 ![0, 0] (aWL m c) slices_S256x1_S128x1_0_0 := by
  show W8 m ρ c (Proc.devRef .tc main_v52) = _
  rw [host8_v52, keep7_arg8]
theorem eWB : bWB m ρ c = extractStridedSlice S128x1 ![128, 0] (aWL m c) slices_S256x1_S128x1_128_0 := by
  show W8 m ρ c (Proc.devRef .tc main_v53) = _
  rw [host8_v53, keep7_arg8]
theorem eBL : bBL m ρ c = shapeCast S1x1 (aBL m c) shapeCasts_S1_S1x1 := by
  show W8 m ρ c (Proc.devRef .tc main_v54) = _
  rw [host8_v54, keep7_arg9]
theorem eOUT : bOUT m ρ c = Arrays.scoreArr (bHI m ρ c) (bHJ m ρ c) (bWA m ρ c) (bWB m ρ c) (bBL m ρ c) := out9 m ρ c

/-! ## Boundary 1: the edge words and the factor column -/

theorem v1_apply (e : Fin 1600000) : bV1 m ρ c (ix1 e) = src m c e := by
  rw [eV1]
  exact Stages.edge_row_apply (0 : Fin 2) (aE m c) _ _ e

theorem v3_apply (e : Fin 1600000) : bV3 m ρ c (ix1 e) = dst m c e := by
  rw [eV3]
  exact Stages.edge_row_apply (1 : Fin 2) (aE m c) _ _ e

theorem dcol_apply (n : Fin 100000) : bD m ρ c (ix2 n (0 : Fin 1)) = dinv (dst m c) n := by
  rw [eD, Cert.LibKeepdims.shapeCast_a_a1_apply]
  exact dinvStage_apply _ (dst m c) (fun e => (rawCol_apply _ _ e).trans (v3_apply m ρ c e)) n

theorem wrapped_src (e : Fin 1600000) :
    wrapCol bcast_S1600000_S1600000x1_0 bcast_S_S1600000 (bV1 m ρ c) (ix2 e (0 : Fin 1)) = wrap (src m c e) :=
  (wrapCol_apply _ _ _ e).trans (congrArg wrap (v1_apply m ρ c e))

theorem raw_dst (e : Fin 1600000) :
    broadcastInDim S1600000x1 ![0] bcast_S1600000_S1600000x1_0 (bV3 m ρ c) (ix2 e (0 : Fin 1)) = dst m c e :=
  (rawCol_apply _ _ e).trans (v3_apply m ρ c e)

/-! ## Layer 1 -/

theorem hs1_apply (n : Fin 100000) (f : Fin 128) :
    bHS1 m ρ c (ix2 n f) = scaled (dst m c) (cur (aX m c)) (cur (aW1 m c)) n f := by
  rw [eHS1]
  show (∑ k : Fin 128, aX m c (ix2 n k) * aW1 m c (ix2 k f)) * bD m ρ c (ix2 n (0 : Fin 1)) = _
  rw [dcol_apply]
  rfl

theorem seg1_apply (n : Fin 100000) (f : Fin 128) :
    bSEG1 m ρ c (ix2 n f)
      = ∑ e : Fin 1600000, if (dst m c e).toInt = (n.val : ℤ) then
          scaled (dst m c) (cur (aX m c)) (cur (aW1 m c)) (row (wrap (src m c e))) f else 0 := by
  rw [eSEG1, Stages.segStage_apply _ _ _ (src m c) (dst m c) (wrapped_src m ρ c) (raw_dst m ρ c)]
  exact Finset.sum_congr rfl fun e _ => by rw [hs1_apply]

theorem b1_apply (f : Fin 128) : bB1 m ρ c (ix2 (0 : Fin 1) f) = aB1 m c (ix1 f) := by
  rw [eB1, Cert.LibBiasRow.vec_as_row_apply]

theorem h1_apply (n : Fin 100000) (f : Fin 128) : bH1 m ρ c (ix2 n f) = h1 m c n f := by
  rw [eH1]
  show max (bD m ρ c (ix2 n (0 : Fin 1)) * (bSEG1 m ρ c (ix2 n f) + bHS1 m ρ c (ix2 n f)) + bB1 m ρ c (ix2 (0 : Fin 1) f)) 0 = _
  rw [seg1_apply, hs1_apply, dcol_apply, b1_apply]
  rfl

/-! ## Layer 2 -/

theorem hs2_apply (n : Fin 100000) (f : Fin 128) :
    bHS2 m ρ c (ix2 n f) = scaled (dst m c) (h1 m c) (cur (aW2 m c)) n f := by
  rw [eHS2]
  show (∑ k : Fin 128, bH1 m ρ c (ix2 n k) * aW2 m c (ix2 k f)) * bD m ρ c (ix2 n (0 : Fin 1)) = _
  rw [dcol_apply]
  have hk : ∀ k : Fin 128, bH1 m ρ c (ix2 n k) * aW2 m c (ix2 k f) = h1 m c n k * cur (aW2 m c) k f := fun k => by
    rw [h1_apply]; rfl
  rw [Finset.sum_congr rfl fun k _ => hk k]
  rfl

theorem seg2_apply (n : Fin 100000) (f : Fin 128) :
    bSEG2 m ρ c (ix2 n f)
      = ∑ e : Fin 1600000, if (dst m c e).toInt = (n.val : ℤ) then
          scaled (dst m c) (h1 m c) (cur (aW2 m c)) (row (wrap (src m c e))) f else 0 := by
  rw [eSEG2, Stages.segStage_apply _ _ _ (src m c) (dst m c) (wrapped_src m ρ c) (raw_dst m ρ c)]
  exact Finset.sum_congr rfl fun e _ => by rw [hs2_apply]

theorem b2_apply (f : Fin 128) : bB2 m ρ c (ix2 (0 : Fin 1) f) = aB2 m c (ix1 f) := by
  rw [eB2, Cert.LibBiasRow.vec_as_row_apply]

theorem h2_apply (n : Fin 100000) (f : Fin 128) : bH2 m ρ c (ix2 n f) = h2 m c n f := by
  rw [eH2]
  show bD m ρ c (ix2 n (0 : Fin 1)) * (bSEG2 m ρ c (ix2 n f) + bHS2 m ρ c (ix2 n f)) + bB2 m ρ c (ix2 (0 : Fin 1) f) = _
  rw [seg2_apply, hs2_apply, dcol_apply, b2_apply]
  rfl

/-! ## The pair stage -/

theorem hi_apply (p : Fin 500000) (k : Fin 128) : bHI m ρ c (ix2 p k) = h2 m c (row (wrap (aI m c (ix1 p)))) k := by
  rw [eHI, Stages.pairRows_apply _ _ (fun q => aI m c (ix1 q)) (fun q => wrapCol_apply _ _ _ q) p k]
  exact h2_apply m ρ c _ k

theorem hj_apply (p : Fin 500000) (k : Fin 128) : bHJ m ρ c (ix2 p k) = h2 m c (row (wrap (aJ m c (ix1 p)))) k := by
  rw [eHJ, Stages.pairRows_apply _ _ (fun q => aJ m c (ix1 q)) (fun q => wrapCol_apply _ _ _ q) p k]
  exact h2_apply m ρ c _ k

theorem wa_apply (k : Fin 128) : bWA m ρ c (ix2 k (0 : Fin 1)) = aWL m c (ix2 (Fin.castAdd 128 k : Fin 256) (0 : Fin 1)) := by
  rw [eWA, Stages.lowHalf_apply]

theorem wb_apply (k : Fin 128) : bWB m ρ c (ix2 k (0 : Fin 1)) = aWL m c (ix2 (Fin.natAdd 128 k : Fin 256) (0 : Fin 1)) := by
  rw [eWB, Stages.highHalf_apply]

theorem bl_apply : bBL m ρ c (ix2 (0 : Fin 1) (0 : Fin 1)) = aBL m c (ix1 (0 : Fin 1)) := by
  rw [eBL, Cert.LibBiasRow.vec_as_row_apply]

/-- THE RESULT: the buffer the run ends with is the network of the ten argument arrays. -/
theorem result :
    W9 m ρ c (Proc.devRef .tc main_v55)
      = Cert.Gcn.net layerK (aX m c) (aE m c) (aI m c) (aJ m c) (aW1 m c) (aB1 m c) (aW2 m c) (aB2 m c) (aWL m c) (aBL m c) := by
  show bOUT m ρ c = _
  rw [eOUT]
  funext i
  obtain ⟨p, u, rfl⟩ : ∃ (p : Fin 500000) (u : Fin 1), i = ix2 p u := ⟨i 0, i 1, eq_ix2 i⟩
  obtain rfl : u = 0 := Subsingleton.elim _ _
  show Ideal.logistic ((∑ k : Fin 128, bHI m ρ c (ix2 p k) * bWA m ρ c (ix2 k (0 : Fin 1)))
        + (∑ k : Fin 128, bHJ m ρ c (ix2 p k) * bWB m ρ c (ix2 k (0 : Fin 1)))
        + bBL m ρ c (ix2 (0 : Fin 1) (0 : Fin 1)))
    = score (h2 m c) (fun k => aWL m c (ix2 (k : Fin 256) (0 : Fin 1))) (aBL m c (ix1 (0 : Fin 1))) (aI m c (ix1 p)) (aJ m c (ix1 p))
  have e1 : ∀ k : Fin 128, bHI m ρ c (ix2 p k) * bWA m ρ c (ix2 k (0 : Fin 1))
      = h2 m c (row (wrap (aI m c (ix1 p)))) k * aWL m c (ix2 (Fin.castAdd 128 k : Fin 256) (0 : Fin 1)) := fun k => by
    rw [hi_apply, wa_apply]
  have e2 : ∀ k : Fin 128, bHJ m ρ c (ix2 p k) * bWB m ρ c (ix2 k (0 : Fin 1))
      = h2 m c (row (wrap (aJ m c (ix1 p)))) k * aWL m c (ix2 (Fin.natAdd 128 k : Fin 256) (0 : Fin 1)) := fun k => by
    rw [hj_apply, wb_apply]
  rw [Finset.sum_congr rfl fun k _ => e1 k, Finset.sum_congr rfl fun k _ => e2 k, bl_apply]
  rfl

end Cert.KernelIdeal.Net

end
-- ==== Proof.LibConcatColumns.lean ====
/-
  TWO MATRICES JOINED SIDE BY SIDE, READ AT AN INDEX. The concatenation along axis 1 of an [n, a] matrix and an
  [n, b] matrix into [n, c]: entry (p, k) of the result is the left matrix's (p, k) for a column k of the left
  piece, and the right matrix's (p, k) at result column a + k. General in the extents and in the element type.
-/
import Idealize.ShloMosaic.Lib.Pipeline.Value
import Idealize.ShloMosaic.Lib.ValueIdx

namespace Cert.LibConcatColumns

open Idealize.ShloMosaic Idealize.ShloMosaic.ValueIdx

variable {α : Type} {n a b c : ℕ}

/-- A column of the left piece: the result's entry there is the left matrix's entry. -/
theorem concat_cols_left (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (k : Fin a) (hk : k.val < c) :
    concatenate (⟨2, ![n, c]⟩ : Shape) 1 [⟨⟨2, ![n, a]⟩, x₁⟩, ⟨⟨2, ![n, b]⟩, x₂⟩] h (ix2 p (⟨k.val, hk⟩ : Fin c)) = x₁ (ix2 p k) :=
  concatenate_pair_apply_left (1 : Fin 2) x₁ x₂ h (ix2 p (⟨k.val, hk⟩ : Fin c)) rfl (ix2 p k)
    (fun d => match d with | ⟨0, _⟩ => rfl | ⟨1, _⟩ => rfl)

/-- A column of the right piece: the result's entry at column a + k is the right matrix's entry at column k. -/
theorem concat_cols_right (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, c]⟩ 1) (p : Fin n) (k : Fin b) (hk : a + k.val < c) :
    concatenate (⟨2, ![n, c]⟩ : Shape) 1 [⟨⟨2, ![n, a]⟩, x₁⟩, ⟨⟨2, ![n, b]⟩, x₂⟩] h (ix2 p (⟨a + k.val, hk⟩ : Fin c)) = x₂ (ix2 p k) :=
  concatenate_pair_apply_right (1 : Fin 2) x₁ x₂ h (ix2 p (⟨a + k.val, hk⟩ : Fin c)) rfl rfl (ix2 p k)
    (fun d => match d with
      | ⟨0, _⟩ => fun _ => rfl
      | ⟨1, _⟩ => fun hne => absurd rfl hne)
    (show k.val + a = a + k.val from Nat.add_comm _ _)

end Cert.LibConcatColumns
-- ==== Proof.LibSplitContraction.lean ====
/-
  A contraction against two matrices joined side by side splits into the two pieces' contractions.

  For an [n, a] matrix x₁ and an [n, b] matrix x₂ joined along the columns into [n, a + b], and any weights w on the
  a + b columns, row p of the join contracted with w is the contraction of row p of x₁ with the first a weights plus
  the contraction of row p of x₂ with the last b weights:
      sum_{k < a + b} join(p, k) * w(k)  =  sum_{j < a} x₁(p, j) * w(j)  +  sum_{j < b} x₂(p, j) * w(a + j).
  Only the commutative-monoid structure of the sum is used (no distributivity), so it holds on the extended reals.
  General in the extents and the element type.
-/
import Idealize.ShloMosaic.Lib.Pipeline.Value
import Idealize.ShloMosaic.Lib.ValueIdx
import proofs.«118010_j66305705116452_2_alg».proof.Proof.LibConcatColumns

namespace Cert.LibSplitContraction

open Idealize.ShloMosaic Idealize.ShloMosaic.ValueIdx

variable {α : Type} [AddCommMonoid α] [Mul α] {n a b : ℕ}

theorem sum_concat_cols (x₁ : (⟨2, ![n, a]⟩ : Shape).Idx → α) (x₂ : (⟨2, ![n, b]⟩ : Shape).Idx → α)
    (h : Shape.Concatenates [(⟨2, ![n, a]⟩ : Shape), ⟨2, ![n, b]⟩] ⟨2, ![n, a + b]⟩ 1) (w : Fin (a + b) → α) (p : Fin n) :
    ∑ k : Fin (a + b), concatenate (⟨2, ![n, a + b]⟩ : Shape) 1 [⟨⟨2, ![n, a]⟩, x₁⟩, ⟨⟨2, ![n, b]⟩, x₂⟩] h (ix2 p k) * w k
      = ∑ j : Fin a, x₁ (ix2 p j) * w (Fin.castAdd b j) + ∑ j : Fin b, x₂ (ix2 p j) * w (Fin.natAdd a j) := by
  rw [Fin.sum_univ_add]
  refine congrArg₂ (· + ·) (Finset.sum_congr rfl fun j _ => ?_) (Finset.sum_congr rfl fun j _ => ?_)
  · exact congrArg (· * w (Fin.castAdd b j))
      (Cert.LibConcatColumns.concat_cols_left x₁ x₂ h p j (Nat.lt_of_lt_of_le j.isLt (Nat.le_add_right a b)))
  · exact congrArg (· * w (Fin.natAdd a j))
      (Cert.LibConcatColumns.concat_cols_right x₁ x₂ h p j (Nat.add_lt_add_left j.isLt a))

end Cert.LibSplitContraction
-- ==== Proof.RefValue.lean ====
/-
  The reference network, stage by stage, is the network of the specification with both factors on each edge's
  message.

  The source words are row 0 and the target words row 1 of the edge array. Every gather reads at the wrapped words,
  every scatter lands at the raw target words. The vector of inverse square roots of the degrees is the
  specification's dinv; each dot product against a weight matrix is the specification's row-against-column sum; so
  each of the two layers is the specification's layer with both factors on each message, the first floored at
  zero. For a pair p the two gathered rows of the second layer, joined side by side and contracted with the 256
  weights, are the two 128-term sums against the first and the last 128 weights; adding the bias and taking
  1 / (1 + exp(-t)) is the logistic.
-/
import proofs.«118010_j66305705116452_2_alg».proof.Proof.Gen.ReferenceIdeal.Read
import proofs.«118010_j66305705116452_2_alg».proof.Proof.Spec
import proofs.«118010_j66305705116452_2_alg».proof.Proof.RefStages
import proofs.«118010_j66305705116452_2_alg».proof.Proof.LibRowGather
import proofs.«118010_j66305705116452_2_alg».proof.Proof.LibSplitContraction

noncomputable section

open scoped BigOperators

namespace Cert.ReferenceIdeal.RefValue

open Cert.ReferenceIdeal Cert.ReferenceIdeal.Gen Cert.ReferenceIdeal.Read Idealize.ShloMosaic Idealize.ShloMosaic.ValueIdx

/-- The source words are row 0 of the edge array. -/
theorem src_word (x1 : (⟨S2x1600000, .i32⟩ : BufTy).Contents (Elt Ideal)) (e : Fin 1600000) : val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- The target words are row 1 of the edge array. -/
theorem dst_word (x1 : (⟨S2x1600000, .i32⟩ : BufTy).Contents (Elt Ideal)) (e : Fin 1600000) : val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-! The columns of index words the gathers and scatters read: wrapped source words, wrapped target words, raw
    target words. -/

theorem col17 (x1 : (⟨S2x1600000, .i32⟩ : BufTy).Contents (Elt Ideal)) (e : Fin 1600000) :
    val_main_v17 (F := Ideal) x1 (ix2 e (0 : Fin 1)) = Cert.Gcn.wrap (x1 (ix2 (0 : Fin 2) e)) := by
  have h : val_main_v17 (F := Ideal) x1 = wrapCol bcast_S1600000_S1600000x1_0 bcast_S_S1600000 (val_main_v1 (F := Ideal) x1) := rfl
  rw [h, wrapCol_apply, src_word]

theorem col24 (x1 : (⟨S2x1600000, .i32⟩ : BufTy).Contents (Elt Ideal)) (e : Fin 1600000) :
    val_main_v24 (F := Ideal) x1 (ix2 e (0 : Fin 1)) = Cert.Gcn.wrap (x1 (ix2 (1 : Fin 2) e)) := by
  have h : val_main_v24 (F := Ideal) x1 = wrapCol bcast_S1600000_S1600000x1_0 bcast_S_S1600000 (val_main_v3 (F := Ideal) x1) := rfl
  rw [h, wrapCol_apply, dst_word]

theorem col32 (x1 : (⟨S2x1600000, .i32⟩ : BufTy).Contents (Elt Ideal)) (e : Fin 1600000) :
    val_main_v32 (F := Ideal) x1 (ix2 e (0 : Fin 1)) = Cert.Gcn.wrap (x1 (ix2 (0 : Fin 2) e)) := by
  have h : val_main_v32 (F := Ideal) x1 = wrapCol bcast_S1600000_S1600000x1_0 bcast_S_S1600000 (val_main_v1 (F := Ideal) x1) := rfl
  rw [h, wrapCol_apply, src_word]

theorem col55 (x1 : (⟨S2x1600000, .i32⟩ : BufTy).Contents (Elt Ideal)) (e : Fin 1600000) :
    val_main_v55 (F := Ideal) x1 (ix2 e (0 : Fin 1)) = Cert.Gcn.wrap (x1 (ix2 (0 : Fin 2) e)) := by
  have h : val_main_v55 (F := Ideal) x1 = wrapCol bcast_S1600000_S1600000x1_0 bcast_S_S1600000 (val_main_v1 (F := Ideal) x1) := rfl
  rw [h, wrapCol_apply, src_word]

theorem col62 (x1 : (⟨S2x1600000, .i32⟩ : BufTy).Contents (Elt Ideal)) (e : Fin 1600000) :
    val_main_v62 (F := Ideal) x1 (ix2 e (0 : Fin 1)) = Cert.Gcn.wrap (x1 (ix2 (1 : Fin 2) e)) := by
  have h : val_main_v62 (F := Ideal) x1 = wrapCol bcast_S1600000_S1600000x1_0 bcast_S_S1600000 (val_main_v3 (F := Ideal) x1) := rfl
  rw [h, wrapCol_apply, dst_word]

theorem col70 (x1 : (⟨S2x1600000, .i32⟩ : BufTy).Contents (Elt Ideal)) (e : Fin 1600000) :
    val_main_v70 (F := Ideal) x1 (ix2 e (0 : Fin 1)) = Cert.Gcn.wrap (x1 (ix2 (0 : Fin 2) e)) := by
  have h : val_main_v70 (F := Ideal) x1 = wrapCol bcast_S1600000_S1600000x1_0 bcast_S_S1600000 (val_main_v1 (F := Ideal) x1) := rfl
  rw [h, wrapCol_apply, src_word]

theorem col91 (x2 : (⟨S500000, .i32⟩ : BufTy).Contents (Elt Ideal)) (e : Fin 500000) :
    val_main_v91 (F := Ideal) x2 (ix2 e (0 : Fin 1)) = Cert.Gcn.wrap (x2 (ix1 e)) := by
  have h : val_main_v91 (F := Ideal) x2 = wrapCol bcast_S500000_S500000x1_0 bcast_S_S500000 (x2) := rfl
  rw [h, wrapCol_apply]

theorem col98 (x3 : (⟨S500000, .i32⟩ : BufTy).Contents (Elt Ideal)) (e : Fin 500000) :
    val_main_v98 (F := Ideal) x3 (ix2 e (0 : Fin 1)) = Cert.Gcn.wrap (x3 (ix1 e)) := by
  have h : val_main_v98 (F := Ideal) x3 = wrapCol bcast_S500000_S500000x1_0 bcast_S_S500000 (x3) := rfl
  rw [h, wrapCol_apply]

theorem col6 (x1 : (⟨S2x1600000, .i32⟩ : BufTy).Contents (Elt Ideal)) (e : Fin 1600000) :
    val_main_v6 (F := Ideal) x1 (ix2 e (0 : Fin 1)) = x1 (ix2 (1 : Fin 2) e) := by
  have h : val_main_v6 (F := Ideal) x1 = broadcastInDim S1600000x1 ![0] bcast_S1600000_S1600000x1_0 (val_main_v3 (F := Ideal) x1) := rfl
  rw [h, rawCol_apply, dst_word]

theorem col38 (x1 : (⟨S2x1600000, .i32⟩ : BufTy).Contents (Elt Ideal)) (e : Fin 1600000) :
    val_main_v38 (F := Ideal) x1 (ix2 e (0 : Fin 1)) = x1 (ix2 (1 : Fin 2) e) := by
  have h : val_main_v38 (F := Ideal) x1 = broadcastInDim S1600000x1 ![0] bcast_S1600000_S1600000x1_0 (val_main_v3 (F := Ideal) x1) := rfl
  rw [h, rawCol_apply, dst_word]

theorem col76 (x1 : (⟨S2x1600000, .i32⟩ : BufTy).Contents (Elt Ideal)) (e : Fin 1600000) :
    val_main_v76 (F := Ideal) x1 (ix2 e (0 : Fin 1)) = x1 (ix2 (1 : Fin 2) e) := by
  have h : val_main_v76 (F := Ideal) x1 = broadcastInDim S1600000x1 ![0] bcast_S1600000_S1600000x1_0 (val_main_v3 (F := Ideal) x1) := rfl
  rw [h, rawCol_apply, dst_word]

/-- The vector of inverse square roots of the degrees. -/
theorem ref_dinv (x1 : (⟨S2x1600000, .i32⟩ : BufTy).Contents (Elt Ideal)) (n : Fin 100000) :
    val_main_v10 (F := Ideal) x1 (ix1 n) = Cert.Gcn.dinv (fun e => x1 (ix2 (1 : Fin 2) e)) n := by
  have h : val_main_v10 (F := Ideal) x1 = dinvStage (val_main_v6 (F := Ideal) x1) := rfl
  rw [h]
  exact dinvStage_apply _ _ (col6 x1) n

/-- The first projection: row m of x against column g of the first weights. -/
theorem ref_mm1 (x0 : (⟨S100000x128, .f32⟩ : BufTy).Contents (Elt Ideal)) (x4 : (⟨S128x128, .f32⟩ : BufTy).Contents (Elt Ideal)) (m : Fin 100000) (g : Fin 128) :
    val_main_v11 (F := Ideal) x0 x4 (ix2 m g) = Cert.Gcn.mm (Cert.Gcn.cur x0) (Cert.Gcn.cur x4) m g := by
  rw [val_main_v11_apply]
  unfold Cert.Gcn.mm Cert.Gcn.cur
  refine Finset.sum_congr rfl fun k _ => ?_
  have hl : lidx_main_v11 (ix2 m g) k = ix2 m k :=
    funext fun a => Fin.ext (by match a with | ⟨0, _⟩ => rfl | ⟨1, _⟩ => rfl)
  have hr : ridx_main_v11 (ix2 m g) k = ix2 k g :=
    funext fun a => Fin.ext (by match a with | ⟨0, _⟩ => rfl | ⟨1, _⟩ => rfl)
  rw [hl, hr]

/-- The first layer before its floor. -/
theorem ref_pre1 (x0 : (⟨S100000x128, .f32⟩ : BufTy).Contents (Elt Ideal)) (x1 : (⟨S2x1600000, .i32⟩ : BufTy).Contents (Elt Ideal)) (x4 : (⟨S128x128, .f32⟩ : BufTy).Contents (Elt Ideal)) (x5 : (⟨S128, .f32⟩ : BufTy).Contents (Elt Ideal)) (n : Fin 100000) (f : Fin 128) :
    val_main_v47 (F := Ideal) x0 x1 x4 x5 (ix2 n f) = Cert.Gcn.layerR (fun e => x1 (ix2 (0 : Fin 2) e)) (fun e => x1 (ix2 (1 : Fin 2) e)) (Cert.Gcn.cur x0) (Cert.Gcn.cur x4) (fun k => x5 (ix1 k)) n f := by
  have h : val_main_v47 (F := Ideal) x0 x1 x4 x5 = layerStage (val_main_v10 (F := Ideal) x1) (val_main_v11 (F := Ideal) x0 x4) (val_main_v17 (F := Ideal) x1)
      (val_main_v24 (F := Ideal) x1) (val_main_v32 (F := Ideal) x1) (val_main_v38 (F := Ideal) x1) x5 := rfl
  rw [h]
  exact layerStage_apply _ _ _ _ _ _ _ _ _ _ _ (col17 x1) (col24 x1) (col32 x1) (col38 x1) (ref_dinv x1) (ref_mm1 x0 x4) n f

/-- The first layer, floored at zero. -/
theorem ref_h1 (x0 : (⟨S100000x128, .f32⟩ : BufTy).Contents (Elt Ideal)) (x1 : (⟨S2x1600000, .i32⟩ : BufTy).Contents (Elt Ideal)) (x4 : (⟨S128x128, .f32⟩ : BufTy).Contents (Elt Ideal)) (x5 : (⟨S128, .f32⟩ : BufTy).Contents (Elt Ideal)) (n : Fin 100000) (f : Fin 128) :
    val_main_v48 (F := Ideal) x0 x1 x4 x5 (ix2 n f) = max (Cert.Gcn.layerR (fun e => x1 (ix2 (0 : Fin 2) e)) (fun e => x1 (ix2 (1 : Fin 2) e)) (Cert.Gcn.cur x0) (Cert.Gcn.cur x4) (fun k => x5 (ix1 k)) n f) 0 := by
  rw [val_main_v48_apply, val_main_call0_v0_apply, val_main_call0_cst_apply, ref_pre1, Ideal.maximumf_def,
    Ideal.ofBits_def, Ideal.ofBits_zero_f32]

/-- The second projection: row m of the floored first layer against column g of the second weights. -/
theorem ref_mm2 (x0 : (⟨S100000x128, .f32⟩ : BufTy).Contents (Elt Ideal)) (x1 : (⟨S2x1600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (m : Fin 100000) (g : Fin 128) :
    val_main_v49 (F := Ideal) x0 x1 x4 x5 x6 (ix2 m g) = Cert.Gcn.mm (fun n k => val_main_v48 (F := Ideal) x0 x1 x4 x5 (ix2 n k)) (Cert.Gcn.cur x6) m g := by
  rw [val_main_v49_apply]
  unfold Cert.Gcn.mm Cert.Gcn.cur
  refine Finset.sum_congr rfl fun k _ => ?_
  have hl : lidx_main_v49 (ix2 m g) k = ix2 m k :=
    funext fun a => Fin.ext (by match a with | ⟨0, _⟩ => rfl | ⟨1, _⟩ => rfl)
  have hr : ridx_main_v49 (ix2 m g) k = ix2 k g :=
    funext fun a => Fin.ext (by match a with | ⟨0, _⟩ => rfl | ⟨1, _⟩ => rfl)
  rw [hl, hr]

/-- The second layer, as a layer over the floored first layer. -/
theorem ref_h2 (x0 : (⟨S100000x128, .f32⟩ : BufTy).Contents (Elt Ideal)) (x1 : (⟨S2x1600000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (n : Fin 100000) (f : Fin 128) :
    val_main_v85 (F := Ideal) x0 x1 x4 x5 x6 x7 (ix2 n f) = Cert.Gcn.layerR (fun e => x1 (ix2 (0 : Fin 2) e)) (fun e => x1 (ix2 (1 : Fin 2) e)) (fun n k => val_main_v48 (F := Ideal) x0 x1 x4 x5 (ix2 n k)) (Cert.Gcn.cur x6) (fun k => x7 (ix1 k)) n f := by
  have h : val_main_v85 (F := Ideal) x0 x1 x4 x5 x6 x7 = layerStage (val_main_v10 (F := Ideal) x1) (val_main_v49 (F := Ideal) x0 x1 x4 x5 x6) (val_main_v55 (F := Ideal) x1)
      (val_main_v62 (F := Ideal) x1) (val_main_v70 (F := Ideal) x1) (val_main_v76 (F := Ideal) x1) x7 := rfl
  rw [h]
  exact layerStage_apply _ _ _ _ _ _ _ _ _ _ _ (col55 x1) (col62 x1) (col70 x1) (col76 x1) (ref_dinv x1)
    (ref_mm2 x0 x1 x4 x5 x6) n f

/-- The first gathered row of a pair: the second layer's row at the wrapped first word. -/
theorem ref_g92 (x0 : (⟨S100000x128, .f32⟩ : BufTy).Contents (Elt Ideal)) (x1 : (⟨S2x1600000, .i32⟩ : BufTy).Contents (Elt Ideal)) (x2 : (⟨S500000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (p : Fin 500000) (k : Fin 128) :
    val_main_v92 (F := Ideal) x0 x1 x2 x4 x5 x6 x7 (ix2 p k)
      = val_main_v85 (F := Ideal) x0 x1 x4 x5 x6 x7 (ix2 (Cert.Gcn.row (Cert.Gcn.wrap (x2 (ix1 p)))) k) := by
  unfold val_main_v92
  rw [Cert.LibRowGather.rowGather_apply (N := 100000) (D := 128) (E := 500000) (by decide) _ rfl rfl rfl rfl rfl rfl rfl]
  show val_main_v85 (F := Ideal) x0 x1 x4 x5 x6 x7 (ix2 (Cert.Gcn.row (val_main_v91 (F := Ideal) x2 (ix2 p (0 : Fin 1)))) k) = _
  rw [col91]

/-- The second gathered row of a pair: the second layer's row at the wrapped second word. -/
theorem ref_g99 (x0 : (⟨S100000x128, .f32⟩ : BufTy).Contents (Elt Ideal)) (x1 : (⟨S2x1600000, .i32⟩ : BufTy).Contents (Elt Ideal)) (x3 : (⟨S500000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (p : Fin 500000) (k : Fin 128) :
    val_main_v99 (F := Ideal) x0 x1 x3 x4 x5 x6 x7 (ix2 p k)
      = val_main_v85 (F := Ideal) x0 x1 x4 x5 x6 x7 (ix2 (Cert.Gcn.row (Cert.Gcn.wrap (x3 (ix1 p)))) k) := by
  unfold val_main_v99
  rw [Cert.LibRowGather.rowGather_apply (N := 100000) (D := 128) (E := 500000) (by decide) _ rfl rfl rfl rfl rfl rfl rfl]
  show val_main_v85 (F := Ideal) x0 x1 x4 x5 x6 x7 (ix2 (Cert.Gcn.row (val_main_v98 (F := Ideal) x3 (ix2 p (0 : Fin 1)))) k) = _
  rw [col98]

/-- The contraction of the joined rows with the 256 weights splits into the two 128-term sums. -/
theorem ref_dot (x0 : (⟨S100000x128, .f32⟩ : BufTy).Contents (Elt Ideal)) (x1 : (⟨S2x1600000, .i32⟩ : BufTy).Contents (Elt Ideal)) (x2 x3 : (⟨S500000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x1, .f32⟩ : BufTy).Contents (Elt Ideal)) (p : Fin 500000) :
    val_main_v101 (F := Ideal) x0 x1 x2 x3 x4 x5 x6 x7 x8 (ix2 p (0 : Fin 1))
      = (∑ k : Fin 128, val_main_v85 (F := Ideal) x0 x1 x4 x5 x6 x7 (ix2 (Cert.Gcn.row (Cert.Gcn.wrap (x2 (ix1 p)))) k)
            * x8 (ix2 (Fin.castAdd 128 k : Fin (128 + 128)) (0 : Fin 1)))
        + ∑ k : Fin 128, val_main_v85 (F := Ideal) x0 x1 x4 x5 x6 x7 (ix2 (Cert.Gcn.row (Cert.Gcn.wrap (x3 (ix1 p)))) k)
            * x8 (ix2 (Fin.natAdd 128 k : Fin (128 + 128)) (0 : Fin 1)) := by
  rw [val_main_v101_apply]
  have hl : ∀ k : Fin 256, lidx_main_v101 (ix2 p (0 : Fin 1)) k = ix2 p k := fun k =>
    funext fun a => Fin.ext (by match a with | ⟨0, _⟩ => rfl | ⟨1, _⟩ => rfl)
  have hr : ∀ k : Fin 256, ridx_main_v101 (ix2 p (0 : Fin 1)) k = ix2 k (0 : Fin 1) := fun k =>
    funext fun a => Fin.ext (by match a with | ⟨0, _⟩ => rfl | ⟨1, _⟩ => rfl)
  have hsum : (∑ k : Fin 256, (val_main_v100 (F := Ideal) x0 x1 x2 x3 x4 x5 x6 x7) (lidx_main_v101 (ix2 p (0 : Fin 1)) k)
        * x8 (ridx_main_v101 (ix2 p (0 : Fin 1)) k))
      = ∑ k : Fin 256, (val_main_v100 (F := Ideal) x0 x1 x2 x3 x4 x5 x6 x7) (ix2 p k) * x8 (ix2 k (0 : Fin 1)) :=
    Finset.sum_congr rfl fun k _ => by rw [hl, hr]
  rw [hsum]
  unfold val_main_v100
  refine (Cert.LibSplitContraction.sum_concat_cols (n := 500000) (a := 128) (b := 128)
    (val_main_v92 (F := Ideal) x0 x1 x2 x4 x5 x6 x7) (val_main_v99 (F := Ideal) x0 x1 x3 x4 x5 x6 x7)
    concatenates_S500000x128_S500000x128_S500000x256_d1 (fun k => x8 (ix2 k (0 : Fin 1))) p).trans ?_
  refine congrArg₂ (fun s t : EReal => s + t) (Finset.sum_congr rfl fun k _ => ?_) (Finset.sum_congr rfl fun k _ => ?_)
  · rw [ref_g92]
  · rw [ref_g99]

/-- The bias of the scorer, spread over the pairs. -/
theorem ref_bias (x9 : (⟨S1, .f32⟩ : BufTy).Contents (Elt Ideal)) (p : Fin 500000) : val_main_v103 (F := Ideal) x9 (ix2 p (0 : Fin 1)) = x9 (ix1 (0 : Fin 1)) := by
  rw [val_main_v103_apply, val_main_v102_apply]
  refine congrArg x9 (funext fun a => Fin.ext ?_)
  match a with
  | ⟨0, _⟩ => rfl

/-- THE REFERENCE IS THE NETWORK with both factors on each edge's message. -/
theorem ref_value (x0 : (⟨S100000x128, .f32⟩ : BufTy).Contents (Elt Ideal)) (x1 : (⟨S2x1600000, .i32⟩ : BufTy).Contents (Elt Ideal)) (x2 x3 : (⟨S500000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S256x1, .f32⟩ : BufTy).Contents (Elt Ideal)) (x9 : (⟨S1, .f32⟩ : BufTy).Contents (Elt Ideal)) :
    Cert.ReferenceIdeal.Read.val_main_v110 (F := Ideal) x0 x1 x2 x3 x4 x5 x6 x7 x8 x9
      = Cert.Gcn.net Cert.Gcn.layerR x0 x1 x2 x3 x4 x5 x6 x7 x8 x9 := by
  funext i
  obtain ⟨p, q, rfl⟩ : ∃ (p : Fin 500000) (q : Fin 1), i = ix2 p q := ⟨i 0, i 1, eq_ix2 i⟩
  obtain rfl : q = 0 := Subsingleton.elim _ _
  have hh1 : (fun n k => val_main_v48 (F := Ideal) x0 x1 x4 x5 (ix2 n k)) = fun n f => max (Cert.Gcn.layerR (fun e => x1 (ix2 (0 : Fin 2) e)) (fun e => x1 (ix2 (1 : Fin 2) e)) (Cert.Gcn.cur x0) (Cert.Gcn.cur x4) (fun k => x5 (ix1 k)) n f) 0 :=
    funext fun n => funext fun f => ref_h1 x0 x1 x4 x5 n f
  have hh2 : (fun n k => val_main_v85 (F := Ideal) x0 x1 x4 x5 x6 x7 (ix2 n k))
      = Cert.Gcn.layerR (fun e => x1 (ix2 (0 : Fin 2) e)) (fun e => x1 (ix2 (1 : Fin 2) e)) (fun n f => max (Cert.Gcn.layerR (fun e => x1 (ix2 (0 : Fin 2) e)) (fun e => x1 (ix2 (1 : Fin 2) e)) (Cert.Gcn.cur x0) (Cert.Gcn.cur x4) (fun k => x5 (ix1 k)) n f) 0) (Cert.Gcn.cur x6) (fun k => x7 (ix1 k)) := by
    rw [← hh1]
    exact funext fun n => funext fun f => ref_h2 x0 x1 x4 x5 x6 x7 n f
  rw [val_main_v110_apply, val_main_v109_apply, val_main_cst_20_apply, val_main_v108_apply, val_main_v107_apply,
    val_main_cst_19_apply, val_main_v106_apply, val_main_v105_apply, val_main_v104_apply, ref_dot, ref_bias,
    Ideal.hostDivf_def, Ideal.addf_def, Ideal.hostUnary_exp_def, Ideal.hostNegf_def, Ideal.negf_def, Ideal.addf_def,
    Ideal.ofBits_def, Cert.Gcn.one_word]
  show _ = Cert.Gcn.score
    (Cert.Gcn.layerR (fun e => x1 (ix2 (0 : Fin 2) e)) (fun e => x1 (ix2 (1 : Fin 2) e)) (fun n f => max (Cert.Gcn.layerR (fun e => x1 (ix2 (0 : Fin 2) e)) (fun e => x1 (ix2 (1 : Fin 2) e)) (Cert.Gcn.cur x0) (Cert.Gcn.cur x4) (fun k => x5 (ix1 k)) n f) 0) (Cert.Gcn.cur x6) (fun k => x7 (ix1 k)))
    (fun k => x8 (ix2 (k : Fin 256) (0 : Fin 1))) (x9 (ix1 (0 : Fin 1))) (x2 (ix1 p)) (x3 (ix1 p))
  rw [← hh2]
  rfl

end Cert.ReferenceIdeal.RefValue

end
-- ==== Proof.LibClipBins.lean ====
/-
  Facts about 32-bit two's-complement words as the program's integer operations compute them.

  (1) A signed maximum with 0 followed by a signed minimum with 63 lands in the interval [0, 63].
  (2) The negative-index wrap "if z < 0 then z + k else z" is the identity on a non-negative word.
  (3) A natural number below 2^31, written as a 32-bit word, reads back signed as itself.
  (4) For words y, x in [0, 63], the row-major bin number 64 * y + x of a 64 x 64 plane is computed without
      wrap-around, so it equals the word of q < 4096 exactly when y = q / 64 and x = q % 64.
  (5) The one-hot entry: the equality bit of two words, zero-extended to 32 bits and converted to an extended real,
      is 1 when the words are equal and 0 otherwise.
-/
import Idealize.ShloMosaic.Lib.ValueIdx
import Idealize.ShloMosaic.PureOps.Ideal

namespace Cert.LibClipBins

open Idealize.ShloMosaic

/-- Signed "less than" on words is "less than" on their signed readings. -/
theorem slt_iff (x y : BitVec 32) : x.slt y = true ↔ x.toInt < y.toInt := by
  simp [BitVec.slt]

theorem toInt_zero32 : (0#32 : BitVec 32).toInt = 0 := by decide
theorem toInt_63 : (63#32 : BitVec 32).toInt = 63 := by decide

/-- Clipping to [0, 63]: signed maximum with 0, then signed minimum with 63. -/
theorem clip_range (y : BitVec 32) :
    0 ≤ (IntOp.minsi 63#32 (IntOp.maxsi 0#32 y)).toInt ∧ (IntOp.minsi 63#32 (IntOp.maxsi 0#32 y)).toInt ≤ 63 := by
  unfold IntOp.minsi IntOp.maxsi
  by_cases h1 : y.slt 0#32 = true
  · rw [if_pos h1]
    have h2 : ¬ ((63#32 : BitVec 32).slt 0#32 = true) := by decide
    rw [if_neg h2, toInt_zero32]; omega
  · rw [if_neg h1]
    rw [slt_iff, toInt_zero32] at h1
    by_cases h2 : (63#32 : BitVec 32).slt y = true
    · rw [if_pos h2, toInt_63]; omega
    · rw [if_neg h2]
      rw [slt_iff, toInt_63] at h2
      omega

/-- The negative-index wrap is the identity on a non-negative word. -/
theorem wrap_of_nonneg (z k : BitVec 32) (hz : 0 ≤ z.toInt) :
    Scalar.select (IntOp.cmpi .slt z 0#32) (IntOp.addi z k) z = z := by
  have h : z.slt 0#32 = false := by
    rw [Bool.eq_false_iff]; intro h
    rw [slt_iff, toInt_zero32] at h; omega
  simp [Scalar.select, IntOp.cmpi, h]

/-- A natural number below 2^31, as a 32-bit word, reads back signed as itself. -/
theorem ofNat_toInt (n : ℕ) (h : n < 2 ^ 31) : (BitVec.ofNat 32 n).toInt = (n : ℤ) := by
  rw [BitVec.toInt_eq_toNat_cond, BitVec.toNat_ofNat]
  have h1 : n % 2 ^ 32 = n := Nat.mod_eq_of_lt (by omega)
  rw [h1]
  split_ifs with h2
  · rfl
  · omega

/-- A word whose signed reading lies in [0, 63] has that unsigned reading too. -/
theorem toNat_of_range (y : BitVec 32) (hy : 0 ≤ y.toInt ∧ y.toInt ≤ 63) : (y.toNat : ℤ) = y.toInt := by
  have h := BitVec.toInt_eq_toNat_cond y
  have hlt := y.isLt
  split_ifs at h with h2
  · omega
  · omega

/-- The row-major bin number of a 64 x 64 plane, computed in 32-bit words. -/
theorem bin_eq_iff (y x : BitVec 32) (hy : 0 ≤ y.toInt ∧ y.toInt ≤ 63) (hx : 0 ≤ x.toInt ∧ x.toInt ≤ 63)
    (q : ℕ) (hq : q < 4096) :
    IntOp.addi (IntOp.muli y 64#32) x = BitVec.ofNat 32 q ↔
      y.toInt = ((q / 64 : ℕ) : ℤ) ∧ x.toInt = ((q % 64 : ℕ) : ℤ) := by
  have hyn := toNat_of_range y hy
  have hxn := toNat_of_range x hx
  unfold IntOp.addi IntOp.muli
  rw [← BitVec.toNat_inj, BitVec.toNat_add, BitVec.toNat_mul]
  simp only [BitVec.toNat_ofNat]
  have hy' : y.toNat ≤ 63 := by omega
  have hx' : x.toNat ≤ 63 := by omega
  have e0 : 64 % 2 ^ 32 = 64 := by norm_num
  have e1 : y.toNat * 64 % 2 ^ 32 = y.toNat * 64 := Nat.mod_eq_of_lt (by omega)
  have e2 : (y.toNat * 64 + x.toNat) % 2 ^ 32 = y.toNat * 64 + x.toNat := Nat.mod_eq_of_lt (by omega)
  have e3 : q % 2 ^ 32 = q := Nat.mod_eq_of_lt (by omega)
  rw [e0, e1, e2, e3]
  omega

/-- The one-hot entry at one element: the equality bit, widened and converted, is the indicator of equality. -/
theorem onehot_entry (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  unfold IntOp.cmpi
  by_cases h : a = b
  · subst h
    simp
  · have hb : (a == b) = false := by simpa using h
    simp [h, hb]

/-- The one-hot entry of a vector-level comparison read at an index. -/
theorem onehot_apply {s : Shape} (a b : IVec s 32) (hw : 1 < 32) (i : s.Idx) :
    sitofp (F := Ideal) .f32 (extui 32 (cmpi .eq a b) hw) i = if a i = b i then (1 : EReal) else 0 :=
  onehot_entry (a i) (b i)

end Cert.LibClipBins
-- ==== Proof.LibUnitRow.lean ====
/-
  Scaling to unit length, on the extended reals. For a positive real s the reciprocal square root of s is the
  real number (√s)⁻¹, and dividing by √s is multiplying by that number: so x · rsqrt s and x / √s are one
  extended real, for every x. For a real s ≥ 0 the square root is nonzero exactly when s is positive. A finite
  sum of real numbers, read in the extended reals, is the sum of the terms read there.
-/
import Idealize.ShloMosaic.PureOps.Ideal

noncomputable section

namespace Cert.LibUnitRow

open Idealize.ShloMosaic

/-- The square root of a nonnegative real, on the extended reals, is the real square root. -/
theorem sqrt_coe_of_nonneg {s : ℝ} (hs : 0 ≤ s) : Ideal.sqrt (s : EReal) = ((Real.sqrt s : ℝ) : EReal) := by
  rw [Ideal.sqrt_coe, if_neg (not_lt.mpr hs)]

/-- A nonnegative real whose square root is not zero is positive. -/
theorem pos_of_sqrt_ne_zero {s : ℝ} (hs : 0 ≤ s) (h : Ideal.sqrt (s : EReal) ≠ 0) : 0 < s := by
  rcases hs.lt_or_eq with h0 | h0
  · exact h0
  · exfalso
    apply h
    rw [← h0, sqrt_coe_of_nonneg le_rfl, Real.sqrt_zero, EReal.coe_zero]

/-- For a positive real s: x · rsqrt s = x / √s, for every extended real x. -/
theorem mul_rsqrt_eq_div_sqrt (x : EReal) {s : ℝ} (hs : 0 < s) :
    x * Ideal.rsqrt (s : EReal) = Ideal.div x (Ideal.sqrt (s : EReal)) := by
  rw [Ideal.rsqrt_coe, if_neg (not_lt.mpr hs.le), if_neg hs.ne', sqrt_coe_of_nonneg hs.le,
    Ideal.div_coe (Real.sqrt_pos.mpr hs).ne', one_div]

/-- A finite sum of reals, read in the extended reals, is the sum of its terms read there. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of squares of reals, read in the extended reals, is a nonnegative real. -/
theorem sum_sq_real {ι : Type*} (s : Finset ι) (f : ι → ℝ) :
    ∑ i ∈ s, (f i : EReal) * (f i : EReal) = ((∑ i ∈ s, f i * f i : ℝ) : EReal)
      ∧ 0 ≤ ∑ i ∈ s, f i * f i := by
  refine ⟨?_, Finset.sum_nonneg fun i _ => mul_self_nonneg (f i)⟩
  rw [coe_sum]
  exact Finset.sum_congr rfl fun i _ => (EReal.coe_mul _ _).symm

end Cert.LibUnitRow

end
-- ==== Proof.LibScaleSum.lean ====
/-
  A NONNEGATIVE REAL FACTOR AND A FINITE SUM OF EXTENDED REALS. On the extended reals multiplication does not distribute
  over addition in general: the sum of the two infinities is the obstacle, so x · (a + b) = x · a + x · b can fail when
  x is infinite or negative. It does hold for a factor that is a nonnegative real, and hence, by induction on the index
  set, such a factor goes inside any finite sum, whatever extended reals the summands are (no finiteness of the
  summands is needed). This is the step that lets a per-row scale be applied once after a sum of gathered rows instead
  of to each summand: a normalisation factor known to be a nonnegative real (a reciprocal square root of a count plus
  one, a softmax weight, a reciprocal of a positive count) commutes with a scatter-add or a reduction.
-/
import Idealize.ShloMosaic.PureOps.Ideal

open scoped BigOperators

namespace Cert.LibScaleSum

/-- A nonnegative real distributes over a finite sum of extended reals. -/
theorem coe_mul_sum (r : ℝ) (hr : 0 ≤ r) {ι : Type*} (s : Finset ι) (g : ι → EReal) :
    (r : EReal) * ∑ i ∈ s, g i = ∑ i ∈ s, (r : EReal) * g i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The same with the factor on the right. -/
theorem sum_mul_coe (r : ℝ) (hr : 0 ≤ r) {ι : Type*} (s : Finset ι) (g : ι → EReal) :
    (∑ i ∈ s, g i) * (r : EReal) = ∑ i ∈ s, g i * (r : EReal) := by
  rw [mul_comm, coe_mul_sum r hr]
  exact Finset.sum_congr rfl fun i _ => mul_comm _ _

end Cert.LibScaleSum
-- ==== Proof.LayerAlgebra.lean ====
/-
  The algebra of one graph-convolution layer on the extended reals.

  The degree of a node is a finite sum of zeros and ones plus one, so it is a real number at least one, and its
  inverse square root is the nonnegative real (sqrt deg)^(-1). Multiplication on the extended reals is commutative
  and associative with no finiteness needed, but it distributes over addition only under a side condition (the
  sum of the two infinities is the obstacle); a nonnegative REAL factor does distribute, over a sum of two terms
  and hence over any finite sum. An edge whose target word reads the node number n is read back, after the
  negative-index wrap and the clamp to the last row, as row n itself. With these three facts the layer with the
  target's factor outside the sum over the landing edges equals the layer with both factors on each message,
  whatever extended reals the projected features are.
-/
import proofs.«118010_j66305705116452_2_alg».proof.Proof.Spec
import proofs.«118010_j66305705116452_2_alg».proof.Proof.LibClipBins
import proofs.«118010_j66305705116452_2_alg».proof.Proof.LibUnitRow
import proofs.«118010_j66305705116452_2_alg».proof.Proof.LibScaleSum

noncomputable section

open scoped BigOperators

namespace Cert.Gcn

open Idealize.ShloMosaic Idealize.ShloMosaic.ValueIdx

/-- A word that reads a node number is not negative, so the wrap leaves it, and the row read for it is that node. -/
theorem row_of_lands (z : BitVec 32) (n : Fin 100000) (h : z.toInt = (n.val : Int)) : row (wrap z) = n := by
  have hz : 0 ≤ z.toInt := by rw [h]; exact Int.natCast_nonneg _
  have hw : wrap z = z := Cert.LibClipBins.wrap_of_nonneg z 100000#32 hz
  rw [hw]
  apply Fin.ext
  show min z.toInt.toNat (100000 - 1) = n.val
  rw [h, Int.toNat_natCast]
  have := n.isLt
  omega

/-- The degree is a real number, at least one: a finite sum of zeros and ones, plus one. -/
theorem deg_real (dst : Fin 1600000 → BitVec 32) (n : Fin 100000) :
    ∃ r : ℝ, 1 ≤ r ∧ deg dst n = (r : EReal) := by
  refine ⟨(∑ e : Fin 1600000, if (dst e).toInt = (n.val : ℤ) then (1 : ℝ) else 0) + 1, ?_, ?_⟩
  · have h0 : 0 ≤ ∑ e : Fin 1600000, if (dst e).toInt = (n.val : ℤ) then (1 : ℝ) else 0 :=
      Finset.sum_nonneg fun e _ => by split_ifs <;> norm_num
    linarith
  · unfold deg
    rw [EReal.coe_add, Cert.LibUnitRow.coe_sum, EReal.coe_one]
    refine congrArg (fun t : EReal => t + 1) (Finset.sum_congr rfl fun e _ => ?_)
    split_ifs <;> simp

/-- The inverse square root of the degree is a nonnegative real: the degree is a real at least one. -/
theorem dinv_real (dst : Fin 1600000 → BitVec 32) (n : Fin 100000) :
    Exists fun r : Real => 0 ≤ r ∧ dinv dst n = (r : EReal) := by
  obtain ⟨d, hd, he⟩ := deg_real dst n
  refine ⟨(Real.sqrt d)⁻¹, inv_nonneg.mpr (Real.sqrt_nonneg d), ?_⟩
  unfold dinv
  rw [he, Ideal.rsqrt_coe, if_neg (not_lt.mpr (by linarith)), if_neg (ne_of_gt (by linarith))]

/-- The two arrangements of a layer agree: the target's factor is a nonnegative real, so it goes inside the
    sum over the landing edges, and an edge landing at n has n as the row read for its target word. -/
theorem layerK_eq_layerR : layerK = layerR := by
  funext src dst x w b n f
  obtain ⟨r, hr, he⟩ := dinv_real dst n
  have hr0 : (0 : EReal) ≤ (r : EReal) := EReal.coe_nonneg.mpr hr
  unfold layerK layerR
  refine congrArg (fun t : EReal => t + b f) ?_
  rw [he, EReal.left_distrib_of_nonneg_of_ne_top hr0 (EReal.coe_ne_top r), Cert.LibScaleSum.coe_mul_sum r hr]
  refine congrArg₂ (fun s t : EReal => s + t) ?_ ?_
  · refine Finset.sum_congr rfl fun e _ => ?_
    split_ifs with hc
    · rw [row_of_lands (dst e) n hc, he]
      unfold scaled
      rw [mul_comm (r : EReal), mul_assoc]
    · exact mul_zero _
  · unfold scaled
    rw [he, mul_comm (mm x w n f), mul_assoc]

/-- The network over either arrangement is the same function. -/
theorem net_K_eq_R : net layerK = net layerR := by rw [layerK_eq_layerR]

end Cert.Gcn

end
-- ==== Proof.lean ====
/-
  A two-layer graph convolution network with a pair scorer, as a TPU kernel and as plain array code: the certificate.

  Both programs compute, for each of 500000 pairs of node words (i, j), the logistic of
      h2[i] · wl[0:128] + h2[j] · wl[128:256] + bl,
  where h2 is the second of two graph convolution layers over 100000 nodes and 1600000 edges,
      layer(x)[n] = sum over the edges e landing at n of (x · w)[src e] · (dinv[src e] · dinv n)  +  dinv n · dinv n · (x · w)[n]  +  b,
  dinv n = (1 + the number of edges landing at n) ^ (-1/2), the first layer floored at zero.

  The array code forms each edge's message with both factors and sums the messages. The kernel folds the source's
  factor into the projection (hs = (x · w) · dinv), sums the gathered rows of hs over the landing edges, and multiplies
  by the target's factor once, after the sum: dinv n · (sum + hs[n]) + b. The two are the same function on the
  extended reals because dinv n is a nonnegative REAL whatever the edge words are (the degree is a count plus one), and
  a nonnegative real distributes over a sum of extended reals; associativity and commutativity of the product do the
  rest. No finiteness of the float inputs is used. The kernel's narrow-format stores are the identity on the extended
  reals, its matrix products into zero accumulators are plain sums, and its logistic is 1 / (1 + exp (-x)), which is
  how the array code spells it. The scorer's one contraction over 256 features against the concatenated pair is the
  kernel's two contractions over 128.

  The frames: each kernel program is five regions among four stretches of host operations, and terminates with its
  arguments unchanged; the array code is a straight line of host operations. The idealized kernel is the kernel's own
  text read on the extended reals: the idealization rewrote nothing, so there is nothing to preserve.
-/
import proofs.«118010_j66305705116452_2_alg».proof.Defs
import proofs.«118010_j66305705116452_2_alg».proof.Proof.Gen.Kernel
import proofs.«118010_j66305705116452_2_alg».proof.Proof.Gen.KernelIdeal
import proofs.«118010_j66305705116452_2_alg».proof.Proof.Gen.ReferenceIdeal
import proofs.«118010_j66305705116452_2_alg».proof.Proof.Gen.Pre_finite_inputs
import proofs.«118010_j66305705116452_2_alg».proof.Proof.Gen.ReferenceIdeal.Run
import proofs.«118010_j66305705116452_2_alg».proof.Proof.Gen.ReferenceIdeal.Read
import proofs.«118010_j66305705116452_2_alg».proof.Proof.KernelFrameP
import proofs.«118010_j66305705116452_2_alg».proof.Proof.KernelIdealFrameP
import proofs.«118010_j66305705116452_2_alg».proof.Proof.KernelRun
import proofs.«118010_j66305705116452_2_alg».proof.Proof.KernelValue
import proofs.«118010_j66305705116452_2_alg».proof.Proof.RefValue
import proofs.«118010_j66305705116452_2_alg».proof.Proof.LayerAlgebra
import Idealize.ShloMosaic.Adequacy
import Idealize.ShloMosaic.Init

noncomputable section

namespace Cert.Proof

open Idealize.ShloMosaic Idealize.SL.Sem

/-- The kernel as printed terminates, nothing faulting, its arguments unchanged. -/
theorem frame_kernel : Cert.frame_Kernel := fun m ρ _ => Cert.Kernel.GenP.frame m ρ

/-- So does the kernel read on the extended reals. -/
theorem frame_kernelIdeal : Cert.frame_KernelIdeal := fun m ρ _ => Cert.KernelIdeal.GenP.frame m ρ

/-- The array code's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the ten arguments both programs end with the network of those arguments: the kernel in
    the arrangement with the target's factor outside the sum, the array code with both factors on each message, and
    the two arrangements are one function. -/
theorem algebraic : Cert.algebraic_KernelIdeal_ReferenceIdeal := by
  intro m ρ m' ρ' _ hagree
  refine ⟨fun c => Cert.Gcn.net Cert.Gcn.layerK (Cert.KernelIdeal.Net.aX m c) (Cert.KernelIdeal.Net.aE m c)
      (Cert.KernelIdeal.Net.aI m c) (Cert.KernelIdeal.Net.aJ m c) (Cert.KernelIdeal.Net.aW1 m c) (Cert.KernelIdeal.Net.aB1 m c)
      (Cert.KernelIdeal.Net.aW2 m c) (Cert.KernelIdeal.Net.aB2 m c) (Cert.KernelIdeal.Net.aWL m c) (Cert.KernelIdeal.Net.aBL m c), ?_, ?_⟩
  · exact (θ_run Cert.KernelIdeal.defs _ _).mono
      (fun r h c => ⟨(h c).1.trans (Cert.KernelIdeal.Net.result m ρ c), (h c).2⟩) (Cert.KernelIdeal.Named.run m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v110_eq, Cert.ReferenceIdeal.RefValue.ref_value, Cert.Gcn.net_K_eq_R,
      h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
